-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S1x8192 : Shape := ⟨2, ![1, 8192]⟩
abbrev S1 : Shape := ⟨1, ![1]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x16 .f32) (main_arg10 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg9
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S1 .f32) (main_arg5 : FVec F S512x128 .f32) (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x8192 .f32) (main_arg1 : FVec F S8192x8192 .f32) (main_arg2 : FVec F S8192x512 .f32) (main_arg3 : FVec F S1x8192 .f32) (main_arg4 : FVec F S1 .f32) (main_arg5 : FVec F S512x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_arg7 main_arg8 main_arg9 main_arg10 main_v13 main_v16
-- ==== Kernel.lean ====
abbrev S8192x8192 : Shape := ⟨2, ![8192, 8192]⟩
abbrev S8192x512 : Shape := ⟨2, ![8192, 512]⟩
abbrev S1x8192 : Shape := ⟨2, ![1, 8192]⟩
abbrev S1 : Shape := ⟨1, ![1]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S8192 : Shape := ⟨1, ![8192]⟩
abbrev S_ : Shape := ⟨0, ![]⟩
abbrev S8192x8 : Shape := ⟨2, ![8192, 8]⟩
abbrev S1024x1024 : Shape := ⟨2, ![1024, 1024]⟩
abbrev S1024x8 : Shape := ⟨2, ![1024, 8]⟩
abbrev S8192x1 : Shape := ⟨2, ![8192, 1]⟩
abbrev S1x1 : Shape := ⟨2, ![1, 1]⟩
abbrev S8192x2 : Shape := ⟨2, ![8192, 2]⟩
abbrev S8192x128 : Shape := ⟨2, ![8192, 128]⟩
abbrev S1x128 : Shape := ⟨2, ![1, 128]⟩
abbrev S1024x128 : Shape := ⟨2, ![1024, 128]⟩
abbrev S1x1024 : Shape := ⟨2, ![1, 1024]⟩
abbrev S1024x4096 : Shape := ⟨2, ![1024, 4096]⟩
abbrev S4096x128 : Shape := ⟨2, ![4096, 128]⟩
abbrev S8192x16 : Shape := ⟨2, ![8192, 16]⟩
abbrev S1x16 : Shape := ⟨2, ![1, 16]⟩
abbrev S4096x16 : Shape := ⟨2, ![4096, 16]⟩
abbrev S1024x16 : Shape := ⟨2, ![1024, 16]⟩

abbrev nBuf : Space → Nat
  | .hbm => 84
  | .vmem => 45
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S1x8192, .f32⟩
  | .hbm, ⟨4, _⟩ => ⟨S1, .f32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S8192, .f32⟩
  | .hbm, ⟨12, _⟩ => ⟨S_, .f32⟩
  | .hbm, ⟨13, _⟩ => ⟨S8192x8, .f32⟩
  | .hbm, ⟨14, _⟩ => ⟨S_, .i32⟩
  | .hbm, ⟨15, _⟩ => ⟨S1, .i32⟩
  | .hbm, ⟨16, _⟩ => ⟨S8192x8, .f32⟩
  | .hbm, ⟨17, _⟩ => ⟨S8192x8, .bf16⟩
  | .hbm, ⟨18, _⟩ => ⟨S_, .f32⟩
  | .hbm, ⟨19, _⟩ => ⟨S8192x8, .f32⟩
  | .hbm, ⟨20, _⟩ => ⟨S_, .i32⟩
  | .hbm, ⟨21, _⟩ => ⟨S1, .i32⟩
  | .hbm, ⟨22, _⟩ => ⟨S8192x8, .f32⟩
  | .hbm, ⟨23, _⟩ => ⟨S8192x8, .bf16⟩
  | .hbm, ⟨24, _⟩ => ⟨S8192x8, .f32⟩
  | .hbm, ⟨25, _⟩ => ⟨S8192x1, .f32⟩
  | .hbm, ⟨26, _⟩ => ⟨S1x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S1x1, .f32⟩
  | .hbm, ⟨31, _⟩ => ⟨S8192x1, .f32⟩
  | .hbm, ⟨32, _⟩ => ⟨S8192x1, .f32⟩
  | .hbm, ⟨33, _⟩ => ⟨S8192x2, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x2, .f32⟩
  | .hbm, ⟨41, _⟩ => ⟨S8192x2, .f32⟩
  | .hbm, ⟨42, _⟩ => ⟨S8192x2, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x2, .f32⟩
  | .hbm, ⟨47, _⟩ => ⟨S8192x2, .f32⟩
  | .hbm, ⟨48, _⟩ => ⟨S8192x1, .f32⟩
  | .hbm, ⟨49, _⟩ => ⟨S8192x1, .f32⟩
  | .hbm, ⟨50, _⟩ => ⟨S1x8192, .f32⟩
  | .hbm, ⟨51, _⟩ => ⟨S1x8192, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .bf16⟩
  | .hbm, ⟨56, _⟩ => ⟨S8192x128, .f32⟩
  | .hbm, ⟨57, _⟩ => ⟨S8192x128, .f32⟩
  | .hbm, ⟨58, _⟩ => ⟨S8192x128, .bf16⟩
  | .hbm, ⟨59, _⟩ => ⟨S1x128, .f32⟩
  | .hbm, ⟨60, _⟩ => ⟨S8192x128, .f32⟩
  | .hbm, ⟨61, _⟩ => ⟨S8192x8192, .bf16⟩
  | .hbm, ⟨62, _⟩ => ⟨S8192x128, .f32⟩
  | .hbm, ⟨63, _⟩ => ⟨S8192x128, .bf16⟩
  | .hbm, ⟨64, _⟩ => ⟨S1x128, .f32⟩
  | .hbm, ⟨65, _⟩ => ⟨S8192x128, .f32⟩
  | .hbm, ⟨66, _⟩ => ⟨S8192x16, .f32⟩
  | .hbm, ⟨67, _⟩ => ⟨S8192x16, .bf16⟩
  | .hbm, ⟨68, _⟩ => ⟨S1x16, .f32⟩
  | .hbm, ⟨69, _⟩ => ⟨S8192x16, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x16, .f32⟩
  | .hbm, ⟨83, _⟩ => ⟨S8192x16, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x8, .bf16⟩
  | .local _ .vmem, ⟨5, _⟩ => ⟨S1024x8, .bf16⟩
  | .local _ .vmem, ⟨6, _⟩ => ⟨S1024x8, .bf16⟩
  | .local _ .vmem, ⟨7, _⟩ => ⟨S1024x8, .bf16⟩
  | .local _ .vmem, ⟨8, _⟩ => ⟨S1024x8, .f32⟩
  | .local _ .vmem, ⟨9, _⟩ => ⟨S1024x8, .f32⟩
  | .local _ .vmem, ⟨10, _⟩ => ⟨S1024x8, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x128, .f32⟩
  | .local _ .vmem, ⟨24, _⟩ => ⟨S1024x128, .f32⟩
  | .local _ .vmem, ⟨25, _⟩ => ⟨S1024x128, .f32⟩
  | .local _ .vmem, ⟨26, _⟩ => ⟨S1024x1024, .bf16⟩
  | .local _ .vmem, ⟨27, _⟩ => ⟨S1024x1024, .bf16⟩
  | .local _ .vmem, ⟨28, _⟩ => ⟨S1024x128, .f32⟩
  | .local _ .vmem, ⟨29, _⟩ => ⟨S1024x4096, .bf16⟩
  | .local _ .vmem, ⟨30, _⟩ => ⟨S1024x4096, .bf16⟩
  | .local _ .vmem, ⟨31, _⟩ => ⟨S4096x128, .bf16⟩
  | .local _ .vmem, ⟨32, _⟩ => ⟨S4096x128, .bf16⟩
  | .local _ .vmem, ⟨33, _⟩ => ⟨S1x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x4096, .bf16⟩
  | .local _ .vmem, ⟨38, _⟩ => ⟨S1024x4096, .bf16⟩
  | .local _ .vmem, ⟨39, _⟩ => ⟨S4096x16, .bf16⟩
  | .local _ .vmem, ⟨40, _⟩ => ⟨S4096x16, .bf16⟩
  | .local _ .vmem, ⟨41, _⟩ => ⟨S1x16, .f32⟩
  | .local _ .vmem, ⟨42, _⟩ => ⟨S1024x16, .f32⟩
  | .local _ .vmem, ⟨43, _⟩ => ⟨S1024x16, .f32⟩
  | .local _ .vmem, ⟨44, _⟩ => ⟨S1024x16, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc2_scratch0 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg3_1 : Ref sig .tc := ⟨.vmem, 43, rfl⟩
abbrev cc3_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem3_1 : DmaSem sig := 40

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_23 : BitVec 32 := 0#32
  let v36 : BitVec 1 := Scalar.cmpi .ne v35 c0_i32_23
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 2], ![false, false]⟩

def k3_cond2 (i : grid3.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x16 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S1x8192_S8192 : S1x8192.ShapeCasts S8192
  bcast_S_S8192x8 : S_.BroadcastsInDim S8192x8 (![] : Fin 0 → Fin S8192x8.rank)
  bcast_S_S1 : S_.BroadcastsInDim S1 (![] : Fin 0 → Fin S1.rank)
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x1024_S1024x1024_0_0 : ∀ a, (![0, 0] : Fin 2 → Nat) a + S1024x1024.size a ≤ S1024x1024.size a
  h_S1024x1024 : 0 < S1024x1024.numel
  slices_S8192x8_S8192x1_0_0 : S8192x8.Slices ![0, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  slices_S8192x8_S8192x1_0_1 : S8192x8.Slices ![0, 1] S8192x1
  concatenates_S8192x1_S8192x1_S8192x2_d1 : Shape.Concatenates [S8192x1, S8192x1] S8192x2 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  shapeCasts_S8192x1_S1x8192 : S8192x1.ShapeCasts S1x8192
  bcast_S8192x1_S8192x128_0_1 : S8192x1.BroadcastsInDim S8192x128 (![0, 1] : Fin 2 → Fin S8192x128.rank)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reducesTo_S8192x16_S8192_d1 : S8192x16.ReducesTo [1] S8192
  bcast_S8192x1_S8192x16_0_1 : S8192x1.BroadcastsInDim S8192x16 (![0, 1] : Fin 2 → Fin S8192x16.rank)
  scatter_S8192x8_S1_S8192_0_1_1_0_wf : ScatterDims.WF S8192x8 S1 S8192 [0] [1] [1] 0
  dot_S1024x1024_S1024x8_S1024x8_1_0_0_1_n_n_wf : DotDims.WF S1024x1024 S1024x8 S1024x8 [1] [0] [0] [1] [] []
  dot_S8192x512_S512x128_S8192x128_1_0_0_1_n_n_wf : DotDims.WF S8192x512 S512x128 S8192x128 [1] [0] [0] [1] [] []
  dot_S1024x1024_S1024x128_S1024x128_1_0_0_1_n_n_wf : DotDims.WF S1024x1024 S1024x128 S1024x128 [1] [0] [0] [1] [] []
  dot_S8192x128_S128x128_S8192x128_1_0_0_1_n_n_wf : DotDims.WF S8192x128 S128x128 S8192x128 [1] [0] [0] [1] [] []
  dot_S1024x4096_S4096x128_S1024x128_1_0_0_1_n_n_wf : DotDims.WF S1024x4096 S4096x128 S1024x128 [1] [0] [0] [1] [] []
  dot_S8192x128_S128x16_S8192x16_1_0_0_1_n_n_wf : DotDims.WF S8192x128 S128x16 S8192x16 [1] [0] [0] [1] [] []
  dot_S1024x4096_S4096x16_S1024x16_1_0_0_1_n_n_wf : DotDims.WF S1024x4096 S4096x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S8192x8.size a
  hwx0_2 : ∀ i : grid0.Coords, EltTy.bits .bf16 = 32 ∨ (Rect.block (s := S8192x8) S1024x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8192x8.size a
  hwx0_3 : ∀ i : grid0.Coords, EltTy.bits .bf16 = 32 ∨ (Rect.block (s := S8192x8) S1024x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S8192x8.size a
  hwx0_4 : ∀ i : grid0.Coords, EltTy.bits .f32 = 32 ∨ (Rect.block (s := S8192x8) S1024x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .f32 = 32 ∨ (Rect.block (s := S1x8192) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .f32 = 32 ∨ (Rect.block (s := S1x8192) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x1024.size a ≤ S8192x8192.size a
  hwx1_8 : ∀ i : grid1.Coords, EltTy.bits .bf16 = 32 ∨ (Rect.block (s := S8192x8192) S1024x1024.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x8192.size a
  hwx2_0 : ∀ i : grid2.Coords, EltTy.bits .bf16 = 32 ∨ (Rect.block (s := S8192x8192) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S8192x128.size a
  hwx2_1 : ∀ i : grid2.Coords, EltTy.bits .bf16 = 32 ∨ (Rect.block (s := S8192x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x4096.size a ≤ S8192x8192.size a
  hwx3_0 : ∀ i : grid3.Coords, EltTy.bits .bf16 = 32 ∨ (Rect.block (s := S8192x8192) S1024x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x16.size a ≤ S8192x16.size a
  hwx3_1 : ∀ i : grid3.Coords, EltTy.bits .bf16 = 32 ∨ (Rect.block (s := S8192x16) S4096x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x16.size a ≤ S8192x16.size a
  hwx3_3 : ∀ i : grid3.Coords, EltTy.bits .f32 = 32 ∨ (Rect.block (s := S8192x16) S1024x16.size (cc3_transform_3 i) (hinb3_3 i)).WholeWords (EltTy.packing .f32)

variable [Facts₀]

def scatter_S8192x8_S1_S8192_0_1_1_0 : ScatterDims S8192x8 S1 S8192 where
  updateWindowDims := [0]
  insertedWindowDims := [1]
  scatterDimsToOperandDims := [1]
  indexVectorDim := 0
  wf := scatter_S8192x8_S1_S8192_0_1_1_0_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42_0) S1024x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v42_1) S1024x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun _ => false | ⟨_ + 9, h⟩ => absurd h (Nat.not_lt.2 (Nat.le_add_left _ _))

abbrev win2_0 : Pipeline.Window sig grid2 :=
  Pipeline.Window.ofSpec (Memref.whole main_v42_1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42_1) S1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S4096x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1024x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S1x8192 : Shape := ⟨2, ![1, 8192]⟩
abbrev S1 : Shape := ⟨1, ![1]⟩
abbrev S512x128 : Shape := ⟨2, ![512, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S8192x1 : Shape := ⟨2, ![8192, 1]⟩
abbrev S1x1 : Shape := ⟨2, ![1, 1]⟩
abbrev S8192x2 : Shape := ⟨2, ![8192, 2]⟩
abbrev S_ : Shape := ⟨0, ![]⟩
abbrev S8192 : Shape := ⟨1, ![8192]⟩
abbrev S8192x128 : Shape := ⟨2, ![8192, 128]⟩
abbrev S1x128 : Shape := ⟨2, ![1, 128]⟩
abbrev S8192x16 : Shape := ⟨2, ![8192, 16]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S1x8192, .f32⟩
  | .hbm, ⟨4, _⟩ => ⟨S1, .f32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S8192x1, .f32⟩
  | .hbm, ⟨12, _⟩ => ⟨S8192x1, .f32⟩
  | .hbm, ⟨13, _⟩ => ⟨S1x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S1x1, .f32⟩
  | .hbm, ⟨19, _⟩ => ⟨S8192x1, .f32⟩
  | .hbm, ⟨20, _⟩ => ⟨S8192x1, .f32⟩
  | .hbm, ⟨21, _⟩ => ⟨S8192x2, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x2, .f32⟩
  | .hbm, ⟨29, _⟩ => ⟨S8192x2, .f32⟩
  | .hbm, ⟨30, _⟩ => ⟨S8192x2, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2, .f32⟩
  | .hbm, ⟨35, _⟩ => ⟨S8192x2, .f32⟩
  | .hbm, ⟨36, _⟩ => ⟨S8192x1, .f32⟩
  | .hbm, ⟨37, _⟩ => ⟨S8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x1, .f32⟩
  | .hbm, ⟨42, _⟩ => ⟨S8192, .f32⟩
  | .hbm, ⟨43, _⟩ => ⟨S1x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S8192x128, .f32⟩
  | .hbm, ⟨63, _⟩ => ⟨S8192x16, .f32⟩
  | .hbm, ⟨64, _⟩ => ⟨S8192x16, .f32⟩
  | .hbm, ⟨65, _⟩ => ⟨S1x16, .f32⟩
  | .hbm, ⟨66, _⟩ => ⟨S8192x16, .f32⟩
  | .hbm, ⟨67, _⟩ => ⟨S8192x16, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192x1, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x16, .f32⟩
  | .hbm, ⟨81, _⟩ => ⟨S8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_cst : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  transposes_S1x8192_S8192x1_1_0 : S1x8192.Transposes [1, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  concatenates_S8192x1_S8192x1_S8192x2_d1 : Shape.Concatenates [S8192x1, S8192x1] S8192x2 1
  reducesTo_S8192x2_S8192_d1 : S8192x2.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  slices_S8192x2_S8192x1_0_0 : S8192x2.Slices ![0, 0] S8192x1
  shapeCasts_S8192x1_S8192 : S8192x1.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x2_S8192x1_0_1 : S8192x2.Slices ![0, 1] S8192x1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S8192x1_S8192x16_0_1 : S8192x1.BroadcastsInDim S8192x16 (![0, 1] : Fin 2 → Fin S8192x16.rank)
  dot_S8192x8192_S8192x1_S8192x1_1_0_0_1_n_n_wf : DotDims.WF S8192x8192 S8192x1 S8192x1 [1] [0] [0] [1] [] []
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x16_S8192x16_1_0_0_1_n_n_wf : DotDims.WF S8192x128 S128x16 S8192x16 [1] [0] [0] [1] [] []
  dot_S8192x8192_S8192x16_S8192x16_1_0_0_1_n_n_wf : DotDims.WF S8192x8192 S8192x16 S8192x16 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.KernelR0S.lean ====
/-
  Region 0 (the attention-logit product), what its three control cases share, at any float instance and at the buffer
  contents `V` the region is entered from: each window's block at a grid point, the closed forms of the body's two
  conditions over the grid (the column-block coordinate k is the point's index mod 8: "k = 0" resets the accumulator,
  "k = 7" stores it into the output block), where the output window is idle, the staging and scratch memrefs, and the
  region invariant with the accumulator scratch split out of the scoped rest.
-/
import proofs.«149819_j58428735095548_2_alg».proof.Proof.Gen.Kernel.Launch
import proofs.«149819_j58428735095548_2_alg».proof.Proof.Gen.Kernel.Skeleton
import proofs.«149819_j58428735095548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first column block" (k = 0): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last column block" (k = 7): the accumulator is stored into the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the output window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S1024x8 .f32 := (Memref.whole cc0_stg4_0 : Memref sig .tc .vmem S1024x8 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x8 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x8 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one grid point to the next. -/
abbrev scM0_0 : Memref sig .tc .vmem S1024x8 .f32 := Memref.whole cc0_scratch0
abbrev VS0_0 : View sig .tc .vmem S1024x8 .f32 := scM0_0.view

/-- The scoped buffers of the program that are not this call's accumulator (the other calls' staging buffers and
    accumulators): the region never opens them. -/
abbrev rest0 (c : Dev nD) : sProp 𝕄 :=
  Pipeline.scopedRestBut (Ix := Unit) (Name := ℕ) (U := UR sig nD τ) (Lvl := ℕ) (Val := Elt F) spec0 c [cc0_scratch0]

/-- The class's region invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_split]; simp only [scM0_0, owns_whole]; try rfl

end Cert.Kernel.Reg

end
-- ==== Proof.KernelR0A.lean ====
/-
  Region 0, the body's run at a point of the first column block (k = 0, and not the last): the accumulator, found at
  anything, is reset to zero and the two products of this block are added into it; the output block is left as found.
  The accumulator ends holding what the list of whole-buffer stores made to it at this point leaves.
-/
import proofs.«149819_j58428735095548_2_alg».proof.Proof.KernelR0S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i)
    (x0 : Vec F S1024x1024 .f32) (x1 : Vec F S1024x1024 .f32) (x2 : Vec F S1024x8 .bf16) (x3 : Vec F S1024x8 .bf16) :
    Σ' (L4 : List (View.Piece (Elt F) S1024x8 .f32)), { LS0 : List (View.Piece (Elt F) S1024x8 .f32) //
      ∀ (xi4 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__spmm_attn_kernel i arg2 harg2 arg3 harg3 arg4 harg4 arg5 harg5 arg6 harg6 arg7 harg7) K } := by
  refine ⟨[], ?_, fun xi4 E K => ?run⟩
  case run =>
    simp only [cc0__spmm_attn_kernel_eq_skeleton]; unfold cc0__spmm_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Reg

end
-- ==== Proof.KernelR0B.lean ====
/-
  Region 0, the body's run at a point of a middle column block (0 < k < 7): the two products of this block are added
  into the accumulator the point before left; the output block is left as found.
-/
import proofs.«149819_j58428735095548_2_alg».proof.Proof.KernelR0S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i)
    (x0 : Vec F S1024x1024 .f32) (x1 : Vec F S1024x1024 .f32) (x2 : Vec F S1024x8 .bf16) (x3 : Vec F S1024x8 .bf16) (xs0 : Vec F S1024x8 .f32) :
    Σ' (L4 : List (View.Piece (Elt F) S1024x8 .f32)), { LS0 : List (View.Piece (Elt F) S1024x8 .f32) //
      ∀ (xi4 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__spmm_attn_kernel i arg2 harg2 arg3 harg3 arg4 harg4 arg5 harg5 arg6 harg6 arg7 harg7) K } := by
  refine ⟨[], ?_, fun xi4 E K => ?run⟩
  case run =>
    simp only [cc0__spmm_attn_kernel_eq_skeleton]; unfold cc0__spmm_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Reg

end
-- ==== Proof.KernelR0C.lean ====
/-
  Region 0, the body's run at a point of the last column block (k = 7): the two products of this block are added into
  the accumulator the point before left, and the accumulator is stored into the output block.
-/
import proofs.«149819_j58428735095548_2_alg».proof.Proof.KernelR0S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i)
    (x0 : Vec F S1024x1024 .f32) (x1 : Vec F S1024x1024 .f32) (x2 : Vec F S1024x8 .bf16) (x3 : Vec F S1024x8 .bf16) (xs0 : Vec F S1024x8 .f32) :
    Σ' (L4 : List (View.Piece (Elt F) S1024x8 .f32)), { LS0 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__spmm_attn_kernel i arg2 harg2 arg3 harg3 arg4 harg4 arg5 harg5 arg6 harg6 arg7 harg7) K } := by
  refine ⟨?_, ?_, fun E K => ?run⟩
  case run =>
    simp only [cc0__spmm_attn_kernel_eq_skeleton]; unfold cc0__spmm_attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Reg

end
-- ==== Proof.KernelR0.lean ====
/-
  Region 0 as one pipeline, at any float instance and entry contents `V`: what the accumulator and the output block
  hold after every grid point, by recursion on the point (the accumulator of a point that is not a first column block is
  computed from what the point before left), the pipeline's proof data, the body obligation at a generic point (a case
  split on the point's column block), and how the region invariant is entered and left.
-/
import proofs.«149819_j58428735095548_2_alg».proof.Proof.KernelR0A
import proofs.«149819_j58428735095548_2_alg».proof.Proof.KernelR0B
import proofs.«149819_j58428735095548_2_alg».proof.Proof.KernelR0C

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The contents nothing reads: what the proof data name for the output block at a point that does not store it. -/
def idle0 : Vec F S1024x8 .f32 := VO0_4.read (Elt F) VO0_4.junk

theorem scover0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i) (x0 : Vec F S1024x1024 .f32) (x1 : Vec F S1024x1024 .f32) (x2 : Vec F S1024x8 .bf16) (x3 : Vec F S1024x8 .bf16) (y : S1024x8.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x8.size (by sl_kernel_rfl) y
/-- The accumulator after a first column block. -/
def sout0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i) (x0 : Vec F S1024x1024 .f32) (x1 : Vec F S1024x1024 .f32) (x2 : Vec F S1024x8 .bf16) (x3 : Vec F S1024x8 .bf16) : Vec F S1024x8 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i) (x0 : Vec F S1024x1024 .f32) (x1 : Vec F S1024x1024 .f32) (x2 : Vec F S1024x8 .bf16) (x3 : Vec F S1024x8 .bf16) (xs0 : Vec F S1024x8 .f32) (y : S1024x8.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x8.size (by sl_kernel_rfl) y
/-- The accumulator after a middle column block, from the accumulator before it. -/
def sout0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i) (x0 : Vec F S1024x1024 .f32) (x1 : Vec F S1024x1024 .f32) (x2 : Vec F S1024x8 .bf16) (x3 : Vec F S1024x8 .bf16) (xs0 : Vec F S1024x8 .f32) : Vec F S1024x8 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem scover0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) (y : S1024x8.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x8.size (by sl_kernel_rfl) y
/-- The accumulator after the last column block. -/
def sout0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) : Vec F S1024x8 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)
theorem cover0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) (y : S1024x8.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x8.size (by sl_kernel_rfl) y
/-- The output block after the last column block. -/
def out0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) : Vec F S1024x8 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-! ## What the output block and the accumulator hold after each point -/

/-- After the body at position `n`: (the output window's staging buffer, the accumulator). The case is the one the closed
    forms select at `n`; a case that reads the accumulator takes it from position `n - 1`. -/
def outsAt0 (c : Dev nD) : (n : ℕ) → n < cfg0.N → Vec F S1024x8 .f32 × Vec F S1024x8 .f32
  | 0, hn => (idle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (idle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idle0, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idle0, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the accumulator at anything); afterwards the
    accumulator at what the point before left, beside the unopened scoped rest and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The inputs' buffers hold their blocks; the closed forms say which column block the point
    is in; the invariant hands the body the accumulator at what the point before left (at anything at the very first
    point) and takes it back at this point's contents; the output block is stored only at a last column block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 64 := lt_of_lt_of_eq t.isLt (show cfg0.N = 64 from N_0)
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrb⟩, Hg⟩
  isplitl [HS0 Hrb]
  · isplitl [HS0]
    · iexists _; iexact HS0
    iexact Hrb
  iexact Hg

end Cert.Kernel.Reg

end
-- ==== Proof.KernelR1S.lean ====
/-
  Region 1 (the first layer: two products accumulated over the column blocks, bias and rectifier at the last one, and
  the combined adjacency tile stored at every point), what its three control cases share, at any float instance and at
  the entry contents `V`: the windows' blocks, the closed forms of the body's two conditions (k = the point's index
  mod 8), where the layer's output window is idle, the memrefs, and the region invariant with the accumulator split out.
-/
import proofs.«149819_j58428735095548_2_alg».proof.Proof.Gen.Kernel.Launch
import proofs.«149819_j58428735095548_2_alg».proof.Proof.Gen.Kernel.Skeleton
import proofs.«149819_j58428735095548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched once, at the first point: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem liveAt1_8 : ∀ t : Fin cfg1.N, cfg1.idle 8 (grid1.coords t) = false := by decide +kernel

/-! ## The memrefs the body is called with -/

abbrev VO1_7 : View sig .tc .vmem S1024x128 .f32 := (Memref.whole cc1_stg7_0 : Memref sig .tc .vmem S1024x128 .f32).view
abbrev VO1_8 : View sig .tc .vmem S1024x1024 .bf16 := (Memref.whole cc1_stg8_0 : Memref sig .tc .vmem S1024x1024 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x1024 .bf16 := win1_8.stage (cfg1.slots t 8)
abbrev hs1_8 (t : Fin cfg1.N) : (ms1_8 t).IsWhole := hstage1_8 ((cfg1.slots t 8).cast nbuf1_8)
abbrev scM1_0 : Memref sig .tc .vmem S1024x128 .f32 := Memref.whole cc1_scratch0
abbrev VS1_0 : View sig .tc .vmem S1024x128 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_split]; simp only [scM1_0, owns_whole]; try rfl

end Cert.Kernel.Reg

end
-- ==== Proof.KernelR1A.lean ====
/-
  Region 1, the body's run at a point of the first column block (k = 0): the accumulator, found at anything, is reset
  and the block's two products added into it; the combined adjacency tile is stored; the layer's output block is left
  as found.
-/
import proofs.«149819_j58428735095548_2_alg».proof.Proof.KernelR1S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i)
    (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) :
    Σ' (L7 : List (View.Piece (Elt F) S1024x128 .f32)) (L8 : List (View.Piece (Elt F) S1024x1024 .bf16)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__spmm_layer1_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__spmm_layer1_kernel_eq_skeleton]; unfold cc1__spmm_layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Reg

end
-- ==== Proof.KernelR1B.lean ====
/-
  Region 1, the body's run at a point of a middle column block (0 < k < 7): the block's two products are added into the
  accumulator the point before left; the combined adjacency tile is stored; the layer's output block is left as found.
-/
import proofs.«149819_j58428735095548_2_alg».proof.Proof.KernelR1S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i)
    (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    Σ' (L7 : List (View.Piece (Elt F) S1024x128 .f32)) (L8 : List (View.Piece (Elt F) S1024x1024 .bf16)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__spmm_layer1_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__spmm_layer1_kernel_eq_skeleton]; unfold cc1__spmm_layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Reg

end
-- ==== Proof.KernelR1C.lean ====
/-
  Region 1, the body's run at a point of the last column block (k = 7): the block's two products are added into the
  accumulator the point before left; the combined adjacency tile is stored; the accumulator plus the bias row, rectified,
  is stored into the layer's output block.
-/
import proofs.«149819_j58428735095548_2_alg».proof.Proof.KernelR1S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i)
    (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    Σ' (L7 : List (View.Piece (Elt F) S1024x128 .f32)) (L8 : List (View.Piece (Elt F) S1024x1024 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__spmm_layer1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__spmm_layer1_kernel_eq_skeleton]; unfold cc1__spmm_layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Reg

end
-- ==== Proof.KernelR1.lean ====
/-
  Region 1 as one pipeline, at any float instance and entry contents `V`: what the layer's output block, the combined
  adjacency tile and the accumulator hold after every grid point (by recursion on the point), the pipeline's proof data,
  the body obligation at a generic point, and how the region invariant is entered and left.
-/
import proofs.«149819_j58428735095548_2_alg».proof.Proof.KernelR1A
import proofs.«149819_j58428735095548_2_alg».proof.Proof.KernelR1B
import proofs.«149819_j58428735095548_2_alg».proof.Proof.KernelR1C

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def idle1 : Vec F S1024x128 .f32 := VO1_7.read (Elt F) VO1_7.junk

theorem scover1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (y : S1024x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x128.size (by sl_kernel_rfl) y
def sout1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)
theorem cover1_8_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x1024.size (by sl_kernel_rfl) y
def out1_8_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) : Vec F S1024x1024 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

theorem scover1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1024x128.size (by sl_kernel_rfl) y
def sout1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1)
theorem cover1_8_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y
def out1_8_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x1024 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1)

theorem scover1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1024x128.size (by sl_kernel_rfl) y
def sout1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1)
theorem cover1_8_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y
def out1_8_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x1024 .bf16 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1)
theorem cover1_7_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1 S1024x128.size (by sl_kernel_rfl) y
def out1_7_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1)

/-! ## What the outputs and the accumulator hold after each point -/

/-- After the body at position `n`: (the layer's output block, the combined adjacency tile, the accumulator). -/
def outsAt1 (c : Dev nD) : (n : ℕ) → n < cfg1.N → Vec F S1024x128 .f32 × Vec F S1024x1024 .bf16 × Vec F S1024x128 .f32
  | 0, hn => (idle1, out1_8_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      if h1 : (n + 1) % 8 = 7 then
        False.elim (by omega)
      else
        (idle1, out1_8_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 8 = 7 then
        (out1_7_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, out1_8_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)
      else
        (idle1, out1_8_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)

theorem outsAt1_A (c : Dev nD) (t : Fin cfg1.N) (h0 : t.val % 8 = 0) (h1 : ¬t.val % 8 = 7) :
    outsAt1 V c t.val t.isLt = (idle1, out1_8_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idle1, out1_8_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_7_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, out1_8_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t ∗ (dat1 V c).leavesExact 7 t
    ∗ (dat1 V c).leavesExact 8 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]
theorem leaves1_8 (c : Dev nD) (t : Fin cfg1.N) : (dat1 V c).leavesExact 8 t = owns (c : Thread nD τ) (ms1_8 t) fullShare ((outsAt1 V c t.val t.isLt).2.1) := by
  unfold Dat.leavesExact; rw [liveAt1_8 t, after1_8]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_8]
  have hN : t.val < 64 := lt_of_lt_of_eq t.isLt (show cfg1.N = 64 from N_1)
  by_cases h0 : t.val % 8 = 0
  · have h1 : ¬t.val % 8 = 7 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold sout1_A out1_8_A; (try dsimp only)
    by_cases hz : t.val = 0
    · rw [PhiS1_castSucc V c t, PhiS1_zero V c _ _ hz, PhiA1_eq]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (cover1_8_A c _ _ _ _ _ _ _ _ _ _ _ _ _ _ _ _ _ _ _ _ _ _ _ _ _ _ _ _ _ _)
    · rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (cover1_8_A c _ _ _ _ _ _ _ _ _ _ _ _ _ _ _ _ _ _ _ _ _ _ _ _ _ _ _ _ _ _)
  · have hz : t.val ≠ 0 := fun hz => h0 (by rw [hz])
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_7_C out1_8_C sout1_C; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_7_C c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_8_C c _ _ _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold sout1_B out1_8_B; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (cover1_8_B c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrb⟩, Hg⟩
  isplitl [HS0 Hrb]
  · isplitl [HS0]
    · iexists _; iexact HS0
    iexact Hrb
  iexact Hg

end Cert.Kernel.Reg

end
-- ==== Proof.KernelR2S.lean ====
/-
  Region 2 (the second layer: one product with the combined adjacency, accumulated over the two column blocks, the
  accumulator plus the bias row, rectified, stored at the second), what its two control cases share, at any float instance and
  at the entry contents `V`: the windows' blocks, the closed forms of the body's two conditions (k = the point's index
  mod 2), where the output window is idle, the memrefs, and the region invariant with the accumulator split out.
-/
import proofs.«149819_j58428735095548_2_alg».proof.Proof.Gen.Kernel.Launch
import proofs.«149819_j58428735095548_2_alg».proof.Proof.Gen.Kernel.Skeleton
import proofs.«149819_j58428735095548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev VO2_3 : View sig .tc .vmem S1024x128 .f32 := (Memref.whole cc2_stg3_0 : Memref sig .tc .vmem S1024x128 .f32).view
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev scM2_0 : Memref sig .tc .vmem S1024x128 .f32 := Memref.whole cc2_scratch0
abbrev VS2_0 : View sig .tc .vmem S1024x128 .f32 := scM2_0.view

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

end Cert.Kernel.Reg

end
-- ==== Proof.KernelR2A.lean ====
/-
  Region 2, the body's run at a point of the first column block (k = 0): the accumulator, found at anything, is reset
  and the block's product added into it; the output block is left as found.
-/
import proofs.«149819_j58428735095548_2_alg».proof.Proof.KernelR2S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_A (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x4096 .bf16) (x1 : Vec F S4096x128 .bf16) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_single_kernel i arg2 harg2 arg3 harg3 arg4 harg4 arg5 harg5 arg6 harg6) K } := by
  refine ⟨[], ?_, fun xi3 E K => ?run⟩
  case run =>
    simp only [cc2__spmm_single_kernel_eq_skeleton]; unfold cc2__spmm_single_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg

end
-- ==== Proof.KernelR2C.lean ====
/-
  Region 2, the body's run at a point of the second (last) column block (k = 1): the block's product is added into
  the accumulator the point before left, and the accumulator plus the bias row, rectified, is stored into the output block.
-/
import proofs.«149819_j58428735095548_2_alg».proof.Proof.KernelR2S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x4096 .bf16) (x1 : Vec F S4096x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_single_kernel i arg2 harg2 arg3 harg3 arg4 harg4 arg5 harg5 arg6 harg6) K } := by
  refine ⟨?_, ?_, fun E K => ?run⟩
  case run =>
    simp only [cc2__spmm_single_kernel_eq_skeleton]; unfold cc2__spmm_single_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg

end
-- ==== Proof.KernelR2.lean ====
/-
  Region 2 as one pipeline, at any float instance and entry contents `V`: what the output block and the accumulator
  hold after every grid point (by recursion on the point: a second column block starts from what the first left), the
  pipeline's proof data, the body obligation at a generic point, and how the region invariant is entered and left.
-/
import proofs.«149819_j58428735095548_2_alg».proof.Proof.KernelR2A
import proofs.«149819_j58428735095548_2_alg».proof.Proof.KernelR2C

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle2 : Vec F S1024x128 .f32 := VO2_3.read (Elt F) VO2_3.junk

theorem scover2_A (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i) (x0 : Vec F S1024x4096 .bf16) (x1 : Vec F S4096x128 .bf16) (x2 : Vec F S1x128 .f32) (y : S1024x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1024x128.size (by sl_kernel_rfl) y
/-- The accumulator after a first column block. -/
def sout2_A (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i) (x0 : Vec F S1024x4096 .bf16) (x1 : Vec F S4096x128 .bf16) (x2 : Vec F S1x128 .f32) : Vec F S1024x128 .f32 :=
  VS2_0.read (Elt F) (VS2_0.writes (Elt F) VS2_0.junk (kernelRun2_A c i arg2 harg2 arg3 harg3 arg4 harg4 arg5 harg5 arg6 harg6 hc0 hc1 x0 x1 x2).2.1)
theorem scover2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1024x128.size (by sl_kernel_rfl) y
/-- The accumulator after the second column block. -/
def sout2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 hc0 hc1 x0 x1 x2 xs0).2.1)
theorem cover2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1024x128.size (by sl_kernel_rfl) y
/-- The output block after the second column block. -/
def out2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) : Vec F S1024x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- After the body at position `n`: (the output window's staging buffer, the accumulator). -/
def outsAt2 (c : Dev nD) : (n : ℕ) → n < cfg2.N → Vec F S1024x128 .f32 × Vec F S1024x128 .f32
  | 0, hn => (idle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (idle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

theorem outsAt2_A (c : Dev nD) (t : Fin cfg2.N) (h0 : t.val % 2 = 0) (h1 : ¬t.val % 2 = 1) :
    outsAt2 V c t.val t.isLt = (idle2, sout2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_C (c : Dev nD) (t : Fin cfg2.N) (h0 : ¬t.val % 2 = 0) (h1 : t.val % 2 = 1) :
    outsAt2 V c t.val t.isLt = (out2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  by_cases h0 : t.val % 2 = 0
  · have h1 : ¬t.val % 2 = 1 := by omega
    have hnc1 : ¬cond2_1 (grid2.coords t) := fun h => h1 ((hcond2_1 t).mp h)
    rw [Dat.leavesExact_idle (dat2 V c) 3 t (idleAt2_3 t hnc1) (noFlush2_3 t hnc1)]
    rw [outsAt2_A V c t h0 h1]
    unfold sout2_A; (try dsimp only)
    by_cases hz : t.val = 0
    · rw [PhiS2_castSucc V c t, PhiS2_zero V c _ _ hz, PhiA2_eq]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : t.val % 2 = 1 := by omega
    have hc1 : cond2_1 (grid2.coords t) := (hcond2_1 t).mpr h1
    rw [show (dat2 V c).leavesExact 3 t = owns (c : Thread nD τ) (ms2_3 t) fullShare ((dat2 V c).after 3 t) from by
      unfold Dat.leavesExact; rw [liveAt2_3 t hc1], after2_3]
    rw [outsAt2_C V c t h0 h1]
    unfold out2_C sout2_C; (try dsimp only)
    rw [PhiS2_castSucc V c t, PhiS2_pos V c _ _ hz]
    iintro ⟨⟨⟨HS0, Hrb⟩, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover2_C c _ _ _ _ _ _ _ _ _ _ _ _ _ _ _ _ _)
        iexact Hrb
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C c _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, Hrb⟩, Hg⟩
  isplitl [HS0 Hrb]
  · isplitl [HS0]
    · iexists _; iexact HS0
    iexact Hrb
  iexact Hg

end Cert.Kernel.Reg

end
-- ==== Proof.KernelR3S.lean ====
/-
  Region 3 (the third layer: one product with the combined adjacency, accumulated over the two column blocks, the
  accumulator plus the bias row stored at the second), what its two control cases share, at any float instance and
  at the entry contents `V`: the windows' blocks, the closed forms of the body's two conditions (k = the point's index
  mod 2), where the output window is idle, the memrefs, and the region invariant with the accumulator split out.
-/
import proofs.«149819_j58428735095548_2_alg».proof.Proof.Gen.Kernel.Launch
import proofs.«149819_j58428735095548_2_alg».proof.Proof.Gen.Kernel.Skeleton
import proofs.«149819_j58428735095548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3_3 : View sig .tc .vmem S1024x16 .f32 := (Memref.whole cc3_stg3_0 : Memref sig .tc .vmem S1024x16 .f32).view
abbrev ms3_0 (t : Fin cfg3.N) : Memref sig .tc .vmem S1024x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x16 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x16 .f32 := win3_3.stage (cfg3.slots t 3)
abbrev hs3_3 (t : Fin cfg3.N) : (ms3_3 t).IsWhole := hstage3_3 ((cfg3.slots t 3).cast nbuf3_3)
abbrev scM3_0 : Memref sig .tc .vmem S1024x16 .f32 := Memref.whole cc3_scratch0
abbrev VS3_0 : View sig .tc .vmem S1024x16 .f32 := scM3_0.view

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ rest3 c) ∗ (∃ r, prngReg c r)) := by
  unfold Pipeline.ΦA; rw [scopedRest3_split]; simp only [scM3_0, owns_whole]; try rfl

end Cert.Kernel.Reg

end
-- ==== Proof.KernelR3A.lean ====
/-
  Region 3, the body's run at a point of the first column block (k = 0): the accumulator, found at anything, is reset
  and the block's product added into it; the output block is left as found.
-/
import proofs.«149819_j58428735095548_2_alg».proof.Proof.KernelR3S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun3_A (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i)
    (x0 : Vec F S1024x4096 .bf16) (x1 : Vec F S4096x16 .bf16) (x2 : Vec F S1x16 .f32) :
    Σ' (L3 : List (View.Piece (Elt F) S1024x16 .f32)), { LS0 : List (View.Piece (Elt F) S1024x16 .f32) //
      ∀ (xi3 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__spmm_single_kernel i arg2 harg2 arg3 harg3 arg4 harg4 arg5 harg5 arg6 harg6) K } := by
  refine ⟨[], ?_, fun xi3 E K => ?run⟩
  case run =>
    simp only [cc3__spmm_single_kernel_eq_skeleton]; unfold cc3__spmm_single_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg

end
-- ==== Proof.KernelR3C.lean ====
/-
  Region 3, the body's run at a point of the second (last) column block (k = 1): the block's product is added into
  the accumulator the point before left, and the accumulator plus the bias row is stored into the output block.
-/
import proofs.«149819_j58428735095548_2_alg».proof.Proof.KernelR3S

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i)
    (x0 : Vec F S1024x4096 .bf16) (x1 : Vec F S4096x16 .bf16) (x2 : Vec F S1x16 .f32) (xs0 : Vec F S1024x16 .f32) :
    Σ' (L3 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__spmm_single_kernel i arg2 harg2 arg3 harg3 arg4 harg4 arg5 harg5 arg6 harg6) K } := by
  refine ⟨?_, ?_, fun E K => ?run⟩
  case run =>
    simp only [cc3__spmm_single_kernel_eq_skeleton]; unfold cc3__spmm_single_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg

end
-- ==== Proof.KernelR3.lean ====
/-
  Region 3 as one pipeline, at any float instance and entry contents `V`: what the output block and the accumulator
  hold after every grid point (by recursion on the point: a second column block starts from what the first left), the
  pipeline's proof data, the body obligation at a generic point, and how the region invariant is entered and left.
-/
import proofs.«149819_j58428735095548_2_alg».proof.Proof.KernelR3A
import proofs.«149819_j58428735095548_2_alg».proof.Proof.KernelR3C

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle3 : Vec F S1024x16 .f32 := VO3_3.read (Elt F) VO3_3.junk

theorem scover3_A (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i) (x0 : Vec F S1024x4096 .bf16) (x1 : Vec F S4096x16 .bf16) (x2 : Vec F S1x16 .f32) (y : S1024x16.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x16.size (by sl_kernel_rfl) y
/-- The accumulator after a first column block. -/
def sout3_A (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i) (x0 : Vec F S1024x4096 .bf16) (x1 : Vec F S4096x16 .bf16) (x2 : Vec F S1x16 .f32) : Vec F S1024x16 .f32 :=
  VS3_0.read (Elt F) (VS3_0.writes (Elt F) VS3_0.junk (kernelRun3_A c i arg2 harg2 arg3 harg3 arg4 harg4 arg5 harg5 arg6 harg6 hc0 hc1 x0 x1 x2).2.1)
theorem scover3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) (y : S1024x16.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x16.size (by sl_kernel_rfl) y
/-- The accumulator after the second column block. -/
def sout3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) : Vec F S1024x16 .f32 :=
  VS3_0.read (Elt F) (VS3_0.writes (Elt F) VS3_0.junk (kernelRun3_C c i arg2 harg2 arg3 harg3 arg4 harg4 arg5 harg5 arg6 harg6 hc0 hc1 x0 x1 x2 xs0).2.1)
theorem cover3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) (y : S1024x16.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x16.size (by sl_kernel_rfl) y
/-- The output block after the second column block. -/
def out3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) : Vec F S1024x16 .f32 :=
  VO3_3.read (Elt F) (VO3_3.writes (Elt F) VO3_3.junk (kernelRun3_C c i arg2 harg2 arg3 harg3 arg4 harg4 arg5 harg5 arg6 harg6 hc0 hc1 x0 x1 x2 xs0).1)

/-- After the body at position `n`: (the output window's staging buffer, the accumulator). -/
def outsAt3 (c : Dev nD) : (n : ℕ) → n < cfg3.N → Vec F S1024x16 .f32 × Vec F S1024x16 .f32
  | 0, hn => (idle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      if h1 : (n + 1) % 2 = 1 then
        False.elim (by omega)
      else
        (idle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 2 = 1 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        False.elim (by omega)

theorem outsAt3_A (c : Dev nD) (t : Fin cfg3.N) (h0 : t.val % 2 = 0) (h1 : ¬t.val % 2 = 1) :
    outsAt3 V c t.val t.isLt = (idle3, sout3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_C (c : Dev nD) (t : Fin cfg3.N) (h0 : ¬t.val % 2 = 0) (h1 : t.val % 2 = 1) :
    outsAt3 V c t.val t.isLt = (out3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ rest3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  by_cases h0 : t.val % 2 = 0
  · have h1 : ¬t.val % 2 = 1 := by omega
    have hnc1 : ¬cond3_1 (grid3.coords t) := fun h => h1 ((hcond3_1 t).mp h)
    rw [Dat.leavesExact_idle (dat3 V c) 3 t (idleAt3_3 t hnc1) (noFlush3_3 t hnc1)]
    rw [outsAt3_A V c t h0 h1]
    unfold sout3_A; (try dsimp only)
    by_cases hz : t.val = 0
    · rw [PhiS3_castSucc V c t, PhiS3_zero V c _ _ hz, PhiA3_eq]
      iintro ⟨⟨⟨HS0, Hrb⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : t.val % 2 = 1 := by omega
    have hc1 : cond3_1 (grid3.coords t) := (hcond3_1 t).mpr h1
    rw [show (dat3 V c).leavesExact 3 t = owns (c : Thread nD τ) (ms3_3 t) fullShare ((dat3 V c).after 3 t) from by
      unfold Dat.leavesExact; rw [liveAt3_3 t hc1], after3_3]
    rw [outsAt3_C V c t h0 h1]
    unfold out3_C sout3_C; (try dsimp only)
    rw [PhiS3_castSucc V c t, PhiS3_pos V c _ _ hz]
    iintro ⟨⟨⟨HS0, Hrb⟩, Hg⟩, Ho, ⟨%d0, H0⟩, ⟨%d1, H1⟩, ⟨%d2, H2⟩, ⟨%d3, H3⟩⟩
    iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover3_C c _ _ _ _ _ _ _ _ _ _ _ _ _ _ _ _ _)
        iexact Hrb
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_C c _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega), PhiA3_eq]
  iintro ⟨⟨HS0, Hrb⟩, Hg⟩
  isplitl [HS0 Hrb]
  · isplitl [HS0]
    · iexists _; iexact HS0
    iexact Hrb
  iexact Hg

end Cert.Kernel.Reg

end
-- ==== Proof.KernelRun.lean ====
/-
  The whole run of the program, at any float instance: the buffer contents at every boundary between a stretch of host
  operations and a kernel region as a fold from the launch memory (a stretch applies its operations; a region leaves its
  output arrays at what its write-backs produce and every other buffer alone), each region as a segment of the run over
  the thread state "every unscoped buffer at the boundary's contents, the generator register somewhere, nothing owed",
  and the run itself: every weakly fair execution terminates, faultless, with every unscoped buffer at the last
  boundary's contents.
-/
import proofs.«149819_j58428735095548_2_alg».proof.Proof.KernelR0
import proofs.«149819_j58428735095548_2_alg».proof.Proof.KernelR1
import proofs.«149819_j58428735095548_2_alg».proof.Proof.KernelR2
import proofs.«149819_j58428735095548_2_alg».proof.Proof.KernelR3
import proofs.«149819_j58428735095548_2_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, an output with its write-backs
    folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = W2 m c (Pipeline.arrRef spec0 w) :=
  (W2_arr m c w).symm
theorem hrest0 (c : Dev nD) : ∀ b, b ∉ Finset.univ.image (Pipeline.arrRef spec0) → W2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, an output with its write-backs
    folded in), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = W4 m c (Pipeline.arrRef spec1 w) :=
  (W4_arr m c w).symm
theorem hrest1 (c : Dev nD) : ∀ b, b ∉ Finset.univ.image (Pipeline.arrRef spec1) → W4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input as entered, an output with its write-backs
    folded in), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = W6 m c (Pipeline.arrRef spec2 w) :=
  (W6_arr m c w).symm
theorem hrest2 (c : Dev nD) : ∀ b, b ∉ Finset.univ.image (Pipeline.arrRef spec2) → W6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- At region 3's exit: its arrays at what the pipeline leaves (an input as entered, an output with its write-backs
    folded in), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (V7 m) c).arrAt w cfg3.N = W8 m c (Pipeline.arrRef spec3 w) :=
  (W8_arr m c w).symm
theorem hrest3 (c : Dev nD) : ∀ b, b ∉ Finset.univ.image (Pipeline.arrRef spec3) → W8 m c b = V7 m c b :=
  fun b hb => W8_of_ne m c b fun w e => hb (Finset.mem_image.mpr ⟨w, Finset.mem_univ _, e⟩)

abbrev W9 : Dev nD → Valuation τ sig (Elt F) := fun c => StableHlo.after hostOps4 (W8 m c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`. Its arrays are
    split out of the unscoped buffers and put back at what the write-backs leave; the generator register and the scoped
    rest go into the region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at what the write-backs leave; the generator register and the scoped
    rest go into the region invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V3 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at what the write-backs leave; the generator register and the scoped
    rest go into the region invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2 (V5 m) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at what the write-backs leave; the generator register and the scoped
    rest go into the region invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    exact (hout3 (V7 m) c).trans (by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

set_option backward.isDefEq.respectTransparency.types false in
/-- From any memory with zero counters, every weakly fair execution of the program terminates, faultless, and the final
    memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W9 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Reg

end
-- ==== Proof.KernelFrame.lean ====
/-
  Nothing the run writes is an argument: a stretch of host operations writes only its own result buffers, a region only
  its output arrays. So every buffer outside those ends the run holding its launch contents — in particular the eleven
  argument arrays: the frame.
-/
import proofs.«149819_j58428735095548_2_alg».proof.Proof.KernelRun

set_option maxRecDepth 16384

noncomputable section

namespace Cert.Kernel.Reg

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Region 0 changes none but its output: an input array ends as it was entered, a buffer it does not stage is not touched. -/
theorem W2_keep (c : Dev nD) (b : Ref sig .tc) (hb : b ≠ main_v9) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (V1 m) c).arrAt_in 0 rfl _).trans (A_eq0 (V1 m) c 0)
    | ⟨1, _⟩ => exact ((dat0 (V1 m) c).arrAt_in 1 rfl _).trans (A_eq0 (V1 m) c 1)
    | ⟨2, _⟩ => exact ((dat0 (V1 m) c).arrAt_in 2 rfl _).trans (A_eq0 (V1 m) c 2)
    | ⟨3, _⟩ => exact ((dat0 (V1 m) c).arrAt_in 3 rfl _).trans (A_eq0 (V1 m) c 3)
    | ⟨4, _⟩ => exact absurd rfl hb
  · exact W2_of_ne m c b fun w e => h ⟨w, e⟩

/-- Region 1 changes none but its outputs: an input array ends as it was entered, a buffer it does not stage is not touched. -/
theorem W4_keep (c : Dev nD) (b : Ref sig .tc) (hb : b ≠ main_v42_0 ∧ b ≠ main_v42_1) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (V3 m) c).arrAt_in 0 rfl _).trans (A_eq1 (V3 m) c 0)
    | ⟨1, _⟩ => exact ((dat1 (V3 m) c).arrAt_in 1 rfl _).trans (A_eq1 (V3 m) c 1)
    | ⟨2, _⟩ => exact ((dat1 (V3 m) c).arrAt_in 2 rfl _).trans (A_eq1 (V3 m) c 2)
    | ⟨3, _⟩ => exact ((dat1 (V3 m) c).arrAt_in 3 rfl _).trans (A_eq1 (V3 m) c 3)
    | ⟨4, _⟩ => exact ((dat1 (V3 m) c).arrAt_in 4 rfl _).trans (A_eq1 (V3 m) c 4)
    | ⟨5, _⟩ => exact ((dat1 (V3 m) c).arrAt_in 5 rfl _).trans (A_eq1 (V3 m) c 5)
    | ⟨6, _⟩ => exact ((dat1 (V3 m) c).arrAt_in 6 rfl _).trans (A_eq1 (V3 m) c 6)
    | ⟨7, _⟩ => exact absurd rfl hb.1
    | ⟨8, _⟩ => exact absurd rfl hb.2
  · exact W4_of_ne m c b fun w e => h ⟨w, e⟩

/-- Region 2 changes none but its output: an input array ends as it was entered, a buffer it does not stage is not touched. -/
theorem W6_keep (c : Dev nD) (b : Ref sig .tc) (hb : b ≠ main_v46) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (V5 m) c).arrAt_in 0 rfl _).trans (A_eq2 (V5 m) c 0)
    | ⟨1, _⟩ => exact ((dat2 (V5 m) c).arrAt_in 1 rfl _).trans (A_eq2 (V5 m) c 1)
    | ⟨2, _⟩ => exact ((dat2 (V5 m) c).arrAt_in 2 rfl _).trans (A_eq2 (V5 m) c 2)
    | ⟨3, _⟩ => exact absurd rfl hb
  · exact W6_of_ne m c b fun w e => h ⟨w, e⟩

/-- Region 3 changes none but its output: an input array ends as it was entered, a buffer it does not stage is not touched. -/
theorem W8_keep (c : Dev nD) (b : Ref sig .tc) (hb : b ≠ main_v50) :
    W8 m c (Proc.devRef .tc b) = W7 m c (Proc.devRef .tc b) := by
  by_cases h : ∃ w, Pipeline.arrRef spec3 w = b
  · obtain ⟨w, rfl⟩ := h
    rw [W8_arr]
    match w with
    | ⟨0, _⟩ => exact ((dat3 (V7 m) c).arrAt_in 0 rfl _).trans (A_eq3 (V7 m) c 0)
    | ⟨1, _⟩ => exact ((dat3 (V7 m) c).arrAt_in 1 rfl _).trans (A_eq3 (V7 m) c 1)
    | ⟨2, _⟩ => exact ((dat3 (V7 m) c).arrAt_in 2 rfl _).trans (A_eq3 (V7 m) c 2)
    | ⟨3, _⟩ => exact absurd rfl hb
  · exact W8_of_ne m c b fun w e => h ⟨w, e⟩

/-- Every buffer the run may write: the host stretches' results and the regions' outputs. -/
abbrev written : List (Ref sig .tc) :=
  hostOps0_W ++ [main_v9] ++ hostOps1_W ++ [main_v42_0, main_v42_1] ++ hostOps2_W ++ [main_v46] ++ hostOps3_W ++ [main_v50] ++ hostOps4_W

/-- A buffer outside them ends holding its launch contents. -/
theorem W9_unwritten (c : Dev nD) (b : Ref sig .tc) (h0 : b ∉ hostOps0_W) (h1 : b ≠ main_v9) (h2 : b ∉ hostOps1_W)
    (h3 : b ≠ main_v42_0 ∧ b ≠ main_v42_1) (h4 : b ∉ hostOps2_W) (h5 : b ≠ main_v46) (h6 : b ∉ hostOps3_W) (h7 : b ≠ main_v50)
    (h8 : b ∉ hostOps4_W) : W9 m c (Proc.devRef .tc b) = m ((c : Thread nD τ).loc b) :=
  (StableHlo.after_of_writes_sub hostOps4 _ hostOps4_writes h8).trans <|
  (W8_keep m c b h7).trans <|
  (StableHlo.after_of_writes_sub hostOps3 _ hostOps3_writes h6).trans <|
  (W6_keep m c b h5).trans <|
  (StableHlo.after_of_writes_sub hostOps2 _ hostOps2_writes h4).trans <|
  (W4_keep m c b h3).trans <|
  (StableHlo.after_of_writes_sub hostOps1 _ hostOps1_writes h2).trans <|
  (W2_keep m c b h1).trans <|
  (StableHlo.after_of_writes_sub hostOps0 _ hostOps0_writes h0).trans rfl

theorem W9_arg (c : Dev nD) (b : Ref sig .tc) (h : b ∈ ([main_arg0, main_arg1, main_arg2, main_arg3, main_arg4, main_arg5, main_arg6, main_arg7, main_arg8, main_arg9, main_arg10] : List (Ref sig .tc))) :
    W9 m c (Proc.devRef .tc b) = m ((c : Thread nD τ).loc b) := by
  simp only [List.mem_cons, List.mem_nil_iff, or_false] at h
  rcases h with rfl | rfl | rfl | rfl | rfl | rfl | rfl | rfl | rfl | rfl | rfl <;>
    exact W9_unwritten m c _ (by decide) (by decide) (by decide) (by decide) (by decide) (by decide) (by decide) (by decide) (by decide)

/-- THE FRAME: every weakly fair execution terminates, faultless, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_arg m c main_arg0 (by decide)),
     (h c _ (mem_uc main_arg1 (by decide))).trans (W9_arg m c main_arg1 (by decide)),
     (h c _ (mem_uc main_arg2 (by decide))).trans (W9_arg m c main_arg2 (by decide)),
     (h c _ (mem_uc main_arg3 (by decide))).trans (W9_arg m c main_arg3 (by decide)),
     (h c _ (mem_uc main_arg4 (by decide))).trans (W9_arg m c main_arg4 (by decide)),
     (h c _ (mem_uc main_arg5 (by decide))).trans (W9_arg m c main_arg5 (by decide)),
     (h c _ (mem_uc main_arg6 (by decide))).trans (W9_arg m c main_arg6 (by decide)),
     (h c _ (mem_uc main_arg7 (by decide))).trans (W9_arg m c main_arg7 (by decide)),
     (h c _ (mem_uc main_arg8 (by decide))).trans (W9_arg m c main_arg8 (by decide)),
     (h c _ (mem_uc main_arg9 (by decide))).trans (W9_arg m c main_arg9 (by decide)),
     (h c _ (mem_uc main_arg10 (by decide))).trans (W9_arg m c main_arg10 (by decide))⟩)
    (run_all m ρ)

end Cert.Kernel.Reg

end
-- ==== Proof.KernelIdealR0S.lean ====
/-
  Region 0 (the attention-logit product), what its three control cases share, at any float instance and at the buffer
  contents `V` the region is entered from: each window's block at a grid point, the closed forms of the body's two
  conditions over the grid (the column-block coordinate k is the point's index mod 8: "k = 0" resets the accumulator,
  "k = 7" stores it into the output block), where the output window is idle, the staging and scratch memrefs, and the
  region invariant with the accumulator scratch split out of the scoped rest.
-/
import proofs.«149819_j58428735095548_2_alg».proof.Proof.Gen.KernelIdeal.Launch
import proofs.«149819_j58428735095548_2_alg».proof.Proof.Gen.KernelIdeal.Skeleton
import proofs.«149819_j58428735095548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first column block" (k = 0): the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last column block" (k = 7): the accumulator is stored into the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the output window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev VO0_4 : View sig .tc .vmem S1024x8 .f32 := (Memref.whole cc0_stg4_0 : Memref sig .tc .vmem S1024x8 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x8 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x8 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from one grid point to the next. -/
abbrev scM0_0 : Memref sig .tc .vmem S1024x8 .f32 := Memref.whole cc0_scratch0
abbrev VS0_0 : View sig .tc .vmem S1024x8 .f32 := scM0_0.view

/-- The scoped buffers of the program that are not this call's accumulator (the other calls' staging buffers and
    accumulators): the region never opens them. -/
abbrev rest0 (c : Dev nD) : sProp 𝕄 :=
  Pipeline.scopedRestBut (Ix := Unit) (Name := ℕ) (U := UR sig nD τ) (Lvl := ℕ) (Val := Elt F) spec0 c [cc0_scratch0]

/-- The class's region invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_split]; simp only [scM0_0, owns_whole]; try rfl

end Cert.KernelIdeal.Reg

end
-- ==== Proof.KernelIdealR0A.lean ====
/-
  Region 0, the body's run at a point of the first column block (k = 0, and not the last): the accumulator, found at
  anything, is reset to zero and the two products of this block are added into it; the output block is left as found.
  The accumulator ends holding what the list of whole-buffer stores made to it at this point leaves.
-/
import proofs.«149819_j58428735095548_2_alg».proof.Proof.KernelIdealR0S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i)
    (x0 : Vec F S1024x1024 .f32) (x1 : Vec F S1024x1024 .f32) (x2 : Vec F S1024x8 .bf16) (x3 : Vec F S1024x8 .bf16) :
    Σ' (L4 : List (View.Piece (Elt F) S1024x8 .f32)), { LS0 : List (View.Piece (Elt F) S1024x8 .f32) //
      ∀ (xi4 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__spmm_attn_kernel i arg2 harg2 arg3 harg3 arg4 harg4 arg5 harg5 arg6 harg6 arg7 harg7) K } := by
  refine ⟨[], ?_, fun xi4 E K => ?run⟩
  case run =>
    simp only [cc0__spmm_attn_kernel_eq_skeleton]; unfold cc0__spmm_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Reg

end
-- ==== Proof.KernelIdealR0B.lean ====
/-
  Region 0, the body's run at a point of a middle column block (0 < k < 7): the two products of this block are added
  into the accumulator the point before left; the output block is left as found.
-/
import proofs.«149819_j58428735095548_2_alg».proof.Proof.KernelIdealR0S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i)
    (x0 : Vec F S1024x1024 .f32) (x1 : Vec F S1024x1024 .f32) (x2 : Vec F S1024x8 .bf16) (x3 : Vec F S1024x8 .bf16) (xs0 : Vec F S1024x8 .f32) :
    Σ' (L4 : List (View.Piece (Elt F) S1024x8 .f32)), { LS0 : List (View.Piece (Elt F) S1024x8 .f32) //
      ∀ (xi4 : Vec F S1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__spmm_attn_kernel i arg2 harg2 arg3 harg3 arg4 harg4 arg5 harg5 arg6 harg6 arg7 harg7) K } := by
  refine ⟨[], ?_, fun xi4 E K => ?run⟩
  case run =>
    simp only [cc0__spmm_attn_kernel_eq_skeleton]; unfold cc0__spmm_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Reg

end
-- ==== Proof.KernelIdealR0C.lean ====
/-
  Region 0, the body's run at a point of the last column block (k = 7): the two products of this block are added into
  the accumulator the point before left, and the accumulator is stored into the output block.
-/
import proofs.«149819_j58428735095548_2_alg».proof.Proof.KernelIdealR0S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i)
    (x0 : Vec F S1024x1024 .f32) (x1 : Vec F S1024x1024 .f32) (x2 : Vec F S1024x8 .bf16) (x3 : Vec F S1024x8 .bf16) (xs0 : Vec F S1024x8 .f32) :
    Σ' (L4 : List (View.Piece (Elt F) S1024x8 .f32)), { LS0 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__spmm_attn_kernel i arg2 harg2 arg3 harg3 arg4 harg4 arg5 harg5 arg6 harg6 arg7 harg7) K } := by
  refine ⟨?_, ?_, fun E K => ?run⟩
  case run =>
    simp only [cc0__spmm_attn_kernel_eq_skeleton]; unfold cc0__spmm_attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Reg

end
-- ==== Proof.KernelIdealR0.lean ====
/-
  Region 0 as one pipeline, at any float instance and entry contents `V`: what the accumulator and the output block
  hold after every grid point, by recursion on the point (the accumulator of a point that is not a first column block is
  computed from what the point before left), the pipeline's proof data, the body obligation at a generic point (a case
  split on the point's column block), and how the region invariant is entered and left.
-/
import proofs.«149819_j58428735095548_2_alg».proof.Proof.KernelIdealR0A
import proofs.«149819_j58428735095548_2_alg».proof.Proof.KernelIdealR0B
import proofs.«149819_j58428735095548_2_alg».proof.Proof.KernelIdealR0C

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The contents nothing reads: what the proof data name for the output block at a point that does not store it. -/
def idle0 : Vec F S1024x8 .f32 := VO0_4.read (Elt F) VO0_4.junk

theorem scover0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i) (x0 : Vec F S1024x1024 .f32) (x1 : Vec F S1024x1024 .f32) (x2 : Vec F S1024x8 .bf16) (x3 : Vec F S1024x8 .bf16) (y : S1024x8.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x8.size (by sl_kernel_rfl) y
/-- The accumulator after a first column block. -/
def sout0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i) (x0 : Vec F S1024x1024 .f32) (x1 : Vec F S1024x1024 .f32) (x2 : Vec F S1024x8 .bf16) (x3 : Vec F S1024x8 .bf16) : Vec F S1024x8 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i) (x0 : Vec F S1024x1024 .f32) (x1 : Vec F S1024x1024 .f32) (x2 : Vec F S1024x8 .bf16) (x3 : Vec F S1024x8 .bf16) (xs0 : Vec F S1024x8 .f32) (y : S1024x8.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x8.size (by sl_kernel_rfl) y
/-- The accumulator after a middle column block, from the accumulator before it. -/
def sout0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i) (x0 : Vec F S1024x1024 .f32) (x1 : Vec F S1024x1024 .f32) (x2 : Vec F S1024x8 .bf16) (x3 : Vec F S1024x8 .bf16) (xs0 : Vec F S1024x8 .f32) : Vec F S1024x8 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem scover0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) (y : S1024x8.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x8.size (by sl_kernel_rfl) y
/-- The accumulator after the last column block. -/
def sout0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) : Vec F S1024x8 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)
theorem cover0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) (y : S1024x8.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x8.size (by sl_kernel_rfl) y
/-- The output block after the last column block. -/
def out0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) : Vec F S1024x8 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-! ## What the output block and the accumulator hold after each point -/

/-- After the body at position `n`: (the output window's staging buffer, the accumulator). The case is the one the closed
    forms select at `n`; a case that reads the accumulator takes it from position `n - 1`. -/
def outsAt0 (c : Dev nD) : (n : ℕ) → n < cfg0.N → Vec F S1024x8 .f32 × Vec F S1024x8 .f32
  | 0, hn => (idle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (idle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idle0, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idle0, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the accumulator at anything); afterwards the
    accumulator at what the point before left, beside the unopened scoped rest and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The inputs' buffers hold their blocks; the closed forms say which column block the point
    is in; the invariant hands the body the accumulator at what the point before left (at anything at the very first
    point) and takes it back at this point's contents; the output block is stored only at a last column block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 64 := lt_of_lt_of_eq t.isLt (show cfg0.N = 64 from N_0)
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrb⟩, Hg⟩
  isplitl [HS0 Hrb]
  · isplitl [HS0]
    · iexists _; iexact HS0
    iexact Hrb
  iexact Hg

end Cert.KernelIdeal.Reg

end
-- ==== Proof.KernelIdealR1S.lean ====
/-
  Region 1 (the first layer: two products accumulated over the column blocks, bias and rectifier at the last one, and
  the combined adjacency tile stored at every point), what its three control cases share, at any float instance and at
  the entry contents `V`: the windows' blocks, the closed forms of the body's two conditions (k = the point's index
  mod 8), where the layer's output window is idle, the memrefs, and the region invariant with the accumulator split out.
-/
import proofs.«149819_j58428735095548_2_alg».proof.Proof.Gen.KernelIdeal.Launch
import proofs.«149819_j58428735095548_2_alg».proof.Proof.Gen.KernelIdeal.Skeleton
import proofs.«149819_j58428735095548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the bias row is
    fetched once, at the first point: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem liveAt1_8 : ∀ t : Fin cfg1.N, cfg1.idle 8 (grid1.coords t) = false := by decide +kernel

/-! ## The memrefs the body is called with -/

abbrev VO1_7 : View sig .tc .vmem S1024x128 .f32 := (Memref.whole cc1_stg7_0 : Memref sig .tc .vmem S1024x128 .f32).view
abbrev VO1_8 : View sig .tc .vmem S1024x1024 .bf16 := (Memref.whole cc1_stg8_0 : Memref sig .tc .vmem S1024x1024 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x1024 .bf16 := win1_8.stage (cfg1.slots t 8)
abbrev hs1_8 (t : Fin cfg1.N) : (ms1_8 t).IsWhole := hstage1_8 ((cfg1.slots t 8).cast nbuf1_8)
abbrev scM1_0 : Memref sig .tc .vmem S1024x128 .f32 := Memref.whole cc1_scratch0
abbrev VS1_0 : View sig .tc .vmem S1024x128 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA; rw [scopedRest1_split]; simp only [scM1_0, owns_whole]; try rfl

end Cert.KernelIdeal.Reg

end
-- ==== Proof.KernelIdealR1A.lean ====
/-
  Region 1, the body's run at a point of the first column block (k = 0): the accumulator, found at anything, is reset
  and the block's two products added into it; the combined adjacency tile is stored; the layer's output block is left
  as found.
-/
import proofs.«149819_j58428735095548_2_alg».proof.Proof.KernelIdealR1S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i)
    (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) :
    Σ' (L7 : List (View.Piece (Elt F) S1024x128 .f32)) (L8 : List (View.Piece (Elt F) S1024x1024 .bf16)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__spmm_layer1_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__spmm_layer1_kernel_eq_skeleton]; unfold cc1__spmm_layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Reg

end
-- ==== Proof.KernelIdealR1B.lean ====
/-
  Region 1, the body's run at a point of a middle column block (0 < k < 7): the block's two products are added into the
  accumulator the point before left; the combined adjacency tile is stored; the layer's output block is left as found.
-/
import proofs.«149819_j58428735095548_2_alg».proof.Proof.KernelIdealR1S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i)
    (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    Σ' (L7 : List (View.Piece (Elt F) S1024x128 .f32)) (L8 : List (View.Piece (Elt F) S1024x1024 .bf16)), { LS0 : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__spmm_layer1_kernel i arg2 harg2 arg3 harg3 arg4 harg4 arg5 harg5 arg6 harg6 arg7 harg7 arg8 harg8 arg9 harg9 arg10 harg10 arg11 harg11) K } := by
  refine ⟨[], ?_, ?_, fun xi7 E K => ?run⟩
  case run =>
    simp only [cc1__spmm_layer1_kernel_eq_skeleton]; unfold cc1__spmm_layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Reg

end
-- ==== Proof.KernelIdealR1C.lean ====
/-
  Region 1, the body's run at a point of the last column block (k = 7): the block's two products are added into the
  accumulator the point before left; the combined adjacency tile is stored; the accumulator plus the bias row, rectified,
  is stored into the layer's output block.
-/
import proofs.«149819_j58428735095548_2_alg».proof.Proof.KernelIdealR1S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i)
    (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    Σ' (L7 : List (View.Piece (Elt F) S1024x128 .f32)) (L8 : List (View.Piece (Elt F) S1024x1024 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__spmm_layer1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__spmm_layer1_kernel_eq_skeleton]; unfold cc1__spmm_layer1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Reg

end
-- ==== Proof.KernelIdealR1.lean ====
/-
  Region 1 as one pipeline, at any float instance and entry contents `V`: what the layer's output block, the combined
  adjacency tile and the accumulator hold after every grid point (by recursion on the point), the pipeline's proof data,
  the body obligation at a generic point, and how the region invariant is entered and left.
-/
import proofs.«149819_j58428735095548_2_alg».proof.Proof.KernelIdealR1A
import proofs.«149819_j58428735095548_2_alg».proof.Proof.KernelIdealR1B
import proofs.«149819_j58428735095548_2_alg».proof.Proof.KernelIdealR1C

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

def idle1 : Vec F S1024x128 .f32 := VO1_7.read (Elt F) VO1_7.junk

theorem scover1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (y : S1024x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x128.size (by sl_kernel_rfl) y
def sout1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)
theorem cover1_8_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x1024.size (by sl_kernel_rfl) y
def out1_8_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) : Vec F S1024x1024 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)

theorem scover1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1 S1024x128.size (by sl_kernel_rfl) y
def sout1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.2.1)
theorem cover1_8_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y
def out1_8_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x1024 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0).2.1)

theorem scover1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1024x128.size (by sl_kernel_rfl) y
def sout1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.2.1)
theorem cover1_8_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y
def out1_8_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x1024 .bf16 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).2.1)
theorem cover1_7_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1 S1024x128.size (by sl_kernel_rfl) y
def out1_7_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0).1)

/-! ## What the outputs and the accumulator hold after each point -/

/-- After the body at position `n`: (the layer's output block, the combined adjacency tile, the accumulator). -/
def outsAt1 (c : Dev nD) : (n : ℕ) → n < cfg1.N → Vec F S1024x128 .f32 × Vec F S1024x1024 .bf16 × Vec F S1024x128 .f32
  | 0, hn => (idle1, out1_8_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 8 = 0 then
      if h1 : (n + 1) % 8 = 7 then
        False.elim (by omega)
      else
        (idle1, out1_8_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 8 = 7 then
        (out1_7_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, out1_8_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)
      else
        (idle1, out1_8_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2)

theorem outsAt1_A (c : Dev nD) (t : Fin cfg1.N) (h0 : t.val % 8 = 0) (h1 : ¬t.val % 8 = 7) :
    outsAt1 V c t.val t.isLt = (idle1, out1_8_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idle1, out1_8_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_7_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, out1_8_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t ∗ (dat1 V c).leavesExact 7 t
    ∗ (dat1 V c).leavesExact 8 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]
theorem leaves1_8 (c : Dev nD) (t : Fin cfg1.N) : (dat1 V c).leavesExact 8 t = owns (c : Thread nD τ) (ms1_8 t) fullShare ((outsAt1 V c t.val t.isLt).2.1) := by
  unfold Dat.leavesExact; rw [liveAt1_8 t, after1_8]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_8]
  have hN : t.val < 64 := lt_of_lt_of_eq t.isLt (show cfg1.N = 64 from N_1)
  by_cases h0 : t.val % 8 = 0
  · have h1 : ¬t.val % 8 = 7 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold sout1_A out1_8_A; (try dsimp only)
    by_cases hz : t.val = 0
    · rw [PhiS1_castSucc V c t, PhiS1_zero V c _ _ hz, PhiA1_eq]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (cover1_8_A c _ _ _ _ _ _ _ _ _ _ _ _ _ _ _ _ _ _ _ _ _ _ _ _ _ _ _ _ _ _)
    · rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (cover1_8_A c _ _ _ _ _ _ _ _ _ _ _ _ _ _ _ _ _ _ _ _ _ _ _ _ _ _ _ _ _ _)
  · have hz : t.val ≠ 0 := fun hz => h0 (by rw [hz])
    by_cases h1 : t.val % 8 = 7
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_7_C out1_8_C sout1_C; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_7_C c _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_8_C c _ _ _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold sout1_B out1_8_B; (try dsimp only)
      rw [PhiS1_castSucc V c t, PhiS1_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      unfold owns; iexists _; isplitr
      swap; · iexact H8
      ipureintro; exact View.read_writes_of_cover _ _ _ _ _ (cover1_8_B c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrb⟩, Hg⟩
  isplitl [HS0 Hrb]
  · isplitl [HS0]
    · iexists _; iexact HS0
    iexact Hrb
  iexact Hg

end Cert.KernelIdeal.Reg

end
-- ==== Proof.KernelIdealR2S.lean ====
/-
  Region 2 (the second layer: one product with the combined adjacency, accumulated over the two column blocks, the
  accumulator plus the bias row, rectified, stored at the second), what its two control cases share, at any float instance and
  at the entry contents `V`: the windows' blocks, the closed forms of the body's two conditions (k = the point's index
  mod 2), where the output window is idle, the memrefs, and the region invariant with the accumulator split out.
-/
import proofs.«149819_j58428735095548_2_alg».proof.Proof.Gen.KernelIdeal.Launch
import proofs.«149819_j58428735095548_2_alg».proof.Proof.Gen.KernelIdeal.Skeleton
import proofs.«149819_j58428735095548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev VO2_3 : View sig .tc .vmem S1024x128 .f32 := (Memref.whole cc2_stg3_0 : Memref sig .tc .vmem S1024x128 .f32).view
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
abbrev scM2_0 : Memref sig .tc .vmem S1024x128 .f32 := Memref.whole cc2_scratch0
abbrev VS2_0 : View sig .tc .vmem S1024x128 .f32 := scM2_0.view

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA; rw [scopedRest2_split]; simp only [scM2_0, owns_whole]; try rfl

end Cert.KernelIdeal.Reg

end
-- ==== Proof.KernelIdealR2A.lean ====
/-
  Region 2, the body's run at a point of the first column block (k = 0): the accumulator, found at anything, is reset
  and the block's product added into it; the output block is left as found.
-/
import proofs.«149819_j58428735095548_2_alg».proof.Proof.KernelIdealR2S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_A (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S1024x4096 .bf16) (x1 : Vec F S4096x128 .bf16) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_single_kernel i arg2 harg2 arg3 harg3 arg4 harg4 arg5 harg5 arg6 harg6) K } := by
  refine ⟨[], ?_, fun xi3 E K => ?run⟩
  case run =>
    simp only [cc2__spmm_single_kernel_eq_skeleton]; unfold cc2__spmm_single_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg

end
-- ==== Proof.KernelIdealR2C.lean ====
/-
  Region 2, the body's run at a point of the second (last) column block (k = 1): the block's product is added into
  the accumulator the point before left, and the accumulator plus the bias row, rectified, is stored into the output block.
-/
import proofs.«149819_j58428735095548_2_alg».proof.Proof.KernelIdealR2S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S1024x4096 .bf16) (x1 : Vec F S4096x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_single_kernel i arg2 harg2 arg3 harg3 arg4 harg4 arg5 harg5 arg6 harg6) K } := by
  refine ⟨?_, ?_, fun E K => ?run⟩
  case run =>
    simp only [cc2__spmm_single_kernel_eq_skeleton]; unfold cc2__spmm_single_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg

end
-- ==== Proof.KernelIdealR2.lean ====
/-
  Region 2 as one pipeline, at any float instance and entry contents `V`: what the output block and the accumulator
  hold after every grid point (by recursion on the point: a second column block starts from what the first left), the
  pipeline's proof data, the body obligation at a generic point, and how the region invariant is entered and left.
-/
import proofs.«149819_j58428735095548_2_alg».proof.Proof.KernelIdealR2A
import proofs.«149819_j58428735095548_2_alg».proof.Proof.KernelIdealR2C

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle2 : Vec F S1024x128 .f32 := VO2_3.read (Elt F) VO2_3.junk

theorem scover2_A (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i) (x0 : Vec F S1024x4096 .bf16) (x1 : Vec F S4096x128 .bf16) (x2 : Vec F S1x128 .f32) (y : S1024x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1024x128.size (by sl_kernel_rfl) y
/-- The accumulator after a first column block. -/
def sout2_A (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i) (x0 : Vec F S1024x4096 .bf16) (x1 : Vec F S4096x128 .bf16) (x2 : Vec F S1x128 .f32) : Vec F S1024x128 .f32 :=
  VS2_0.read (Elt F) (VS2_0.writes (Elt F) VS2_0.junk (kernelRun2_A c i arg2 harg2 arg3 harg3 arg4 harg4 arg5 harg5 arg6 harg6 hc0 hc1 x0 x1 x2).2.1)
theorem scover2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1024x128.size (by sl_kernel_rfl) y
/-- The accumulator after the second column block. -/
def sout2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 hc0 hc1 x0 x1 x2 xs0).2.1)
theorem cover2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1024x128.size (by sl_kernel_rfl) y
/-- The output block after the second column block. -/
def out2_C (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) : Vec F S1024x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- After the body at position `n`: (the output window's staging buffer, the accumulator). -/
def outsAt2 (c : Dev nD) : (n : ℕ) → n < cfg2.N → Vec F S1024x128 .f32 × Vec F S1024x128 .f32
  | 0, hn => (idle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (idle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

theorem outsAt2_A (c : Dev nD) (t : Fin cfg2.N) (h0 : t.val % 2 = 0) (h1 : ¬t.val % 2 = 1) :
    outsAt2 V c t.val t.isLt = (idle2, sout2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_C (c : Dev nD) (t : Fin cfg2.N) (h0 : ¬t.val % 2 = 0) (h1 : t.val % 2 = 1) :
    outsAt2 V c t.val t.isLt = (out2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  by_cases h0 : t.val % 2 = 0
  · have h1 : ¬t.val % 2 = 1 := by omega
    have hnc1 : ¬cond2_1 (grid2.coords t) := fun h => h1 ((hcond2_1 t).mp h)
    rw [Dat.leavesExact_idle (dat2 V c) 3 t (idleAt2_3 t hnc1) (noFlush2_3 t hnc1)]
    rw [outsAt2_A V c t h0 h1]
    unfold sout2_A; (try dsimp only)
    by_cases hz : t.val = 0
    · rw [PhiS2_castSucc V c t, PhiS2_zero V c _ _ hz, PhiA2_eq]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrb⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover2_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : t.val % 2 = 1 := by omega
    have hc1 : cond2_1 (grid2.coords t) := (hcond2_1 t).mpr h1
    rw [show (dat2 V c).leavesExact 3 t = owns (c : Thread nD τ) (ms2_3 t) fullShare ((dat2 V c).after 3 t) from by
      unfold Dat.leavesExact; rw [liveAt2_3 t hc1], after2_3]
    rw [outsAt2_C V c t h0 h1]
    unfold out2_C sout2_C; (try dsimp only)
    rw [PhiS2_castSucc V c t, PhiS2_pos V c _ _ hz]
    iintro ⟨⟨⟨HS0, Hrb⟩, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover2_C c _ _ _ _ _ _ _ _ _ _ _ _ _ _ _ _ _)
        iexact Hrb
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C c _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, Hrb⟩, Hg⟩
  isplitl [HS0 Hrb]
  · isplitl [HS0]
    · iexists _; iexact HS0
    iexact Hrb
  iexact Hg

end Cert.KernelIdeal.Reg

end
-- ==== Proof.KernelIdealR3S.lean ====
/-
  Region 3 (the third layer: one product with the combined adjacency, accumulated over the two column blocks, the
  accumulator plus the bias row stored at the second), what its two control cases share, at any float instance and
  at the entry contents `V`: the windows' blocks, the closed forms of the body's two conditions (k = the point's index
  mod 2), where the output window is idle, the memrefs, and the region invariant with the accumulator split out.
-/
import proofs.«149819_j58428735095548_2_alg».proof.Proof.Gen.KernelIdeal.Launch
import proofs.«149819_j58428735095548_2_alg».proof.Proof.Gen.KernelIdeal.Skeleton
import proofs.«149819_j58428735095548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3_3 : View sig .tc .vmem S1024x16 .f32 := (Memref.whole cc3_stg3_0 : Memref sig .tc .vmem S1024x16 .f32).view
abbrev ms3_0 (t : Fin cfg3.N) : Memref sig .tc .vmem S1024x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x16 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x16 .f32 := win3_3.stage (cfg3.slots t 3)
abbrev hs3_3 (t : Fin cfg3.N) : (ms3_3 t).IsWhole := hstage3_3 ((cfg3.slots t 3).cast nbuf3_3)
abbrev scM3_0 : Memref sig .tc .vmem S1024x16 .f32 := Memref.whole cc3_scratch0
abbrev VS3_0 : View sig .tc .vmem S1024x16 .f32 := scM3_0.view

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ rest3 c) ∗ (∃ r, prngReg c r)) := by
  unfold Pipeline.ΦA; rw [scopedRest3_split]; simp only [scM3_0, owns_whole]; try rfl

end Cert.KernelIdeal.Reg

end
-- ==== Proof.KernelIdealR3A.lean ====
/-
  Region 3, the body's run at a point of the first column block (k = 0): the accumulator, found at anything, is reset
  and the block's product added into it; the output block is left as found.
-/
import proofs.«149819_j58428735095548_2_alg».proof.Proof.KernelIdealR3S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun3_A (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i)
    (x0 : Vec F S1024x4096 .bf16) (x1 : Vec F S4096x16 .bf16) (x2 : Vec F S1x16 .f32) :
    Σ' (L3 : List (View.Piece (Elt F) S1024x16 .f32)), { LS0 : List (View.Piece (Elt F) S1024x16 .f32) //
      ∀ (xi3 : Vec F S1024x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__spmm_single_kernel i arg2 harg2 arg3 harg3 arg4 harg4 arg5 harg5 arg6 harg6) K } := by
  refine ⟨[], ?_, fun xi3 E K => ?run⟩
  case run =>
    simp only [cc3__spmm_single_kernel_eq_skeleton]; unfold cc3__spmm_single_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg

end
-- ==== Proof.KernelIdealR3C.lean ====
/-
  Region 3, the body's run at a point of the second (last) column block (k = 1): the block's product is added into
  the accumulator the point before left, and the accumulator plus the bias row is stored into the output block.
-/
import proofs.«149819_j58428735095548_2_alg».proof.Proof.KernelIdealR3S

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
noncomputable def kernelRun3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i)
    (x0 : Vec F S1024x4096 .bf16) (x1 : Vec F S4096x16 .bf16) (x2 : Vec F S1x16 .f32) (xs0 : Vec F S1024x16 .f32) :
    Σ' (L3 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__spmm_single_kernel i arg2 harg2 arg3 harg3 arg4 harg4 arg5 harg5 arg6 harg6) K } := by
  refine ⟨?_, ?_, fun E K => ?run⟩
  case run =>
    simp only [cc3__spmm_single_kernel_eq_skeleton]; unfold cc3__spmm_single_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg

end
-- ==== Proof.KernelIdealR3.lean ====
/-
  Region 3 as one pipeline, at any float instance and entry contents `V`: what the output block and the accumulator
  hold after every grid point (by recursion on the point: a second column block starts from what the first left), the
  pipeline's proof data, the body obligation at a generic point, and how the region invariant is entered and left.
-/
import proofs.«149819_j58428735095548_2_alg».proof.Proof.KernelIdealR3A
import proofs.«149819_j58428735095548_2_alg».proof.Proof.KernelIdealR3C

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle3 : Vec F S1024x16 .f32 := VO3_3.read (Elt F) VO3_3.junk

theorem scover3_A (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i) (x0 : Vec F S1024x4096 .bf16) (x1 : Vec F S4096x16 .bf16) (x2 : Vec F S1x16 .f32) (y : S1024x16.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x16.size (by sl_kernel_rfl) y
/-- The accumulator after a first column block. -/
def sout3_A (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i) (x0 : Vec F S1024x4096 .bf16) (x1 : Vec F S4096x16 .bf16) (x2 : Vec F S1x16 .f32) : Vec F S1024x16 .f32 :=
  VS3_0.read (Elt F) (VS3_0.writes (Elt F) VS3_0.junk (kernelRun3_A c i arg2 harg2 arg3 harg3 arg4 harg4 arg5 harg5 arg6 harg6 hc0 hc1 x0 x1 x2).2.1)
theorem scover3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) (y : S1024x16.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x16.size (by sl_kernel_rfl) y
/-- The accumulator after the second column block. -/
def sout3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) : Vec F S1024x16 .f32 :=
  VS3_0.read (Elt F) (VS3_0.writes (Elt F) VS3_0.junk (kernelRun3_C c i arg2 harg2 arg3 harg3 arg4 harg4 arg5 harg5 arg6 harg6 hc0 hc1 x0 x1 x2 xs0).2.1)
theorem cover3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) (y : S1024x16.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x16.size (by sl_kernel_rfl) y
/-- The output block after the second column block. -/
def out3_C (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) : Vec F S1024x16 .f32 :=
  VO3_3.read (Elt F) (VO3_3.writes (Elt F) VO3_3.junk (kernelRun3_C c i arg2 harg2 arg3 harg3 arg4 harg4 arg5 harg5 arg6 harg6 hc0 hc1 x0 x1 x2 xs0).1)

/-- After the body at position `n`: (the output window's staging buffer, the accumulator). -/
def outsAt3 (c : Dev nD) : (n : ℕ) → n < cfg3.N → Vec F S1024x16 .f32 × Vec F S1024x16 .f32
  | 0, hn => (idle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      if h1 : (n + 1) % 2 = 1 then
        False.elim (by omega)
      else
        (idle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 2 = 1 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        False.elim (by omega)

theorem outsAt3_A (c : Dev nD) (t : Fin cfg3.N) (h0 : t.val % 2 = 0) (h1 : ¬t.val % 2 = 1) :
    outsAt3 V c t.val t.isLt = (idle3, sout3_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_C (c : Dev nD) (t : Fin cfg3.N) (h0 : ¬t.val % 2 = 0) (h1 : t.val % 2 = 1) :
    outsAt3 V c t.val t.isLt = (out3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ rest3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  by_cases h0 : t.val % 2 = 0
  · have h1 : ¬t.val % 2 = 1 := by omega
    have hnc1 : ¬cond3_1 (grid3.coords t) := fun h => h1 ((hcond3_1 t).mp h)
    rw [Dat.leavesExact_idle (dat3 V c) 3 t (idleAt3_3 t hnc1) (noFlush3_3 t hnc1)]
    rw [outsAt3_A V c t h0 h1]
    unfold sout3_A; (try dsimp only)
    by_cases hz : t.val = 0
    · rw [PhiS3_castSucc V c t, PhiS3_zero V c _ _ hz, PhiA3_eq]
      iintro ⟨⟨⟨HS0, Hrb⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hrb⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover3_A c _ _ _ _ _ _ _ _ _ _ _ _ _ _ _ _)
          iexact Hrb
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : t.val % 2 = 1 := by omega
    have hc1 : cond3_1 (grid3.coords t) := (hcond3_1 t).mpr h1
    rw [show (dat3 V c).leavesExact 3 t = owns (c : Thread nD τ) (ms3_3 t) fullShare ((dat3 V c).after 3 t) from by
      unfold Dat.leavesExact; rw [liveAt3_3 t hc1], after3_3]
    rw [outsAt3_C V c t h0 h1]
    unfold out3_C sout3_C; (try dsimp only)
    rw [PhiS3_castSucc V c t, PhiS3_pos V c _ _ hz]
    iintro ⟨⟨⟨HS0, Hrb⟩, Hg⟩, Ho, ⟨%d0, H0⟩, ⟨%d1, H1⟩, ⟨%d2, H2⟩, ⟨%d3, H3⟩⟩
    iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrb Hg]
    · isplitl [HS0 Hrb]
      · isplitl [HS0]
        · unfold owns; iexists _; isplitr
          swap; · iexact HS0
          ipureintro; exact View.read_writes_of_cover _ _ _ _ _ (scover3_C c _ _ _ _ _ _ _ _ _ _ _ _ _ _ _ _ _)
        iexact Hrb
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_C c _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega), PhiA3_eq]
  iintro ⟨⟨HS0, Hrb⟩, Hg⟩
  isplitl [HS0 Hrb]
  · isplitl [HS0]
    · iexists _; iexact HS0
    iexact Hrb
  iexact Hg

end Cert.KernelIdeal.Reg

end
-- ==== Proof.KernelIdealRun.lean ====
/-
  The whole run of the program, at any float instance: the buffer contents at every boundary between a stretch of host
  operations and a kernel region as a fold from the launch memory (a stretch applies its operations; a region leaves its
  output arrays at what its write-backs produce and every other buffer alone), each region as a segment of the run over
  the thread state "every unscoped buffer at the boundary's contents, the generator register somewhere, nothing owed",
  and the run itself: every weakly fair execution terminates, faultless, with every unscoped buffer at the last
  boundary's contents.
-/
import proofs.«149819_j58428735095548_2_alg».proof.Proof.KernelIdealR0
import proofs.«149819_j58428735095548_2_alg».proof.Proof.KernelIdealR1
import proofs.«149819_j58428735095548_2_alg».proof.Proof.KernelIdealR2
import proofs.«149819_j58428735095548_2_alg».proof.Proof.KernelIdealR3
import proofs.«149819_j58428735095548_2_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, an output with its write-backs
    folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = W2 m c (Pipeline.arrRef spec0 w) :=
  (W2_arr m c w).symm
theorem hrest0 (c : Dev nD) : ∀ b, b ∉ Finset.univ.image (Pipeline.arrRef spec0) → W2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, an output with its write-backs
    folded in), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = W4 m c (Pipeline.arrRef spec1 w) :=
  (W4_arr m c w).symm
theorem hrest1 (c : Dev nD) : ∀ b, b ∉ Finset.univ.image (Pipeline.arrRef spec1) → W4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input as entered, an output with its write-backs
    folded in), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = W6 m c (Pipeline.arrRef spec2 w) :=
  (W6_arr m c w).symm
theorem hrest2 (c : Dev nD) : ∀ b, b ∉ Finset.univ.image (Pipeline.arrRef spec2) → W6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- At region 3's exit: its arrays at what the pipeline leaves (an input as entered, an output with its write-backs
    folded in), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (V7 m) c).arrAt w cfg3.N = W8 m c (Pipeline.arrRef spec3 w) :=
  (W8_arr m c w).symm
theorem hrest3 (c : Dev nD) : ∀ b, b ∉ Finset.univ.image (Pipeline.arrRef spec3) → W8 m c b = V7 m c b :=
  fun b hb => W8_of_ne m c b fun w e => hb (Finset.mem_image.mpr ⟨w, Finset.mem_univ _, e⟩)

abbrev W9 : Dev nD → Valuation τ sig (Elt F) := fun c => StableHlo.after hostOps4 (W8 m c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`. Its arrays are
    split out of the unscoped buffers and put back at what the write-backs leave; the generator register and the scoped
    rest go into the region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at what the write-backs leave; the generator register and the scoped
    rest go into the region invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V3 m) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at what the write-backs leave; the generator register and the scoped
    rest go into the region invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (hout2 (V5 m) c).trans (by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at what the write-backs leave; the generator register and the scoped
    rest go into the region invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    exact (hout3 (V7 m) c).trans (by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

set_option backward.isDefEq.respectTransparency.types false in
/-- From any memory with zero counters, every weakly fair execution of the program terminates, faultless, and the final
    memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W9 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Reg

end
-- ==== Proof.KernelIdealFrame.lean ====
/-
  Nothing the run writes is an argument: a stretch of host operations writes only its own result buffers, a region only
  its output arrays. So every buffer outside those ends the run holding its launch contents — in particular the eleven
  argument arrays: the frame.
-/
import proofs.«149819_j58428735095548_2_alg».proof.Proof.KernelIdealRun

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Region 0 changes none but its output: an input array ends as it was entered, a buffer it does not stage is not touched. -/
theorem W2_keep (c : Dev nD) (b : Ref sig .tc) (hb : b ≠ main_v9) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (V1 m) c).arrAt_in 0 rfl _).trans (A_eq0 (V1 m) c 0)
    | ⟨1, _⟩ => exact ((dat0 (V1 m) c).arrAt_in 1 rfl _).trans (A_eq0 (V1 m) c 1)
    | ⟨2, _⟩ => exact ((dat0 (V1 m) c).arrAt_in 2 rfl _).trans (A_eq0 (V1 m) c 2)
    | ⟨3, _⟩ => exact ((dat0 (V1 m) c).arrAt_in 3 rfl _).trans (A_eq0 (V1 m) c 3)
    | ⟨4, _⟩ => exact absurd rfl hb
  · exact W2_of_ne m c b fun w e => h ⟨w, e⟩

/-- Region 1 changes none but its outputs: an input array ends as it was entered, a buffer it does not stage is not touched. -/
theorem W4_keep (c : Dev nD) (b : Ref sig .tc) (hb : b ≠ main_v42_0 ∧ b ≠ main_v42_1) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (V3 m) c).arrAt_in 0 rfl _).trans (A_eq1 (V3 m) c 0)
    | ⟨1, _⟩ => exact ((dat1 (V3 m) c).arrAt_in 1 rfl _).trans (A_eq1 (V3 m) c 1)
    | ⟨2, _⟩ => exact ((dat1 (V3 m) c).arrAt_in 2 rfl _).trans (A_eq1 (V3 m) c 2)
    | ⟨3, _⟩ => exact ((dat1 (V3 m) c).arrAt_in 3 rfl _).trans (A_eq1 (V3 m) c 3)
    | ⟨4, _⟩ => exact ((dat1 (V3 m) c).arrAt_in 4 rfl _).trans (A_eq1 (V3 m) c 4)
    | ⟨5, _⟩ => exact ((dat1 (V3 m) c).arrAt_in 5 rfl _).trans (A_eq1 (V3 m) c 5)
    | ⟨6, _⟩ => exact ((dat1 (V3 m) c).arrAt_in 6 rfl _).trans (A_eq1 (V3 m) c 6)
    | ⟨7, _⟩ => exact absurd rfl hb.1
    | ⟨8, _⟩ => exact absurd rfl hb.2
  · exact W4_of_ne m c b fun w e => h ⟨w, e⟩

/-- Region 2 changes none but its output: an input array ends as it was entered, a buffer it does not stage is not touched. -/
theorem W6_keep (c : Dev nD) (b : Ref sig .tc) (hb : b ≠ main_v46) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (V5 m) c).arrAt_in 0 rfl _).trans (A_eq2 (V5 m) c 0)
    | ⟨1, _⟩ => exact ((dat2 (V5 m) c).arrAt_in 1 rfl _).trans (A_eq2 (V5 m) c 1)
    | ⟨2, _⟩ => exact ((dat2 (V5 m) c).arrAt_in 2 rfl _).trans (A_eq2 (V5 m) c 2)
    | ⟨3, _⟩ => exact absurd rfl hb
  · exact W6_of_ne m c b fun w e => h ⟨w, e⟩

/-- Region 3 changes none but its output: an input array ends as it was entered, a buffer it does not stage is not touched. -/
theorem W8_keep (c : Dev nD) (b : Ref sig .tc) (hb : b ≠ main_v50) :
    W8 m c (Proc.devRef .tc b) = W7 m c (Proc.devRef .tc b) := by
  by_cases h : ∃ w, Pipeline.arrRef spec3 w = b
  · obtain ⟨w, rfl⟩ := h
    rw [W8_arr]
    match w with
    | ⟨0, _⟩ => exact ((dat3 (V7 m) c).arrAt_in 0 rfl _).trans (A_eq3 (V7 m) c 0)
    | ⟨1, _⟩ => exact ((dat3 (V7 m) c).arrAt_in 1 rfl _).trans (A_eq3 (V7 m) c 1)
    | ⟨2, _⟩ => exact ((dat3 (V7 m) c).arrAt_in 2 rfl _).trans (A_eq3 (V7 m) c 2)
    | ⟨3, _⟩ => exact absurd rfl hb
  · exact W8_of_ne m c b fun w e => h ⟨w, e⟩

/-- Every buffer the run may write: the host stretches' results and the regions' outputs. -/
abbrev written : List (Ref sig .tc) :=
  hostOps0_W ++ [main_v9] ++ hostOps1_W ++ [main_v42_0, main_v42_1] ++ hostOps2_W ++ [main_v46] ++ hostOps3_W ++ [main_v50] ++ hostOps4_W

/-- A buffer outside them ends holding its launch contents. -/
theorem W9_unwritten (c : Dev nD) (b : Ref sig .tc) (h0 : b ∉ hostOps0_W) (h1 : b ≠ main_v9) (h2 : b ∉ hostOps1_W)
    (h3 : b ≠ main_v42_0 ∧ b ≠ main_v42_1) (h4 : b ∉ hostOps2_W) (h5 : b ≠ main_v46) (h6 : b ∉ hostOps3_W) (h7 : b ≠ main_v50)
    (h8 : b ∉ hostOps4_W) : W9 m c (Proc.devRef .tc b) = m ((c : Thread nD τ).loc b) :=
  (StableHlo.after_of_writes_sub hostOps4 _ hostOps4_writes h8).trans <|
  (W8_keep m c b h7).trans <|
  (StableHlo.after_of_writes_sub hostOps3 _ hostOps3_writes h6).trans <|
  (W6_keep m c b h5).trans <|
  (StableHlo.after_of_writes_sub hostOps2 _ hostOps2_writes h4).trans <|
  (W4_keep m c b h3).trans <|
  (StableHlo.after_of_writes_sub hostOps1 _ hostOps1_writes h2).trans <|
  (W2_keep m c b h1).trans <|
  (StableHlo.after_of_writes_sub hostOps0 _ hostOps0_writes h0).trans rfl

theorem W9_arg (c : Dev nD) (b : Ref sig .tc) (h : b ∈ ([main_arg0, main_arg1, main_arg2, main_arg3, main_arg4, main_arg5, main_arg6, main_arg7, main_arg8, main_arg9, main_arg10] : List (Ref sig .tc))) :
    W9 m c (Proc.devRef .tc b) = m ((c : Thread nD τ).loc b) := by
  simp only [List.mem_cons, List.mem_nil_iff, or_false] at h
  rcases h with rfl | rfl | rfl | rfl | rfl | rfl | rfl | rfl | rfl | rfl | rfl <;>
    exact W9_unwritten m c _ (by decide) (by decide) (by decide) (by decide) (by decide) (by decide) (by decide) (by decide) (by decide)

/-- THE FRAME: every weakly fair execution terminates, faultless, with the argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_arg m c main_arg0 (by decide)),
     (h c _ (mem_uc main_arg1 (by decide))).trans (W9_arg m c main_arg1 (by decide)),
     (h c _ (mem_uc main_arg2 (by decide))).trans (W9_arg m c main_arg2 (by decide)),
     (h c _ (mem_uc main_arg3 (by decide))).trans (W9_arg m c main_arg3 (by decide)),
     (h c _ (mem_uc main_arg4 (by decide))).trans (W9_arg m c main_arg4 (by decide)),
     (h c _ (mem_uc main_arg5 (by decide))).trans (W9_arg m c main_arg5 (by decide)),
     (h c _ (mem_uc main_arg6 (by decide))).trans (W9_arg m c main_arg6 (by decide)),
     (h c _ (mem_uc main_arg7 (by decide))).trans (W9_arg m c main_arg7 (by decide)),
     (h c _ (mem_uc main_arg8 (by decide))).trans (W9_arg m c main_arg8 (by decide)),
     (h c _ (mem_uc main_arg9 (by decide))).trans (W9_arg m c main_arg9 (by decide)),
     (h c _ (mem_uc main_arg10 (by decide))).trans (W9_arg m c main_arg10 (by decide))⟩)
    (run_all m ρ)

end Cert.KernelIdeal.Reg

end
-- ==== Proof.LibEntry.lean ====
/-
  Contents of a buffer at the ideal instance, read as a function to the extended reals.

  An entry of a buffer at the ideal instance is an extended real; this identity names the buffer's contents as a function
  to the extended reals, so that sums and products of entries are the extended reals'.
-/
import Idealize.ShloMosaic.Lib.ValueIdx

noncomputable section

namespace Idealize.ShloMosaic.ValueIdx

/-- Contents valued in the extended reals, as they are. -/
abbrev entry {S : Shape} (f : S.Idx → EReal) : S.Idx → EReal := f

theorem entry_apply {S : Shape} (f : S.Idx → EReal) (i : S.Idx) : entry f i = f i := rfl

end Idealize.ShloMosaic.ValueIdx

end
-- ==== Proof.KernelIdealStageDefs.lean ====
/-
  The reference's stages as functions of the kernel program's argument arrays (its launch memory `m` on core `c`): the
  two attention logit columns, the softmax weights, the combined adjacency, the three layers and the result — the
  targets the kernel's buffers are compared with, stage by stage.
-/
import proofs.«149819_j58428735095548_2_alg».proof.Proof.KernelIdealFrame
import proofs.«149819_j58428735095548_2_alg».proof.Proof.RefReadP
import proofs.«149819_j58428735095548_2_alg».proof.Proof.LibEntry

noncomputable section

namespace Cert.KernelIdeal.Reg

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The logit column of the first adjacency: adj0 · w + b. -/
abbrev RV4 : S8192x1.Idx → EReal := Cert.ReferenceIdeal.ReadP.val_main_v4 (F := Ideal) (m ((c.tc : Thread nD τ).loc main_arg0)) (m ((c.tc : Thread nD τ).loc main_arg3)) (m ((c.tc : Thread nD τ).loc main_arg4))
/-- The logit column of the second adjacency. -/
abbrev RV9 : S8192x1.Idx → EReal := Cert.ReferenceIdeal.ReadP.val_main_v9 (F := Ideal) (m ((c.tc : Thread nD τ).loc main_arg1)) (m ((c.tc : Thread nD τ).loc main_arg3)) (m ((c.tc : Thread nD τ).loc main_arg4))
/-- The two logit columns side by side. -/
abbrev RV10 : S8192x2.Idx → EReal := Cert.ReferenceIdeal.ReadP.val_main_v10 (F := Ideal) (m ((c.tc : Thread nD τ).loc main_arg0)) (m ((c.tc : Thread nD τ).loc main_arg1)) (m ((c.tc : Thread nD τ).loc main_arg3)) (m ((c.tc : Thread nD τ).loc main_arg4))
/-- The softmax weights of each node's two logits. -/
abbrev RV21 : S8192x2.Idx → EReal := Cert.ReferenceIdeal.ReadP.val_main_v21 (F := Ideal) (m ((c.tc : Thread nD τ).loc main_arg0)) (m ((c.tc : Thread nD τ).loc main_arg1)) (m ((c.tc : Thread nD τ).loc main_arg3)) (m ((c.tc : Thread nD τ).loc main_arg4))
/-- The combined adjacency nz0(J) · adj0(R, J) + nz1(J) · adj1(R, J). -/
abbrev RV32 : S8192x8192.Idx → EReal := Cert.ReferenceIdeal.ReadP.val_main_v32 (F := Ideal) (m ((c.tc : Thread nD τ).loc main_arg0)) (m ((c.tc : Thread nD τ).loc main_arg1)) (m ((c.tc : Thread nD τ).loc main_arg3)) (m ((c.tc : Thread nD τ).loc main_arg4))
/-- x · W1. -/
abbrev RV33 : S8192x128.Idx → EReal := Cert.ReferenceIdeal.ReadP.val_main_v33 (F := Ideal) (m ((c.tc : Thread nD τ).loc main_arg2)) (m ((c.tc : Thread nD τ).loc main_arg5))
/-- The first layer, rectified. -/
abbrev RV38 : S8192x128.Idx → EReal := Cert.ReferenceIdeal.ReadP.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
/-- The second layer, rectified. -/
abbrev RV44 : S8192x128.Idx → EReal := Cert.ReferenceIdeal.ReadP.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
/-- The third layer. -/
abbrev RV49 : S8192x16.Idx → EReal := Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
/-- The result: the row softmax of the third layer. -/
abbrev RV60 : S8192x16.Idx → EReal := Cert.ReferenceIdeal.ReadP.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

end Cert.KernelIdeal.Reg

end
-- ==== Proof.LibScatterSet.lean ====
import Idealize.ShloMosaic.PureOps.ShapeOps

/-!
# Reading a replacing scatter at an index

`Host.scatter d f x idx upd` is a left fold over the update indices in row-major order: the step for
update index `j` replaces the element at `d.resultIdx? j idx` (when that is inside the operand) by
`f` of the old element and `upd j`. When the body returns the update (`f = fun _ b => b`: a
`.at[…].set(…)`) the result at `i` is the operand's element when no update index lands on `i`, and
the update's element when the update indices landing on `i` all carry the same value — in
particular when the map from update indices to result indices is injective.
-/

namespace Idealize.ShloMosaic

section FoldReplace
variable {ι κ α : Type} [DecidableEq ι]

open Classical in
/-- A left fold of replacing steps, read at `i`. Step `n` replaces the element at `i0` by
    `val n` when `land n = some i0` and changes nothing when `land n = none`. If every `n` of the
    list that lands on `i` carries the value `v`, the fold's result at `i` is `v` when some `n` of
    the list lands on `i`, and the start's element otherwise. -/
theorem foldl_replace_apply (land : κ → Option ι) (val : κ → α) (step : (ι → α) → κ → ι → α)
    (hsome : ∀ r n i0, land n = some i0 → step r n = fun i' => if i' = i0 then val n else r i')
    (hnone : ∀ r n, land n = none → step r n = r)
    (i : ι) (v : α) (l : List κ) (hv : ∀ n ∈ l, land n = some i → val n = v) (x : ι → α) :
    l.foldl step x i = if ∃ n ∈ l, land n = some i then v else x i := by
  induction l generalizing x with
  | nil => simp
  | cons n l ih =>
    rw [List.foldl_cons, ih (fun m hm => hv m (List.mem_cons_of_mem _ hm))]
    cases hn : land n with
    | none =>
      rw [hnone x n hn]
      have hiff : (∃ m ∈ n :: l, land m = some i) ↔ ∃ m ∈ l, land m = some i := by
        constructor
        · rintro ⟨m, hm, h⟩
          rcases List.mem_cons.1 hm with rfl | hm
          · rw [hn] at h; exact absurd h (by simp)
          · exact ⟨m, hm, h⟩
        · rintro ⟨m, hm, h⟩; exact ⟨m, List.mem_cons_of_mem _ hm, h⟩
      by_cases hl : ∃ m ∈ l, land m = some i
      · rw [if_pos hl, if_pos (hiff.2 hl)]
      · rw [if_neg hl, if_neg (fun h => hl (hiff.1 h))]
    | some i0 =>
      rw [hsome x n i0 hn]
      by_cases hl : ∃ m ∈ l, land m = some i
      · have hl' : ∃ m ∈ n :: l, land m = some i := by
          obtain ⟨m, hm, h⟩ := hl; exact ⟨m, List.mem_cons_of_mem _ hm, h⟩
        rw [if_pos hl, if_pos hl']
      · rw [if_neg hl]
        by_cases hi : i = i0
        · subst hi
          have hl' : ∃ m ∈ n :: l, land m = some i := ⟨n, List.mem_cons_self, hn⟩
          rw [if_pos hl']
          show (if i = i then val n else x i) = v
          rw [if_pos rfl]
          exact hv n List.mem_cons_self hn
        · have hl' : ¬ ∃ m ∈ n :: l, land m = some i := by
            rintro ⟨m, hm, h⟩
            rcases List.mem_cons.1 hm with rfl | hm
            · rw [hn] at h; exact hi (Option.some.inj h).symm
            · exact hl ⟨m, hm, h⟩
          rw [if_neg hl']
          show (if i = i0 then val n else x i) = x i
          rw [if_neg hi]

end FoldReplace

section ScatterSet
variable {s si u : Shape} {α : Type} {w : Nat}

/-- A replacing scatter read at `i`, when the update indices landing on `i` all carry the value
    `v`: the result is `v`. -/
theorem Host.scatter_set_eq_of_lands (d : ScatterDims s si u) (x : s.Idx → α) (idx : IVec si w) (upd : u.Idx → α)
    (i : s.Idx) (v : α) (hv : ∀ j, d.resultIdx? j idx = some i → upd j = v) (hex : ∃ j, d.resultIdx? j idx = some i) :
    Host.scatter d (fun _ b => b) x idx upd i = v := by
  unfold Host.scatter
  rw [foldl_replace_apply (fun n => d.resultIdx? (u.rowMajor.symm n) idx) (fun n => upd (u.rowMajor.symm n)) _
    (fun r n i0 h => by simp only [h]) (fun r n h => by simp only [h]) i v _ (fun n _ h => hv _ h) x]
  obtain ⟨j, hj⟩ := hex
  exact if_pos ⟨u.rowMajor j, List.mem_finRange _, by rw [Equiv.symm_apply_apply]; exact hj⟩

/-- A replacing scatter read at an index no update index lands on: the operand's element. -/
theorem Host.scatter_set_eq_of_not_lands (d : ScatterDims s si u) (x : s.Idx → α) (idx : IVec si w) (upd : u.Idx → α)
    (i : s.Idx) (hno : ∀ j, d.resultIdx? j idx ≠ some i) :
    Host.scatter d (fun _ b => b) x idx upd i = x i := by
  unfold Host.scatter
  rw [foldl_replace_apply (fun n => d.resultIdx? (u.rowMajor.symm n) idx) (fun n => upd (u.rowMajor.symm n)) _
    (fun r n i0 h => by simp only [h]) (fun r n h => by simp only [h]) i (x i) _ (fun n _ h => absurd h (hno _)) x]
  exact if_neg (fun ⟨n, _, h⟩ => hno _ h)

/-- A replacing scatter whose update indices land, all inside the operand, at pairwise distinct
    result indices `e j`, read at `e j`: the update's element at `j`. -/
theorem Host.scatter_set_hit (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j :=
  Host.scatter_set_eq_of_lands d x idx upd (e j) (upd j)
    (fun j' h => by rw [he j'] at h; rw [hinj (Option.some.inj h)]) ⟨j, he j⟩

/-- A replacing scatter whose update indices land at the result indices `e j`, read at an index
    that is none of them: the operand's element. -/
theorem Host.scatter_set_miss (d : ScatterDims s si u) (x : s.Idx → α) (idx : IVec si w) (upd : u.Idx → α)
    (e : u.Idx → s.Idx) (he : ∀ j, d.resultIdx? j idx = some (e j)) (i : s.Idx) (hi : ∀ j, e j ≠ i) :
    Host.scatter d (fun _ b => b) x idx upd i = x i :=
  Host.scatter_set_eq_of_not_lands d x idx upd i
    (fun j h => by rw [he j] at h; exact hi j (Option.some.inj h))

/-- The window start on every operand axis is `0` when every component of the scatter indices is
    the zero word (read signed: `0`; an axis the map does not name starts at `0` anyway). -/
theorem ScatterDims.start_eq_zero_of_zero (d : ScatterDims s si u) (j : u.Idx) (idx : IVec si w)
    (hidx : ∀ k, idx k = 0#w) (a : Fin s.rank) : d.start j idx a = 0 := by
  unfold ScatterDims.start
  split
  · rw [hidx]; exact BitVec.toInt_zero
  · rfl

/-- The result index of update index `j` is `i` when on every operand axis the start plus the
    window coordinate is `i`'s coordinate (which is inside the operand, being a coordinate). -/
theorem ScatterDims.resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + (d.window j a : Int) ∧ d.start j idx a + (d.window j a : Int) < (s.size a : Int) := by
    intro a; rw [h a]; exact ⟨Int.natCast_nonneg _, by exact_mod_cast (i a).isLt⟩
  rw [dif_pos hin]
  refine congrArg some (funext fun a => Fin.ext ?_)
  show (d.start j idx a + (d.window j a : Int)).toNat = (i a).val
  rw [h a]; exact Int.toNat_natCast _

end ScatterSet

end Idealize.ShloMosaic
-- ==== Proof.KernelIdealS1a.lean ====
/-
  The attention vector packed into two 8-column matrices: a zero matrix with its column 0 (resp. 1) replaced by the
  vector. Read entry by entry: in the replaced column the vector's entry, zero in the other of the two columns.
-/
import proofs.«149819_j58428735095548_2_alg».proof.Proof.KernelIdealStageDefs
import proofs.«149819_j58428735095548_2_alg».proof.Proof.LibScatterSet
import Idealize.ShloMosaic.Lib.StableHlo.Run
import Idealize.ShloMosaic.Lib.ValueLayout
import Idealize.ShloMosaic.PureOps.Ideal.Laws

set_option maxRecDepth 65536
set_option Elab.async false

noncomputable section

namespace Cert.KernelIdeal.Reg

open Cert.KernelIdeal Cert.KernelIdeal.Gen
open Idealize.ShloMosaic Idealize.ShloMosaic.TcCoe Idealize.SL.Sem Idealize.ShloMosaic.ValueIdx Idealize.ShloMosaic.StableHlo

abbrev dS := scatter_S8192x8_S1_S8192_0_1_1_0

/-- Where update index j lands when the scatter's one index is the column `col`: row j, that column. -/
theorem lands (col : Fin 8) (w : BitVec 32) (hw : w.toInt = (col.val : ℤ)) (j : S8192.Idx) :
    dS.resultIdx? j (broadcastInDim S1 ![] bcast_S_S1 (constantI S_ 32 w)) = some (ix2 (j 0) col) := by
  refine ScatterDims.resultIdx?_eq_some dS j _ (ix2 (j 0) col) (fun a => ?_)
  match a with
  | ⟨0, _⟩ =>
    show dS.start j _ 0 + (dS.window j 0 : ℤ) = (((j 0).val : ℕ) : ℤ)
    have hs : dS.start j (broadcastInDim S1 ![] bcast_S_S1 (constantI S_ 32 w)) 0 = 0 := by
      unfold ScatterDims.start
      rw [dif_neg (by decide)]
    have hwn : dS.window j 0 = (j 0).val := by
      unfold ScatterDims.window
      rw [dif_pos (by decide)]
      rfl
    rw [hs, hwn, zero_add]
  | ⟨1, _⟩ =>
    show dS.start j _ 1 + (dS.window j 1 : ℤ) = ((col.val : ℕ) : ℤ)
    have hs : dS.start j (broadcastInDim S1 ![] bcast_S_S1 (constantI S_ 32 w)) 1 = w.toInt := by
      unfold ScatterDims.start
      rw [dif_pos (by decide)]
      rfl
    have hwn : dS.window j 1 = 0 := by
      unfold ScatterDims.window
      rw [dif_neg (by decide)]
    rw [hs, hwn, hw]
    simp

theorem lands_inj (col : Fin 8) : Function.Injective (fun j : S8192.Idx => (ix2 (j 0) col : S8192x8.Idx)) := fun j j' h =>
  funext fun a => by
    match a with
    | ⟨0, _⟩ => exact congrFun h 0

/-- In the replaced column: the update's entry. -/
theorem set_col_hit (col : Fin 8) (w : BitVec 32) (hw : w.toInt = (col.val : ℤ)) (x : S8192x8.Idx → EReal) (upd : S8192.Idx → EReal) (J : Fin 8192) :
    Host.scatter dS (fun _ b => b) x (broadcastInDim S1 ![] bcast_S_S1 (constantI S_ 32 w)) upd (ix2 J col) = upd (ix1 J) :=
  Host.scatter_set_hit dS x _ upd (fun j => ix2 (j 0) col) (lands col w hw) (lands_inj col) (ix1 J)

/-- In another column: the operand's entry. -/
theorem set_col_miss (col col' : Fin 8) (hne : col' ≠ col) (w : BitVec 32) (hw : w.toInt = (col.val : ℤ)) (x : S8192x8.Idx → EReal) (upd : S8192.Idx → EReal) (J : Fin 8192) :
    Host.scatter dS (fun _ b => b) x (broadcastInDim S1 ![] bcast_S_S1 (constantI S_ 32 w)) upd (ix2 J col') = x (ix2 J col') :=
  Host.scatter_set_miss dS x _ upd (fun j => ix2 (j 0) col) (lands col w hw) (ix2 J col')
    (fun j h => hne (congrFun h 1).symm)

variable (m : (ℓ : Loc nD τ sig) → Buf (Elt Ideal) ℓ) (c : Dev nD)

/-- The attention vector as a plain vector: entry J of the reshaped row is the row's entry (0, J). -/
def wvec : S8192.Idx → EReal := fun i => shapeCast S8192 (m ((c.tc : Thread nD τ).loc main_arg3)) shapeCasts_S1x8192_S8192 i

theorem wvec_apply (J : Fin 8192) : wvec m c (ix1 J) = entry (S := S1x8192) (m ((c.tc : Thread nD τ).loc main_arg3)) (ix2 0 J) := by
  unfold wvec
  exact shapeCast_1a_a_apply _ shapeCasts_S1x8192_S8192 J

def zeros8 : S8192x8.Idx → EReal := broadcastInDim S8192x8 ![] bcast_S_S8192x8 (constant (F := Ideal) S_ .f32 0x00000000#32)

theorem zeros8_apply (i : S8192x8.Idx) : zeros8 i = 0 := by
  show Ideal.ofBits .f32 0x00000000#32 = 0
  exact Ideal.ofBits_zero_f32

set_option maxHeartbeats 4000000 in
/-- The first packed matrix is the zero matrix with column 0 replaced by the attention vector (then a change of float
    format, which is the identity on the extended reals). -/
theorem v4_eq : W1 m c (Proc.devRef .tc main_v4)
    = truncf .bf16 (Host.scatter dS (fun _ b => b) (broadcastInDim S8192x8 ![] bcast_S_S8192x8 (constant (F := Ideal) S_ .f32 0x00000000#32))
        (broadcastInDim S1 ![] bcast_S_S1 (constantI S_ 32 0#32))
        (fun i => shapeCast S8192 (W0 m c (Proc.devRef .tc main_arg3)) shapeCasts_S1x8192_S8192 i)) bitsLt_bf16_f32 := by
  dsimp only [W1, hostOps0]
  after_results
  rfl

set_option maxHeartbeats 4000000 in
/-- The second one, with column 1 replaced. -/
theorem v8_eq : W1 m c (Proc.devRef .tc main_v8)
    = truncf .bf16 (Host.scatter dS (fun _ b => b) (broadcastInDim S8192x8 ![] bcast_S_S8192x8 (constant (F := Ideal) S_ .f32 0x00000000#32))
        (broadcastInDim S1 ![] bcast_S_S1 (constantI S_ 32 1#32))
        (fun i => shapeCast S8192 (W0 m c (Proc.devRef .tc main_arg3)) shapeCasts_S1x8192_S8192 i)) bitsLt_bf16_f32 := by
  dsimp only [W1, hostOps0]
  after_results
  rfl

theorem v4_col0 (J : Fin 8192) : entry (S := S8192x8) (W1 m c (Proc.devRef .tc main_v4)) (ix2 J 0) = entry (S := S1x8192) (m ((c.tc : Thread nD τ).loc main_arg3)) (ix2 0 J) := by
  rw [v4_eq, entry_apply, truncf_apply, set_col_hit 0 0#32 (by decide)]
  exact shapeCast_1a_a_apply _ shapeCasts_S1x8192_S8192 J
theorem v4_col1 (J : Fin 8192) : entry (S := S8192x8) (W1 m c (Proc.devRef .tc main_v4)) (ix2 J 1) = 0 := by
  rw [v4_eq, entry_apply, truncf_apply, set_col_miss 0 1 (by decide) 0#32 (by decide)]
  exact zeros8_apply _
theorem v8_col1 (J : Fin 8192) : entry (S := S8192x8) (W1 m c (Proc.devRef .tc main_v8)) (ix2 J 1) = entry (S := S1x8192) (m ((c.tc : Thread nD τ).loc main_arg3)) (ix2 0 J) := by
  rw [v8_eq, entry_apply, truncf_apply, set_col_hit 1 1#32 (by decide)]
  exact shapeCast_1a_a_apply _ shapeCasts_S1x8192_S8192 J
theorem v8_col0 (J : Fin 8192) : entry (S := S8192x8) (W1 m c (Proc.devRef .tc main_v8)) (ix2 J 0) = 0 := by
  rw [v8_eq, entry_apply, truncf_apply, set_col_miss 1 0 (by decide) 1#32 (by decide)]
  exact zeros8_apply _

end Cert.KernelIdeal.Reg

end
-- ==== Proof.LibReadBack.lean ====
/-
  A load of a whole buffer after a list of stores the LAST of which wrote the whole buffer reads that last store's
  payload, whatever the earlier stores were: an accumulator stored whole, then stored whole again, then read back.
  (The one-store case is `View.readCov_unit_zero`.)
-/
import Idealize.ShloMosaic.Lib.Pipeline.Value

noncomputable section

namespace Idealize.ShloMosaic.View

variable {Val : EltTy → Type} {S : Shape} {e : EltTy}

/-- A load through the whole-shape rectangle of what a list of stores left, the last one through the whole-shape
    rectangle, reads the last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KernelIdealV0.lean ====
/-
  Region 0, what each control case leaves as a VALUE, at any float instance: the accumulator after a point is the
  second product's payload over the first product's payload over what the accumulator held (zero at a first column
  block); at a last column block the output block is that accumulator. Each buffer's final contents are
  described by the list of whole-buffer stores made to it: the last store of the list is what the buffer holds, and a load
  after a whole-buffer store reads that store's payload.
-/
import proofs.«149819_j58428735095548_2_alg».proof.Proof.KernelIdealR0
import proofs.«149819_j58428735095548_2_alg».proof.Proof.LibReadBack

set_option maxRecDepth 16384

noncomputable section

namespace Cert.KernelIdeal.Reg

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- One column block's step on the accumulator: both products added, the first operand pair first. -/
def step0 (x0 x1 : Vec F S1024x1024 .f32) (x2 x3 : Vec F S1024x8 .bf16) (acc : Vec F S1024x8 .f32) : Vec F S1024x8 .f32 :=
  k0_pay3 x1 (k0_pay2 x0 acc x2) x3

theorem sout0_B_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i) (x0 : Vec F S1024x1024 .f32) (x1 : Vec F S1024x1024 .f32) (x2 : Vec F S1024x8 .bf16) (x3 : Vec F S1024x8 .bf16) (xs0 : Vec F S1024x8 .f32) :
    sout0_B c i arg2 harg2 arg3 harg3 arg4 harg4 arg5 harg5 arg6 harg6 arg7 harg7 hc0 hc1 x0 x1 x2 x3 xs0 = step0 x0 x1 x2 x3 xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_cons_unit_zero (S := S1024x8) hz2, View.readCov_unit_zero (S := S1024x8) _ hz2]
  simp only [View.readAt_eq_ld, harg2.read_unread, harg3.read_unread, harg4.read_unread, harg5.read_unread, harg7.read_unread,
    View.ld_unit_zero (S := S1024x8) hz2, View.ld_unit_zero (S := S1024x1024) hz2]
  rfl

theorem sout0_A_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i) (x0 : Vec F S1024x1024 .f32) (x1 : Vec F S1024x1024 .f32) (x2 : Vec F S1024x8 .bf16) (x3 : Vec F S1024x8 .bf16) :
    sout0_A c i arg2 harg2 arg3 harg3 arg4 harg4 arg5 harg5 arg6 harg6 arg7 harg7 hc0 hc1 x0 x1 x2 x3 = step0 x0 x1 x2 x3 k0_pay1 := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x8) hz2, View.readCov_cons_unit_zero (S := S1024x8) _ hz2, View.readCov_unit_zero (S := S1024x8) _ hz2]
  simp only [View.readAt_eq_ld, harg2.read_unread, harg3.read_unread, harg4.read_unread, harg5.read_unread,
    View.ld_unit_zero (S := S1024x8) hz2, View.ld_unit_zero (S := S1024x1024) hz2]
  rfl

theorem sout0_C_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) :
    sout0_C c i arg2 harg2 arg3 harg3 arg4 harg4 arg5 harg5 arg6 harg6 arg7 harg7 hc0 hc1 x0 x1 x2 x3 xs0 = step0 x0 x1 x2 x3 xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_cons_unit_zero (S := S1024x8) hz2, View.readCov_unit_zero (S := S1024x8) _ hz2]
  simp only [View.readAt_eq_ld, harg2.read_unread, harg3.read_unread, harg4.read_unread, harg5.read_unread, harg7.read_unread,
    View.ld_unit_zero (S := S1024x8) hz2, View.ld_unit_zero (S := S1024x1024) hz2]
  rfl

theorem out0_C_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i) (x0 : Vec F S1024x1024 .f32) (x1 : Vec F S1024x1024 .f32) (x2 : Vec F S1024x8 .bf16) (x3 : Vec F S1024x8 .bf16) (xs0 : Vec F S1024x8 .f32) :
    out0_C c i arg2 harg2 arg3 harg3 arg4 harg4 arg5 harg5 arg6 harg6 arg7 harg7 hc0 hc1 x0 x1 x2 x3 xs0 = step0 x0 x1 x2 x3 xs0 := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x8) hz2, View.readCov_cons_unit_zero (S := S1024x8) _ hz2, View.readCov_unit_zero (S := S1024x8) _ hz2]
  simp only [View.readAt_eq_ld, harg2.read_unread, harg3.read_unread, harg4.read_unread, harg5.read_unread, harg7.read_unread,
    View.ld_unit_zero (S := S1024x8) hz2, View.ld_unit_zero (S := S1024x1024) hz2]
  rfl

end Cert.KernelIdeal.Reg

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibBlockSum.lean ====
/-
  Two small tools for a matrix product accumulated block by block along its contraction axis.

  (1) A sum over the first J * B naturals is the sum, over the J consecutive blocks of length B, of each block's
      sum: the block s holds the naturals B * s, ..., B * s + (B - 1). Only commutativity and associativity of
      the addition are used, so the statement holds in any commutative additive monoid -- in particular on the
      extended reals, where no finiteness is needed.
  (2) A rank-2 array read at a pair of NATURAL coordinates (zero outside the extents). It lets a block's entry
      "block index * block size + offset" be written with plain arithmetic on naturals, and agrees with the
      array at every genuine index.
-/
import Idealize.ShloMosaic.Lib.ValueIdx

noncomputable section

open scoped BigOperators

namespace Idealize.ShloMosaic.BlockSum

open Idealize.ShloMosaic Idealize.ShloMosaic.ValueIdx

/-- The sum over the first J * B naturals, block by block. -/
theorem sum_range_blocks {β : Type*} [AddCommMonoid β] (f : ℕ → β) (J B : ℕ) :
    ∑ j ∈ Finset.range (J * B), f j = ∑ s ∈ Finset.range J, ∑ k ∈ Finset.range B, f (B * s + k) := by
  induction J with
  | zero => simp
  | succ J ih =>
    rw [Nat.succ_mul, Finset.sum_range_add, ih, Finset.sum_range_succ, Nat.mul_comm J B]

/-- A rank-2 array of extended reals read at natural coordinates; zero outside the extents. -/
def at2 {R C : ℕ} (A : (⟨2, ![R, C]⟩ : Shape).Idx → EReal) (r c : ℕ) : EReal :=
  if h : r < R ∧ c < C then A (ix2 ⟨r, h.1⟩ ⟨c, h.2⟩) else 0

/-- At the coordinates of a genuine index the natural-coordinate read is the array. -/
theorem at2_val {R C : ℕ} (A : (⟨2, ![R, C]⟩ : Shape).Idx → EReal) (i : (⟨2, ![R, C]⟩ : Shape).Idx) :
    at2 A (i 0).val (i 1).val = A i := by
  unfold at2
  rw [dif_pos ⟨(i 0).isLt, (i 1).isLt⟩]
  exact congrArg A (eq_ix2 i).symm

/-- The same, for an index given by its two coordinates. -/
theorem at2_ix2 {R C : ℕ} (A : (⟨2, ![R, C]⟩ : Shape).Idx → EReal) (r : Fin R) (c : Fin C) :
    at2 A r.val c.val = A (ix2 r c) := by
  unfold at2
  rw [dif_pos ⟨r.isLt, c.isLt⟩]

/-- A sum over a finite ordinal of a natural-coordinate term is the sum over the initial segment of the naturals. -/
theorem sum_fin_eq_range {β : Type*} [AddCommMonoid β] (n : ℕ) (f : ℕ → β) :
    ∑ k : Fin n, f k.val = ∑ k ∈ Finset.range n, f k :=
  (Finset.sum_range f).symm

end Idealize.ShloMosaic.BlockSum

end
-- ==== Proof.KernelIdealV0I.lean ====
/-
  Region 0 at the ideal instance, as values. One column block's step on the accumulator adds, entry by entry, the two
  products of the block (each a plain sum over the block's 1024 columns, on the extended reals); so after the point of
  column block k the accumulator holds the sum over the blocks 0..k — written with the arrays read at natural
  coordinates, so that "block × 1024 + offset" is plain arithmetic —, and the output array, whose row block i is
  written back once, after column block 7, ends holding at (R, q) the two full products
  ∑ J, adj0(R, J) · y0(J, q) + ∑ J, adj1(R, J) · y1(J, q). Only commutativity and associativity of the addition are used.
-/
import proofs.«149819_j58428735095548_2_alg».proof.Proof.KernelIdealV0
import proofs.«149819_j58428735095548_2_alg».proof.Proof.LibMatmulRows
import proofs.«149819_j58428735095548_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.BlockSum
open scoped BigOperators

/-! ## The block's products, entry by entry -/

abbrev dA0 := dot_S1024x1024_S1024x8_S1024x8_1_0_0_1_n_n

theorem dA0_hl0 (i : S1024x8.Idx) (q : dA0.contr.Idx) : (dA0.lhsIdx i q 0).val = (i 0).val := by
  unfold DotDims.lhsIdx
  rw [dif_neg (show ¬(0 : Fin S1024x1024.rank) ∈ dA0.lhsBatch by decide), dif_pos (show (0 : Fin S1024x1024.rank) ∈ dA0.lhsNonContracting by decide)]
  rfl
theorem dA0_hr1 (i : S1024x8.Idx) (q : dA0.contr.Idx) : (dA0.rhsIdx i q 1).val = (i 1).val := by
  unfold DotDims.rhsIdx
  rw [dif_neg (show ¬(1 : Fin S1024x8.rank) ∈ dA0.rhsBatch by decide), dif_pos (show (1 : Fin S1024x8.rank) ∈ dA0.rhsNonContracting by decide)]
  rfl

/-- The reset stores zeros. -/
theorem pay1_0_apply (i : S1024x8.Idx) : k0_pay1 (F := Ideal) i = 0 := by
  unfold k0_pay1
  simp only [shapeCast_self]
  exact Ideal.ofBits_zero_f32

/-- The first product added into the accumulator. -/
theorem pay2_0_apply (x0 : Vec Ideal S1024x1024 .f32) (acc : Vec Ideal S1024x8 .f32) (x2 : Vec Ideal S1024x8 .bf16) (r : Fin 1024) (q : Fin 8) :
    k0_pay2 (F := Ideal) x0 acc x2 (ix2 r q) = acc (ix2 r q) + ∑ j : Fin 1024, x0 (ix2 r j) * x2 (ix2 j q) := by
  unfold k0_pay2
  simp only [shapeCast_self]
  exact congrArg (fun z => acc (ix2 r q) + z) (MatmulRows.matmul_zero_apply dA0 none rfl rfl rfl rfl dA0_hl0 dA0_hr1 x0 x2 (ix2 r q))

/-- The second product added into the accumulator. -/
theorem pay3_0_apply (x1 : Vec Ideal S1024x1024 .f32) (acc : Vec Ideal S1024x8 .f32) (x3 : Vec Ideal S1024x8 .bf16) (r : Fin 1024) (q : Fin 8) :
    k0_pay3 (F := Ideal) x1 acc x3 (ix2 r q) = acc (ix2 r q) + ∑ j : Fin 1024, x1 (ix2 r j) * x3 (ix2 j q) := by
  unfold k0_pay3
  simp only [shapeCast_self]
  exact congrArg (fun z => acc (ix2 r q) + z) (MatmulRows.matmul_zero_apply dA0 none rfl rfl rfl rfl dA0_hl0 dA0_hr1 x1 x3 (ix2 r q))

theorem step0_apply (x0 x1 : Vec Ideal S1024x1024 .f32) (x2 x3 : Vec Ideal S1024x8 .bf16) (acc : Vec Ideal S1024x8 .f32) (r : Fin 1024) (q : Fin 8) :
    step0 (F := Ideal) x0 x1 x2 x3 acc (ix2 r q)
      = (acc (ix2 r q) + ∑ j : Fin 1024, x0 (ix2 r j) * x2 (ix2 j q)) + ∑ j : Fin 1024, x1 (ix2 r j) * x3 (ix2 j q) := by
  unfold step0
  rw [pay3_0_apply, pay2_0_apply]

/-! ## The windows' blocks, read at natural coordinates of their arrays -/

variable (V : (c : Dev nD) → (b : Ref sig .tc) → Buf (Elt Ideal) ((c : Thread nD τ).loc b))

/-- Where the windows' blocks sit: the point's row block is t / 8, its column block t % 8. -/
theorem idx0 : ∀ t : Fin cfg0.N, win0_0.index t 0 = t.val / 8 ∧ win0_0.index t 1 = t.val % 8
    ∧ win0_1.index t 0 = t.val / 8 ∧ win0_1.index t 1 = t.val % 8
    ∧ win0_2.index t 0 = t.val % 8 ∧ win0_2.index t 1 = 0
    ∧ win0_3.index t 0 = t.val % 8 ∧ win0_3.index t 1 = 0
    ∧ win0_4.index t 0 = t.val / 8 ∧ win0_4.index t 1 = 0 :=
  (by decide +kernel : ∀ t : Fin grid0.N, _)

theorem iblk0_0_apply (c : Dev nD) (t : Fin cfg0.N) (r j : Fin 1024) :
    (iblk0 V c 0 t : S1024x1024.Idx → EReal) (ix2 r j)
      = at2 (V c main_arg0 : S8192x8192.Idx → EReal) (1024 * (t.val / 8) + r.val) (1024 * (t.val % 8) + j.val) := by
  unfold iblk0
  rw [View.read_apply]
  refine (at2_val (V c main_arg0 : S8192x8192.Idx → EReal) (((cfg0.win 0).blk t).view.emb (ix2 r j))).symm.trans ?_
  congr 1
  · show win0_0.index t 0 * 1024 + 1 * r.val = _
    rw [(idx0 t).1]; omega
  · show win0_0.index t 1 * 1024 + 1 * j.val = _
    rw [(idx0 t).2.1]; omega

theorem iblk0_1_apply (c : Dev nD) (t : Fin cfg0.N) (r j : Fin 1024) :
    (iblk0 V c 1 t : S1024x1024.Idx → EReal) (ix2 r j)
      = at2 (V c main_arg1 : S8192x8192.Idx → EReal) (1024 * (t.val / 8) + r.val) (1024 * (t.val % 8) + j.val) := by
  unfold iblk0
  rw [View.read_apply]
  refine (at2_val (V c main_arg1 : S8192x8192.Idx → EReal) (((cfg0.win 1).blk t).view.emb (ix2 r j))).symm.trans ?_
  congr 1
  · show win0_1.index t 0 * 1024 + 1 * r.val = _
    rw [(idx0 t).2.2.1]; omega
  · show win0_1.index t 1 * 1024 + 1 * j.val = _
    rw [(idx0 t).2.2.2.1]; omega

theorem iblk0_2_apply (c : Dev nD) (t : Fin cfg0.N) (j : Fin 1024) (q : Fin 8) :
    (iblk0 V c 2 t : S1024x8.Idx → EReal) (ix2 j q)
      = at2 (V c main_v4 : S8192x8.Idx → EReal) (1024 * (t.val % 8) + j.val) q.val := by
  unfold iblk0
  rw [View.read_apply]
  refine (at2_val (V c main_v4 : S8192x8.Idx → EReal) (((cfg0.win 2).blk t).view.emb (ix2 j q))).symm.trans ?_
  congr 1
  · show win0_2.index t 0 * 1024 + 1 * j.val = _
    rw [(idx0 t).2.2.2.2.1]; omega
  · show win0_2.index t 1 * 8 + 1 * q.val = _
    rw [(idx0 t).2.2.2.2.2.1]; omega

theorem iblk0_3_apply (c : Dev nD) (t : Fin cfg0.N) (j : Fin 1024) (q : Fin 8) :
    (iblk0 V c 3 t : S1024x8.Idx → EReal) (ix2 j q)
      = at2 (V c main_v8 : S8192x8.Idx → EReal) (1024 * (t.val % 8) + j.val) q.val := by
  unfold iblk0
  rw [View.read_apply]
  refine (at2_val (V c main_v8 : S8192x8.Idx → EReal) (((cfg0.win 3).blk t).view.emb (ix2 j q))).symm.trans ?_
  congr 1
  · show win0_3.index t 0 * 1024 + 1 * j.val = _
    rw [(idx0 t).2.2.2.2.2.2.1]; omega
  · show win0_3.index t 1 * 8 + 1 * q.val = _
    rw [(idx0 t).2.2.2.2.2.2.2.1]; omega

/-! ## The accumulator after each point -/

/-- Column block s of a product's row: ∑ over the block's 1024 columns, at natural coordinates. -/
def blkSum (A : S8192x8192.Idx → EReal) (Y : S8192x8.Idx → EReal) (R q s : ℕ) : EReal :=
  ∑ j ∈ Finset.range 1024, at2 A R (1024 * s + j) * at2 Y (1024 * s + j) q

/-- One product of a block, when the operands' entries are the arrays' at block coordinates. -/
theorem prod_blk (x0 : Vec Ideal S1024x1024 .f32) (x2 : Vec Ideal S1024x8 .bf16) (A : S8192x8192.Idx → EReal) (Y : S8192x8.Idx → EReal)
    (i8 k8 : ℕ) (e0 : ∀ r j : Fin 1024, x0 (ix2 r j) = at2 A (1024 * i8 + r.val) (1024 * k8 + j.val))
    (e2 : ∀ (j : Fin 1024) (q : Fin 8), x2 (ix2 j q) = at2 Y (1024 * k8 + j.val) q.val) (r : Fin 1024) (q : Fin 8) :
    ∑ j : Fin 1024, x0 (ix2 r j) * x2 (ix2 j q) = blkSum A Y (1024 * i8 + r.val) q.val k8 := by
  unfold blkSum
  rw [← sum_fin_eq_range 1024 (fun j => at2 A (1024 * i8 + r.val) (1024 * k8 + j) * at2 Y (1024 * k8 + j) q.val)]
  exact Finset.sum_congr rfl fun j _ => by rw [e0, e2]

/-- A first column block's accumulator, entry by entry. -/
theorem valA0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : cond0_0 i) (hc1 : ¬cond0_1 i)
    (x0 x1 : Vec Ideal S1024x1024 .f32) (x2 x3 : Vec Ideal S1024x8 .bf16) (A0 A1 : S8192x8192.Idx → EReal) (Y0 Y1 : S8192x8.Idx → EReal) (i8 k8 : ℕ)
    (e0 : ∀ r j : Fin 1024, x0 (ix2 r j) = at2 A0 (1024 * i8 + r.val) (1024 * k8 + j.val))
    (e1 : ∀ r j : Fin 1024, x1 (ix2 r j) = at2 A1 (1024 * i8 + r.val) (1024 * k8 + j.val))
    (e2 : ∀ (j : Fin 1024) (q : Fin 8), x2 (ix2 j q) = at2 Y0 (1024 * k8 + j.val) q.val)
    (e3 : ∀ (j : Fin 1024) (q : Fin 8), x3 (ix2 j q) = at2 Y1 (1024 * k8 + j.val) q.val) (r : Fin 1024) (q : Fin 8) :
    sout0_A (F := Ideal) c i arg2 harg2 arg3 harg3 arg4 harg4 arg5 harg5 arg6 harg6 arg7 harg7 hc0 hc1 x0 x1 x2 x3 (ix2 r q)
      = blkSum A0 Y0 (1024 * i8 + r.val) q.val k8 + blkSum A1 Y1 (1024 * i8 + r.val) q.val k8 := by
  rw [sout0_A_eq, step0_apply, pay1_0_apply, zero_add, prod_blk x0 x2 A0 Y0 i8 k8 e0 e2, prod_blk x1 x3 A1 Y1 i8 k8 e1 e3]

/-- A later column block's accumulator, entry by entry, from the accumulator before it. -/
theorem valB0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : ¬cond0_1 i)
    (x0 x1 : Vec Ideal S1024x1024 .f32) (x2 x3 : Vec Ideal S1024x8 .bf16) (xs0 : Vec Ideal S1024x8 .f32) (A0 A1 : S8192x8192.Idx → EReal) (Y0 Y1 : S8192x8.Idx → EReal) (i8 k8 : ℕ)
    (e0 : ∀ r j : Fin 1024, x0 (ix2 r j) = at2 A0 (1024 * i8 + r.val) (1024 * k8 + j.val))
    (e1 : ∀ r j : Fin 1024, x1 (ix2 r j) = at2 A1 (1024 * i8 + r.val) (1024 * k8 + j.val))
    (e2 : ∀ (j : Fin 1024) (q : Fin 8), x2 (ix2 j q) = at2 Y0 (1024 * k8 + j.val) q.val)
    (e3 : ∀ (j : Fin 1024) (q : Fin 8), x3 (ix2 j q) = at2 Y1 (1024 * k8 + j.val) q.val) (r : Fin 1024) (q : Fin 8) :
    sout0_B (F := Ideal) c i arg2 harg2 arg3 harg3 arg4 harg4 arg5 harg5 arg6 harg6 arg7 harg7 hc0 hc1 x0 x1 x2 x3 xs0 (ix2 r q)
      = xs0 (ix2 r q) + (blkSum A0 Y0 (1024 * i8 + r.val) q.val k8 + blkSum A1 Y1 (1024 * i8 + r.val) q.val k8) := by
  rw [sout0_B_eq, step0_apply, prod_blk x0 x2 A0 Y0 i8 k8 e0 e2, prod_blk x1 x3 A1 Y1 i8 k8 e1 e3, add_assoc]

theorem valC0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x8 .bf16) (harg4 : arg4.IsWhole) (arg5 : Memref sig .tc .vmem S1024x8 .bf16) (harg5 : arg5.IsWhole) (arg6 : Memref sig .tc .vmem S1024x8 .f32) (harg6 : arg6.IsWhole) (arg7 : Memref sig .tc .vmem S1024x8 .f32) (harg7 : arg7.IsWhole) (hc0 : ¬cond0_0 i) (hc1 : cond0_1 i)
    (x0 x1 : Vec Ideal S1024x1024 .f32) (x2 x3 : Vec Ideal S1024x8 .bf16) (xs0 : Vec Ideal S1024x8 .f32) (A0 A1 : S8192x8192.Idx → EReal) (Y0 Y1 : S8192x8.Idx → EReal) (i8 k8 : ℕ)
    (e0 : ∀ r j : Fin 1024, x0 (ix2 r j) = at2 A0 (1024 * i8 + r.val) (1024 * k8 + j.val))
    (e1 : ∀ r j : Fin 1024, x1 (ix2 r j) = at2 A1 (1024 * i8 + r.val) (1024 * k8 + j.val))
    (e2 : ∀ (j : Fin 1024) (q : Fin 8), x2 (ix2 j q) = at2 Y0 (1024 * k8 + j.val) q.val)
    (e3 : ∀ (j : Fin 1024) (q : Fin 8), x3 (ix2 j q) = at2 Y1 (1024 * k8 + j.val) q.val) (r : Fin 1024) (q : Fin 8) :
    sout0_C (F := Ideal) c i arg2 harg2 arg3 harg3 arg4 harg4 arg5 harg5 arg6 harg6 arg7 harg7 hc0 hc1 x0 x1 x2 x3 xs0 (ix2 r q)
      = xs0 (ix2 r q) + (blkSum A0 Y0 (1024 * i8 + r.val) q.val k8 + blkSum A1 Y1 (1024 * i8 + r.val) q.val k8)
    ∧ out0_C (F := Ideal) c i arg2 harg2 arg3 harg3 arg4 harg4 arg5 harg5 arg6 harg6 arg7 harg7 hc0 hc1 x0 x1 x2 x3 xs0 (ix2 r q)
      = xs0 (ix2 r q) + (blkSum A0 Y0 (1024 * i8 + r.val) q.val k8 + blkSum A1 Y1 (1024 * i8 + r.val) q.val k8) := by
  constructor
  · rw [sout0_C_eq, step0_apply, prod_blk x0 x2 A0 Y0 i8 k8 e0 e2, prod_blk x1 x3 A1 Y1 i8 k8 e1 e3, add_assoc]
  · rw [out0_C_eq, step0_apply, prod_blk x0 x2 A0 Y0 i8 k8 e0 e2, prod_blk x1 x3 A1 Y1 i8 k8 e1 e3, add_assoc]

/-- Both products' column blocks 0..k of row R, entry q. -/
def partial0 (c : Dev nD) (R q k : ℕ) : EReal :=
  ∑ s ∈ Finset.range (k + 1), (blkSum (V c main_arg0) (V c main_v4) R q s + blkSum (V c main_arg1) (V c main_v8) R q s)

set_option maxHeartbeats 4000000 in
/-- After the point of column block k the accumulator holds the blocks 0..k of both products. -/
theorem acc0_eq (c : Dev nD) : ∀ (n : ℕ) (h : n < cfg0.N) (r : Fin 1024) (q : Fin 8),
    (outsAt0 V c n h).2 (ix2 r q) = partial0 V c (1024 * (n / 8) + r.val) q.val (n % 8)
  | n, h, r, q => by
    by_cases h0 : n % 8 = 0
    · have h1 : ¬n % 8 = 7 := by omega
      have e := congrArg Prod.snd (outsAt0_A V c ⟨n, h⟩ h0 h1)
      refine (congrFun e (ix2 r q)).trans ?_
      refine (valA0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk0 V c 0 ⟨n, h⟩) (iblk0 V c 1 ⟨n, h⟩) (iblk0 V c 2 ⟨n, h⟩) (iblk0 V c 3 ⟨n, h⟩) (V c main_arg0) (V c main_arg1) (V c main_v4) (V c main_v8) (n / 8) (n % 8) (fun r j => iblk0_0_apply V c ⟨n, h⟩ r j) (fun r j => iblk0_1_apply V c ⟨n, h⟩ r j) (fun j q => iblk0_2_apply V c ⟨n, h⟩ j q) (fun j q => iblk0_3_apply V c ⟨n, h⟩ j q) r q).trans ?_
      unfold partial0
      simp only [h0, zero_add, Finset.sum_range_one]
    · have hn0 : n ≠ 0 := fun e => h0 (by rw [e])
      have hN : cfg0.N = 64 := N_0
      have ih := acc0_eq c (n - 1) (by omega) r q
      have hd : (n - 1) / 8 = n / 8 := by omega
      have hm : (n - 1) % 8 + 1 = n % 8 := by omega
      rw [hd] at ih
      by_cases h1 : n % 8 = 7
      · have e := congrArg Prod.snd (outsAt0_C V c ⟨n, h⟩ h0 h1)
        refine (congrFun e (ix2 r q)).trans ?_
        refine ((valC0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1) (iblk0 V c 0 ⟨n, h⟩) (iblk0 V c 1 ⟨n, h⟩) (iblk0 V c 2 ⟨n, h⟩) (iblk0 V c 3 ⟨n, h⟩) _ (V c main_arg0) (V c main_arg1) (V c main_v4) (V c main_v8) (n / 8) (n % 8) (fun r j => iblk0_0_apply V c ⟨n, h⟩ r j) (fun r j => iblk0_1_apply V c ⟨n, h⟩ r j) (fun j q => iblk0_2_apply V c ⟨n, h⟩ j q) (fun j q => iblk0_3_apply V c ⟨n, h⟩ j q) r q).1).trans ?_
        refine (congrArg (· + _) ih).trans ?_
        unfold partial0
        rw [hm, Finset.sum_range_succ]
      · have e := congrArg Prod.snd (outsAt0_B V c ⟨n, h⟩ h0 h1)
        refine (congrFun e (ix2 r q)).trans ?_
        refine (valB0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) (fun hh => h1 ((hcond0_1 ⟨n, h⟩).mp hh)) (iblk0 V c 0 ⟨n, h⟩) (iblk0 V c 1 ⟨n, h⟩) (iblk0 V c 2 ⟨n, h⟩) (iblk0 V c 3 ⟨n, h⟩) _ (V c main_arg0) (V c main_arg1) (V c main_v4) (V c main_v8) (n / 8) (n % 8) (fun r j => iblk0_0_apply V c ⟨n, h⟩ r j) (fun r j => iblk0_1_apply V c ⟨n, h⟩ r j) (fun j q => iblk0_2_apply V c ⟨n, h⟩ j q) (fun j q => iblk0_3_apply V c ⟨n, h⟩ j q) r q).trans ?_
        refine (congrArg (· + _) ih).trans ?_
        unfold partial0
        rw [hm, Finset.sum_range_succ]
  termination_by n => n

set_option maxHeartbeats 4000000 in
/-- At a last column block the output block is that point's accumulator. -/
theorem out0_eq (c : Dev nD) (n : ℕ) (h : n < cfg0.N) (h1 : n % 8 = 7) (r : Fin 1024) (q : Fin 8) :
    (outsAt0 V c n h).1 (ix2 r q) = partial0 V c (1024 * (n / 8) + r.val) q.val 7 := by
  have h0 : ¬n % 8 = 0 := by omega
  have hN : cfg0.N = 64 := N_0
  have ih := acc0_eq V c (n - 1) (by omega) r q
  have hd : (n - 1) / 8 = n / 8 := by omega
  have hm : (n - 1) % 8 + 1 = n % 8 := by omega
  rw [hd] at ih
  have e := congrArg Prod.fst (outsAt0_C V c ⟨n, h⟩ h0 h1)
  refine (congrFun e (ix2 r q)).trans ?_
  refine ((valC0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1) (iblk0 V c 0 ⟨n, h⟩) (iblk0 V c 1 ⟨n, h⟩) (iblk0 V c 2 ⟨n, h⟩) (iblk0 V c 3 ⟨n, h⟩) _ (V c main_arg0) (V c main_arg1) (V c main_v4) (V c main_v8) (n / 8) (n % 8) (fun r j => iblk0_0_apply V c ⟨n, h⟩ r j) (fun r j => iblk0_1_apply V c ⟨n, h⟩ r j) (fun j q => iblk0_2_apply V c ⟨n, h⟩ j q) (fun j q => iblk0_3_apply V c ⟨n, h⟩ j q) r q).2).trans ?_
  refine (congrArg (· + _) ih).trans ?_
  unfold partial0
  have h6 : (n - 1) % 8 = 6 := by omega
  rw [h6, h1]
  exact (Finset.sum_range_succ _ 7).symm

end Cert.KernelIdeal.Reg

end
-- ==== Proof.KernelIdealV0F.lean ====
/-
  Region 0's output array after the run, at the ideal instance: row block i is written back once, by the point of its
  last column block, with the accumulator that then holds all eight blocks of both products; the eight row blocks cover
  the array; and eight consecutive blocks of 1024 columns are all 8192 columns. So entry (R, q) of the array is
  ∑ J, adj0(R, J) · y0(J, q) + ∑ J, adj1(R, J) · y1(J, q).
-/
import proofs.«149819_j58428735095548_2_alg».proof.Proof.KernelIdealV0I
import proofs.«149819_j58428735095548_2_alg».proof.Proof.LibEntry

set_option maxRecDepth 16384

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.BlockSum
open scoped BigOperators

variable (V : (c : Dev nD) → (b : Ref sig .tc) → Buf (Elt Ideal) ((c : Thread nD τ).loc b))

/-- Eight consecutive blocks of 1024 columns are the 8192 columns. -/
theorem blocks8_total (A : S8192x8192.Idx → EReal) (Y : S8192x8.Idx → EReal) (R : Fin 8192) (q : Fin 8) :
    ∑ s ∈ Finset.range (7 + 1), blkSum A Y R.val q.val s = ∑ J : Fin 8192, A (ix2 R J) * Y (ix2 J q) := by
  have h := sum_range_blocks (fun J => at2 A R.val J * at2 Y J q.val) 8 1024
  rw [show (8 * 1024 : ℕ) = 8192 from rfl] at h
  unfold blkSum
  rw [show (7 + 1 : ℕ) = 8 from rfl, ← h, ← sum_fin_eq_range 8192 (fun J => at2 A R.val J * at2 Y J q.val)]
  exact Finset.sum_congr rfl fun J _ => by rw [at2_ix2, at2_ix2]

/-- What the output array ends holding. -/
def G0 (c : Dev nD) : S8192x8.Idx → EReal := fun i => partial0 V c (i 0).val (i 1).val 7

theorem G0_apply (c : Dev nD) (R : Fin 8192) (q : Fin 8) :
    G0 V c (ix2 R q) = (∑ J : Fin 8192, entry (S := S8192x8192) (V c main_arg0) (ix2 R J) * entry (S := S8192x8) (V c main_v4) (ix2 J q))
      + ∑ J : Fin 8192, entry (S := S8192x8192) (V c main_arg1) (ix2 R J) * entry (S := S8192x8) (V c main_v8) (ix2 J q) := by
  show partial0 V c R.val q.val 7 = _
  unfold partial0
  rw [Finset.sum_add_distrib, blocks8_total, blocks8_total]

/-- What a flushing point writes back is its block of `G0`. -/
theorem flushed0_eq (c : Dev nD) (t : Fin cfg0.N) (hf : (cfg0.win 4).flush t = true) :
    (dat0 V c).flushed 4 t = ((cfg0.win 4).blk t).view.read (Elt Ideal) (G0 V c) := by
  have h7 : t.val % 8 = 7 := (flush0_4 t).mp hf
  show (cfg0.win 4).cut (grid0.coords t) ((dat0 V c).after 4 t) = _
  rw [after0_4]
  funext y
  rw [View.read_apply]
  have key := out0_eq V c t.val t.isLt h7 ⟨(y 0).val, (y 0).isLt⟩ ⟨(y 1).val, (y 1).isLt⟩
  have hy : (ix2 (⟨(y 0).val, (y 0).isLt⟩ : Fin 1024) (⟨(y 1).val, (y 1).isLt⟩ : Fin 8) : S1024x8.Idx) = y :=
    funext fun a => by
      match a with
      | ⟨0, _⟩ => rfl
      | ⟨1, _⟩ => rfl
  rw [hy] at key
  refine key.trans ?_
  show partial0 V c (1024 * (t.val / 8) + (y 0).val) (y 1).val 7 = partial0 V c _ _ 7
  congr 1
  · show 1024 * (t.val / 8) + (y 0).val = win0_4.index t 0 * 1024 + 1 * (y 0).val
    rw [(idx0 t).2.2.2.2.2.2.2.2.1]; omega
  · show (y 1).val = win0_4.index t 1 * 8 + 1 * (y 1).val
    rw [(idx0 t).2.2.2.2.2.2.2.2.2]; omega

/-- An index of the array is in point t's block iff each coordinate is in the block's range on its axis. -/
theorem mem_blk0 (t : Fin cfg0.N) (i : S8192x8.Idx) :
    i ∈ ((cfg0.win 4).blk t).view.set ↔ ∀ a : Fin 2, win0_4.index t a * S1024x8.size a ≤ (i a).val ∧ (i a).val < win0_4.index t a * S1024x8.size a + S1024x8.size a := by
  show i ∈ ((View.whole main_v9).slice (win0_4.rect t)).set ↔ _
  rw [View.set_slice_whole, Rect.mem_set_unit]
  exact Iff.rfl

/-- The flushing points' blocks cover the array: row R lies in row block R / 1024, flushed at its last column block. -/
theorem cover0 (i : S8192x8.Idx) :
    ∃ t : Fin cfg0.N, (cfg0.win 4).flush t = true ∧ i ∈ ((cfg0.win 4).blk t).view.set := by
  have hi0 : (i 0).val < 8192 := (i 0).isLt
  have hi1 : (i 1).val < 8 := (i 1).isLt
  have hN : cfg0.N = 64 := N_0
  have ht : 8 * ((i 0).val / 1024) + 7 < cfg0.N := by omega
  refine ⟨⟨8 * ((i 0).val / 1024) + 7, ht⟩, (flush0_4 _).mpr (by show (8 * ((i 0).val / 1024) + 7) % 8 = 7; omega), ?_⟩
  rw [mem_blk0]
  intro a
  match a with
  | ⟨0, _⟩ =>
    show win0_4.index ⟨8 * ((i 0).val / 1024) + 7, ht⟩ 0 * 1024 ≤ (i 0).val ∧ (i 0).val < win0_4.index ⟨8 * ((i 0).val / 1024) + 7, ht⟩ 0 * 1024 + 1024
    rw [(idx0 ⟨8 * ((i 0).val / 1024) + 7, ht⟩).2.2.2.2.2.2.2.2.1]
    show (8 * ((i 0).val / 1024) + 7) / 8 * 1024 ≤ (i 0).val ∧ (i 0).val < (8 * ((i 0).val / 1024) + 7) / 8 * 1024 + 1024
    omega
  | ⟨1, _⟩ =>
    show win0_4.index ⟨8 * ((i 0).val / 1024) + 7, ht⟩ 1 * 8 ≤ (i 1).val ∧ (i 1).val < win0_4.index ⟨8 * ((i 0).val / 1024) + 7, ht⟩ 1 * 8 + 8
    rw [(idx0 ⟨8 * ((i 0).val / 1024) + 7, ht⟩).2.2.2.2.2.2.2.2.2]
    omega

/-- THE ARRAY after the region. -/
theorem final0 (c : Dev nD) (R : Fin 8192) (q : Fin 8) :
    entry (S := S8192x8) ((dat0 (F := Ideal) V c).arrAt 4 cfg0.N) (ix2 R q)
      = (∑ J : Fin 8192, entry (S := S8192x8192) (V c main_arg0) (ix2 R J) * entry (S := S8192x8) (V c main_v4) (ix2 J q))
        + ∑ J : Fin 8192, entry (S := S8192x8192) (V c main_arg1) (ix2 R J) * entry (S := S8192x8) (V c main_v8) (ix2 J q) := by
  rw [← G0_apply]
  exact congrFun ((dat0 V c).arrAt_eq_of_cover 4 (G0 V c) (flushed0_eq V c) cover0) (ix2 R q)

end Cert.KernelIdeal.Reg

end
-- ==== Proof.KernelIdealS1b.lean ====
/-
  The attention logits. The kernel's first pass leaves, in columns 0 and 1 of its 8-column result, the products of the two
  adjacencies with the attention vector (the packed matrices' other column is zero, and anything times zero is zero); the
  bias is then added to each column. Entry by entry these are the reference's two logit columns adj0 · w + b, adj1 · w + b.
-/
import proofs.«149819_j58428735095548_2_alg».proof.Proof.KernelIdealS1a
import proofs.«149819_j58428735095548_2_alg».proof.Proof.KernelIdealV0F

set_option maxRecDepth 65536

noncomputable section

namespace Cert.KernelIdeal.Reg

open Cert.KernelIdeal Cert.KernelIdeal.Gen
open Idealize.ShloMosaic Idealize.ShloMosaic.TcCoe Idealize.SL.Sem Idealize.ShloMosaic.ValueIdx Idealize.ShloMosaic.StableHlo
open Cert.ReferenceIdeal.ReadP
open scoped BigOperators

variable (m : (ℓ : Loc nD τ sig) → Buf (Elt Ideal) ℓ) (c : Dev nD)

/-- A buffer the first stretch of host operations does not write holds its launch contents when region 0 is entered. -/
theorem W1_unwritten (b : Ref sig .tc) (h : b ∉ hostOps0_W) : W1 m c (Proc.devRef .tc b) = m ((c.tc : Thread nD τ).loc b) :=
  StableHlo.after_of_writes_sub hostOps0 _ hostOps0_writes h

/-- Column 0 of the first pass's result: the first adjacency against the attention vector. -/
theorem raw_col0 (R : Fin 8192) :
    entry (S := S8192x8) (W2 m c (Proc.devRef .tc main_v9)) (ix2 R 0)
      = ∑ J : Fin 8192, entry (S := S8192x8192) (m ((c.tc : Thread nD τ).loc main_arg0)) (ix2 R J) * entry (S := S1x8192) (m ((c.tc : Thread nD τ).loc main_arg3)) (ix2 0 J) := by
  have h := final0 (V1 m) c R 0
  rw [show W2 m c (Proc.devRef .tc main_v9) = (dat0 (F := Ideal) (V1 m) c).arrAt 4 cfg0.N from W2_arr m c 4, h]
  have z : (∑ J : Fin 8192, entry (S := S8192x8192) (V1 m c main_arg1) (ix2 R J) * entry (S := S8192x8) (V1 m c main_v8) (ix2 J 0)) = 0 :=
    Finset.sum_eq_zero fun J _ => by
      rw [show entry (S := S8192x8) (V1 m c main_v8) (ix2 J 0) = 0 from v8_col0 m c J]; exact mul_zero _
  rw [z, add_zero]
  refine Finset.sum_congr rfl fun J _ => ?_
  rw [show entry (S := S8192x8) (V1 m c main_v4) (ix2 J 0) = _ from v4_col0 m c J,
    show V1 m c main_arg0 = m ((c.tc : Thread nD τ).loc main_arg0) from W1_unwritten m c main_arg0 (by decide)]

/-- Column 1: the second adjacency against the attention vector. -/
theorem raw_col1 (R : Fin 8192) :
    entry (S := S8192x8) (W2 m c (Proc.devRef .tc main_v9)) (ix2 R 1)
      = ∑ J : Fin 8192, entry (S := S8192x8192) (m ((c.tc : Thread nD τ).loc main_arg1)) (ix2 R J) * entry (S := S1x8192) (m ((c.tc : Thread nD τ).loc main_arg3)) (ix2 0 J) := by
  have h := final0 (V1 m) c R 1
  rw [show W2 m c (Proc.devRef .tc main_v9) = (dat0 (F := Ideal) (V1 m) c).arrAt 4 cfg0.N from W2_arr m c 4, h]
  have z : (∑ J : Fin 8192, entry (S := S8192x8192) (V1 m c main_arg0) (ix2 R J) * entry (S := S8192x8) (V1 m c main_v4) (ix2 J 1)) = 0 :=
    Finset.sum_eq_zero fun J _ => by
      rw [show entry (S := S8192x8) (V1 m c main_v4) (ix2 J 1) = 0 from v4_col1 m c J]; exact mul_zero _
  rw [z, zero_add]
  refine Finset.sum_congr rfl fun J _ => ?_
  rw [show entry (S := S8192x8) (V1 m c main_v8) (ix2 J 1) = _ from v8_col1 m c J,
    show V1 m c main_arg1 = m ((c.tc : Thread nD τ).loc main_arg1) from W1_unwritten m c main_arg1 (by decide)]

/-- The bias reaches the second stretch of host operations as launched. -/
theorem W2_arg4 : W2 m c (Proc.devRef .tc main_arg4) = m ((c.tc : Thread nD τ).loc main_arg4) :=
  (W2_keep m c main_arg4 (by decide)).trans (W1_unwritten m c main_arg4 (by decide))

set_option maxHeartbeats 8000000 in
/-- The kernel's first logit column, as the operations compute it. -/
theorem v13_eq : W3 m c (Proc.devRef .tc main_v13)
    = (addf (extractStridedSlice S8192x1 ![0, 0] (W2 m c (Proc.devRef .tc main_v9) : FVec Ideal S8192x8 .f32) slices_S8192x8_S8192x1_0_0)
        (broadcastInDim S8192x1 ![0, 1] bcast_S1x1_S8192x1_0_1 (broadcastInDim S1x1 ![1] bcast_S1_S1x1_1 (W2 m c (Proc.devRef .tc main_arg4) : FVec Ideal S1 .f32))) : FVec Ideal S8192x1 .f32) := by
  dsimp only [W3, hostOps1]
  after_results

set_option maxHeartbeats 8000000 in
theorem v17_eq : W3 m c (Proc.devRef .tc main_v17)
    = (addf (extractStridedSlice S8192x1 ![0, 1] (W2 m c (Proc.devRef .tc main_v9) : FVec Ideal S8192x8 .f32) slices_S8192x8_S8192x1_0_1)
        (broadcastInDim S8192x1 ![0, 1] bcast_S1x1_S8192x1_0_1 (broadcastInDim S1x1 ![1] bcast_S1_S1x1_1 (W2 m c (Proc.devRef .tc main_arg4) : FVec Ideal S1 .f32))) : FVec Ideal S8192x1 .f32) := by
  dsimp only [W3, hostOps1]
  after_results

/-- The bias broadcast to a column reads the bias's one entry everywhere. -/
theorem bias_col (x4 : S1.Idx → EReal) (i : S8192x1.Idx) :
    broadcastInDim S8192x1 ![0, 1] bcast_S1x1_S8192x1_0_1 (broadcastInDim S1x1 ![1] bcast_S1_S1x1_1 x4) i = x4 (ix1 0) := by
  rw [broadcastInDim_apply _ bcast_S1x1_S8192x1_0_1 _ i (ix2 0 0) (fun a => by
    match a with
    | ⟨0, _⟩ => show 0 = if (1 : Nat) = 1 then 0 else (i 0).val; rw [if_pos rfl]
    | ⟨1, _⟩ => show 0 = if (1 : Nat) = 1 then 0 else (i 1).val; rw [if_pos rfl])]
  exact broadcastInDim_apply _ bcast_S1_S1x1_1 x4 (ix2 0 0) (ix1 0) (fun a => by
    match a with
    | ⟨0, _⟩ => show 0 = if (1 : Nat) = 1 then 0 else (0 : Nat); rw [if_pos rfl])

/-- The reference's first logit column, entry by entry. -/
theorem RV4_apply (R : Fin 8192) :
    RV4 m c (ix2 R 0) = (∑ J : Fin 8192, entry (S := S8192x8192) (m ((c.tc : Thread nD τ).loc main_arg0)) (ix2 R J) * entry (S := S1x8192) (m ((c.tc : Thread nD τ).loc main_arg3)) (ix2 0 J))
      + entry (S := S1) (m ((c.tc : Thread nD τ).loc main_arg4)) (ix1 0) := by
  show val_main_v4 (F := Ideal) _ _ _ (ix2 R 0) = _
  rw [val_main_v4_apply, val_main_v1_apply, val_main_v3_apply, val_main_v2_apply]
  refine congrArg₂ (· + ·) (Finset.sum_congr rfl fun J _ => ?_) ?_
  · rw [val_main_v0_apply]
    refine congrArg₂ (· * ·) (congrArg _ (funext fun a => Fin.ext (by
      match a with
      | ⟨0, _⟩ => rfl
      | ⟨1, _⟩ => rfl))) (congrArg _ (funext fun a => Fin.ext (by
      match a with
      | ⟨0, _⟩ => rfl
      | ⟨1, _⟩ => rfl)))
  · exact congrArg _ (funext fun a => Fin.ext (by
      match a with
      | ⟨0, _⟩ => rfl))

theorem RV9_apply (R : Fin 8192) :
    RV9 m c (ix2 R 0) = (∑ J : Fin 8192, entry (S := S8192x8192) (m ((c.tc : Thread nD τ).loc main_arg1)) (ix2 R J) * entry (S := S1x8192) (m ((c.tc : Thread nD τ).loc main_arg3)) (ix2 0 J))
      + entry (S := S1) (m ((c.tc : Thread nD τ).loc main_arg4)) (ix1 0) := by
  show val_main_v9 (F := Ideal) _ _ _ (ix2 R 0) = _
  rw [val_main_v9_apply, val_main_v6_apply, val_main_v8_apply, val_main_v7_apply]
  refine congrArg₂ (· + ·) (Finset.sum_congr rfl fun J _ => ?_) ?_
  · rw [val_main_v5_apply]
    refine congrArg₂ (· * ·) (congrArg _ (funext fun a => Fin.ext (by
      match a with
      | ⟨0, _⟩ => rfl
      | ⟨1, _⟩ => rfl))) (congrArg _ (funext fun a => Fin.ext (by
      match a with
      | ⟨0, _⟩ => rfl
      | ⟨1, _⟩ => rfl)))
  · exact congrArg _ (funext fun a => Fin.ext (by
      match a with
      | ⟨0, _⟩ => rfl))

/-- THE LOGITS AGREE: the kernel's two logit columns are the reference's. -/
theorem logits_eq : (W3 m c (Proc.devRef .tc main_v13) : S8192x1.Idx → EReal) = RV4 m c
    ∧ (W3 m c (Proc.devRef .tc main_v17) : S8192x1.Idx → EReal) = RV9 m c := by
  constructor
  · funext i
    obtain ⟨R, z, rfl⟩ : ∃ (R : Fin 8192) (z : Fin 1), i = ix2 R z := ⟨i 0, i 1, eq_ix2 i⟩
    obtain rfl : z = 0 := Subsingleton.elim _ _
    rw [v13_eq, RV4_apply, addf_apply, bias_col, extractStridedSlice_apply ![0, 0] _ slices_S8192x8_S8192x1_0_0 (ix2 R 0) (ix2 R 0) (fun a => by
      match a with
      | ⟨0, _⟩ => show R.val = 0 + R.val; omega
      | ⟨1, _⟩ => show (0 : Nat) = 0 + 0; rfl), W2_arg4]
    exact congrArg₂ (fun a b : EReal => a + b) (raw_col0 m c R) rfl
  · funext i
    obtain ⟨R, z, rfl⟩ : ∃ (R : Fin 8192) (z : Fin 1), i = ix2 R z := ⟨i 0, i 1, eq_ix2 i⟩
    obtain rfl : z = 0 := Subsingleton.elim _ _
    rw [v17_eq, RV9_apply, addf_apply, bias_col, extractStridedSlice_apply ![0, 1] _ slices_S8192x8_S8192x1_0_1 (ix2 R 0) (ix2 R 1) (fun a => by
      match a with
      | ⟨0, _⟩ => show R.val = 0 + R.val; omega
      | ⟨1, _⟩ => show (1 : Nat) = 1 + 0; rfl), W2_arg4]
    exact congrArg₂ (fun a b : EReal => a + b) (raw_col1 m c R) rfl

end Cert.KernelIdeal.Reg

end
-- ==== Proof.KernelIdealStageNz.lean ====
/-
  The softmax weights of each node's two logits, against the reference's. Both programs put the two logit columns side
  by side and apply the same chain of host operations to the pair (row maximum joined with minus infinity, subtraction,
  exponential, row sum, division), so the weights agree as soon as the two columns do, whatever the softmax of two
  columns is.
-/
import proofs.«149819_j58428735095548_2_alg».proof.Proof.KernelIdealStageDefs
import Idealize.ShloMosaic.Lib.StableHlo.Run

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.ValueIdx
open Idealize.ShloMosaic.StableHlo

variable (m : (ℓ : Loc nD τ sig) → Buf (Elt Ideal) ℓ) (c : Dev nD)

/-- The softmax of two columns side by side, as both programs compute it. -/
def smax2 (a b : S8192x1.Idx → EReal) : S8192x2.Idx → EReal :=
  Host.divf (F := Ideal)
    (Host.exp (F := Ideal) (subf (F := Ideal)
      (concatenate S8192x2 1 [⟨S8192x1, a⟩, ⟨S8192x1, b⟩] concatenates_S8192x1_S8192x1_S8192x2_d1)
      (broadcastInDim S8192x2 ![0, 1] bcast_S8192x1_S8192x2_0_1 (broadcastInDim S8192x1 ![0] bcast_S8192_S8192x1_0
        (maximumf (F := Ideal) (broadcastInDim S8192 ![] bcast_S_S8192 (constant (F := Ideal) S_ .f32 0xFF800000#32))
          (Host.reduce (FloatOps.maximumf (F := Ideal)) (concatenate S8192x2 1 [⟨S8192x1, a⟩, ⟨S8192x1, b⟩] concatenates_S8192x1_S8192x1_S8192x2_d1)
            (constant (F := Ideal) S_ .f32 0xFF800000#32) reducesTo_S8192x2_S8192_d1 h_S_))))))
    (broadcastInDim S8192x2 ![0, 1] bcast_S8192x1_S8192x2_0_1 (broadcastInDim S8192x1 ![0] bcast_S8192_S8192x1_0
      (Host.reduceAdd (F := Ideal)
        (Host.exp (F := Ideal) (subf (F := Ideal)
          (concatenate S8192x2 1 [⟨S8192x1, a⟩, ⟨S8192x1, b⟩] concatenates_S8192x1_S8192x1_S8192x2_d1)
          (broadcastInDim S8192x2 ![0, 1] bcast_S8192x1_S8192x2_0_1 (broadcastInDim S8192x1 ![0] bcast_S8192_S8192x1_0
            (maximumf (F := Ideal) (broadcastInDim S8192 ![] bcast_S_S8192 (constant (F := Ideal) S_ .f32 0xFF800000#32))
              (Host.reduce (FloatOps.maximumf (F := Ideal)) (concatenate S8192x2 1 [⟨S8192x1, a⟩, ⟨S8192x1, b⟩] concatenates_S8192x1_S8192x1_S8192x2_d1)
                (constant (F := Ideal) S_ .f32 0xFF800000#32) reducesTo_S8192x2_S8192_d1 h_S_))))))
        (constant (F := Ideal) S_ .f32 0x00000000#32) reducesTo_S8192x2_S8192_d1 h_S_)))

/-- The reference's weights are that softmax of its two logit columns. -/
theorem RV21_eq : RV21 m c = smax2 (RV4 m c) (RV9 m c) := rfl

set_option maxHeartbeats 4000000 in
/-- The kernel program's weights are that softmax of its two logit columns. -/
theorem W3_v29 : (W3 m c main_v29 : S8192x2.Idx → EReal)
    = smax2 (W3 m c (Proc.devRef .tc main_v13) : S8192x1.Idx → EReal) (W3 m c (Proc.devRef .tc main_v17) : S8192x1.Idx → EReal) := by
  dsimp only [W3, hostOps1, smax2]
  after_results

/-- The softmax weights agree once the two logit columns do. -/
theorem stage_nz (h13 : (W3 m c (Proc.devRef .tc main_v13) : S8192x1.Idx → EReal) = RV4 m c)
    (h17 : (W3 m c (Proc.devRef .tc main_v17) : S8192x1.Idx → EReal) = RV9 m c) :
    ∀ (J : Fin 8192) (a : Fin 2), entry (S := S8192x2) (W3 m c main_v29) (ix2 J a) = RV21 m c (ix2 J a) := by
  intro J a
  have e : (W3 m c main_v29 : S8192x2.Idx → EReal) = RV21 m c :=
    (W3_v29 m c).trans ((congrArg₂ smax2 h13 h17).trans (RV21_eq m c).symm)
  exact congrFun e (ix2 J a)

end Cert.KernelIdeal.Reg

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.KernelIdealFinite.lean ====
/-
  The precondition read back: "every float input is finite" is, per argument array, the conjunction over all its
  entries of |v| < +∞, and-ed over the eleven arguments. When the conjunction is true each argument's test is true,
  so every entry of every argument array is a real number.
-/
import proofs.«149819_j58428735095548_2_alg».proof.Defs
import proofs.«149819_j58428735095548_2_alg».proof.Proof.LibFiniteEntry
import proofs.«149819_j58428735095548_2_alg».proof.Proof.LibEntry
import Idealize.ShloMosaic.Lib.Affine

set_option maxRecDepth 16384

noncomputable section

namespace Cert.KernelIdeal.Reg

open Cert.KernelIdeal
open Idealize.ShloMosaic Idealize.ShloMosaic.TcCoe Idealize.SL.Sem
open Idealize.ShloMosaic.ValueIdx

variable (m : (ℓ : Loc nD τ sig) → Buf (Elt Ideal) ℓ)

/-- The eleven tests, each true, out of the precondition's conjunction. -/
theorem pre_tests [hP : Cert.Pre_finite_inputs.Facts] (hpre : Cert.Pre_KernelIdeal m) (c : Dev nD) :
    (∀ i, ∃ r : ℝ, entry (S := S8192x8192) (m ((c.tc : Thread nD τ).loc main_arg0)) i = (r : EReal))
    ∧ (∀ i, ∃ r : ℝ, entry (S := S8192x8192) (m ((c.tc : Thread nD τ).loc main_arg1)) i = (r : EReal))
    ∧ (∀ i, ∃ r : ℝ, entry (S := S8192x512) (m ((c.tc : Thread nD τ).loc main_arg2)) i = (r : EReal))
    ∧ (∀ i, ∃ r : ℝ, entry (S := S1x8192) (m ((c.tc : Thread nD τ).loc main_arg3)) i = (r : EReal))
    ∧ (∀ i, ∃ r : ℝ, entry (S := S1) (m ((c.tc : Thread nD τ).loc main_arg4)) i = (r : EReal))
    ∧ (∀ i, ∃ r : ℝ, entry (S := S512x128) (m ((c.tc : Thread nD τ).loc main_arg5)) i = (r : EReal))
    ∧ (∀ i, ∃ r : ℝ, entry (S := S128) (m ((c.tc : Thread nD τ).loc main_arg6)) i = (r : EReal))
    ∧ (∀ i, ∃ r : ℝ, entry (S := S128x128) (m ((c.tc : Thread nD τ).loc main_arg7)) i = (r : EReal))
    ∧ (∀ i, ∃ r : ℝ, entry (S := S128) (m ((c.tc : Thread nD τ).loc main_arg8)) i = (r : EReal))
    ∧ (∀ i, ∃ r : ℝ, entry (S := S128x16) (m ((c.tc : Thread nD τ).loc main_arg9)) i = (r : EReal))
    ∧ (∀ i, ∃ r : ℝ, entry (S := S16) (m ((c.tc : Thread nD τ).loc main_arg10)) i = (r : EReal)) := by
  have h := congrFun (hpre c) ix0
  unfold Cert.Pre_finite_inputs.fn Cert.Pre_finite_inputs.fn_part1 Cert.Pre_finite_inputs.fn_part2 Cert.Pre_finite_inputs.fn_part3 at h
  simp only [andi, IntOp.andi_eq_one] at h
  obtain ⟨⟨⟨⟨⟨⟨⟨⟨⟨⟨h0, h1⟩, h2⟩, h3⟩, h4⟩, h5⟩, h6⟩, h7⟩, h8⟩, h9⟩, h10⟩ := h
  exact ⟨fun i => Cert.Lib.FiniteEntry.all_real _ _ _ _ _ h0 i, fun i => Cert.Lib.FiniteEntry.all_real _ _ _ _ _ h1 i,
    fun i => Cert.Lib.FiniteEntry.all_real _ _ _ _ _ h2 i, fun i => Cert.Lib.FiniteEntry.all_real _ _ _ _ _ h3 i,
    fun i => Cert.Lib.FiniteEntry.all_real _ _ _ _ _ h4 i, fun i => Cert.Lib.FiniteEntry.all_real _ _ _ _ _ h5 i,
    fun i => Cert.Lib.FiniteEntry.all_real _ _ _ _ _ h6 i, fun i => Cert.Lib.FiniteEntry.all_real _ _ _ _ _ h7 i,
    fun i => Cert.Lib.FiniteEntry.all_real _ _ _ _ _ h8 i, fun i => Cert.Lib.FiniteEntry.all_real _ _ _ _ _ h9 i,
    fun i => Cert.Lib.FiniteEntry.all_real _ _ _ _ _ h10 i⟩

/-- Every entry of the first six argument arrays is a real number. -/
theorem pre_real [hP : Cert.Pre_finite_inputs.Facts] (hpre : Cert.Pre_KernelIdeal m) (c : Dev nD) :
    (∀ i, ∃ r : ℝ, entry (S := S8192x8192) (m ((c.tc : Thread nD τ).loc main_arg0)) i = (r : EReal))
    ∧ (∀ i, ∃ r : ℝ, entry (S := S8192x8192) (m ((c.tc : Thread nD τ).loc main_arg1)) i = (r : EReal))
    ∧ (∀ i, ∃ r : ℝ, entry (S := S8192x512) (m ((c.tc : Thread nD τ).loc main_arg2)) i = (r : EReal))
    ∧ (∀ i, ∃ r : ℝ, entry (S := S1x8192) (m ((c.tc : Thread nD τ).loc main_arg3)) i = (r : EReal))
    ∧ (∀ i, ∃ r : ℝ, entry (S := S1) (m ((c.tc : Thread nD τ).loc main_arg4)) i = (r : EReal))
    ∧ (∀ i, ∃ r : ℝ, entry (S := S512x128) (m ((c.tc : Thread nD τ).loc main_arg5)) i = (r : EReal)) :=
  have h := pre_tests m hpre c
  ⟨h.1, h.2.1, h.2.2.1, h.2.2.2.1, h.2.2.2.2.1, h.2.2.2.2.2.1⟩

end Cert.KernelIdeal.Reg

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.KernelIdealNzReal.lean ====
/-
  The softmax weights of real logits are real numbers. Each logit is a finite sum of products of real numbers plus a
  real number; the larger of two real numbers, joined with −∞, is a real number; a real number minus a real number is
  one; the exponential of a real number is a positive real number; 0 plus the sum of two positive real numbers is a
  positive real number; and the quotient of a real number by a nonzero real number is a real number.
-/
import proofs.«149819_j58428735095548_2_alg».proof.Proof.KernelIdealStageDefs
import proofs.«149819_j58428735095548_2_alg».proof.Proof.LibRealSum
import Idealize.ShloMosaic.PureOps.Ideal.Laws
import Idealize.ShloMosaic.PureOps.Reduce
import Idealize.ShloMosaic.Lib.Pipeline.Value

set_option maxRecDepth 16384

noncomputable section

namespace Cert.ReferenceIdeal.NzReal

open Cert.ReferenceIdeal Cert.ReferenceIdeal.Gen Cert.ReferenceIdeal.ReadP
open Idealize.ShloMosaic Idealize.ShloMosaic.ValueIdx
open scoped BigOperators

/-- An extended real that is a real number. -/
def IsReal (x : EReal) : Prop := ∃ r : ℝ, x = (r : EReal)
/-- An extended real that is a positive real number. -/
def IsPos (x : EReal) : Prop := ∃ r : ℝ, 0 < r ∧ x = (r : EReal)

theorem real_add {x y : EReal} (hx : IsReal x) (hy : IsReal y) : IsReal (x + y) := by
  obtain ⟨a, rfl⟩ := hx; obtain ⟨b, rfl⟩ := hy; exact ⟨a + b, (EReal.coe_add a b).symm⟩
theorem real_mul {x y : EReal} (hx : IsReal x) (hy : IsReal y) : IsReal (x * y) := by
  obtain ⟨a, rfl⟩ := hx; obtain ⟨b, rfl⟩ := hy; exact ⟨a * b, (EReal.coe_mul a b).symm⟩
theorem real_sub {x y : EReal} (hx : IsReal x) (hy : IsReal y) : IsReal (x - y) := by
  obtain ⟨a, rfl⟩ := hx; obtain ⟨b, rfl⟩ := hy; exact ⟨a - b, (EReal.coe_sub a b).symm⟩
theorem real_max {x y : EReal} (hx : IsReal x) (hy : IsReal y) : IsReal (max x y) := by
  rcases le_total x y with h | h
  · rw [max_eq_right h]; exact hy
  · rw [max_eq_left h]; exact hx
theorem real_sum {ι : Type} (s : Finset ι) (f : ι → EReal) (hf : ∀ k, IsReal (f k)) : IsReal (∑ k ∈ s, f k) := by
  choose g hg using hf
  exact ⟨∑ k ∈ s, g k, by rw [← Cert.Lib.RealSum.coe_sum]; exact Finset.sum_congr rfl fun k _ => hg k⟩

/-- The word of −∞. -/
theorem neg_inf_eq : Ideal.ofBits .f32 0xFF800000#32 = ⊥ := by simp [Ideal.ofBits, Ideal.ieee]

/-- The larger-of fold from −∞ over a nonempty family of real numbers is a real number. -/
theorem fold_max_real {ι : Type} (s : Finset ι) (g : ι → EReal) (hg : ∀ k, IsReal (g k)) (hs : s.Nonempty) :
    IsReal (s.fold (FloatOps.maximumf (F := Ideal) (φ := .f32)) ⊥ g) := by
  classical
  induction s using Finset.induction_on with
  | empty => exact absurd hs (by simp)
  | insert a s ha ih =>
    rw [Finset.fold_insert ha]
    show IsReal (max (g a) _)
    rcases s.eq_empty_or_nonempty with rfl | hne
    · rw [Finset.fold_empty, max_eq_left bot_le]; exact hg a
    · exact real_max (hg a) (ih hne)

variable (x0 x1 : S8192x8192.Idx → EReal) (x3 : S1x8192.Idx → EReal) (x4 : S1.Idx → EReal)
variable (h0 : ∀ i, IsReal (x0 i)) (h1 : ∀ i, IsReal (x1 i)) (h3 : ∀ i, IsReal (x3 i)) (h4 : ∀ i, IsReal (x4 i))

include h0 h3 h4 in
/-- The first logit column. -/
theorem v4_real (i : S8192x1.Idx) : IsReal (val_main_v4 (F := Ideal) x0 x3 x4 i) := by
  rw [val_main_v4_apply, val_main_v1_apply, val_main_v3_apply, val_main_v2_apply]
  refine real_add (real_sum _ _ fun k => real_mul (h0 _) ?_) (h4 _)
  rw [val_main_v0_apply]; exact h3 _

include h1 h3 h4 in
/-- The second logit column. -/
theorem v9_real (i : S8192x1.Idx) : IsReal (val_main_v9 (F := Ideal) x1 x3 x4 i) := by
  rw [val_main_v9_apply, val_main_v6_apply, val_main_v8_apply, val_main_v7_apply]
  refine real_add (real_sum _ _ fun k => real_mul (h1 _) ?_) (h4 _)
  rw [val_main_v5_apply]; exact h3 _

/-- A row of the two-column array, as an index of a one-column one. -/
abbrev colIdx (i : S8192x2.Idx) : S8192x1.Idx := fun a => match a with
  | ⟨0, _⟩ => ⟨(i 0).val, (i 0).isLt⟩
  | ⟨1, _⟩ => ⟨0, Nat.one_pos⟩

include h0 h1 h3 h4 in
/-- The two logit columns side by side. -/
theorem v10_real (i : S8192x2.Idx) : IsReal (val_main_v10 (F := Ideal) x0 x1 x3 x4 i) := by
  unfold val_main_v10
  have hi1 : (i 1).val < 2 := (i 1).isLt
  by_cases h : (i 1).val = 0
  · rw [concatenate_pair_apply_left (1 : Fin S8192x2.rank) _ _ concatenates_S8192x1_S8192x1_S8192x2_d1 i rfl (colIdx i) (fun b => by
      match b with
      | ⟨0, _⟩ => rfl
      | ⟨1, _⟩ => exact h.symm)]
    exact v4_real x0 x3 x4 h0 h3 h4 _
  · rw [concatenate_pair_apply_right (1 : Fin S8192x2.rank) _ _ concatenates_S8192x1_S8192x1_S8192x2_d1 i rfl rfl (colIdx i) (fun b hb => by
      match b with
      | ⟨0, _⟩ => rfl
      | ⟨1, _⟩ => exact absurd rfl hb) (by show 0 + 1 = (i 1).val; omega)]
    exact v9_real x1 x3 x4 h1 h3 h4 _

include h0 h1 h3 h4 in
/-- The row maximum. -/
theorem v13_real (i : S8192.Idx) : IsReal (val_main_v13 (F := Ideal) x0 x1 x3 x4 i) := by
  rw [val_main_v13_apply, val_main_v12_apply, val_main_cst_0_apply]
  show IsReal (max (Ideal.ofBits .f32 0xFF800000#32) _)
  rw [neg_inf_eq, max_eq_right bot_le]
  unfold val_main_v11
  rw [Host.reduce_eq_fold_single (FloatOps.maximumf (F := Ideal) (φ := .f32)) _ _ reducesTo_S8192x2_S8192_d1 (by decide) h_S_ i,
    val_main_cst_apply]
  show IsReal (Finset.fold _ (Ideal.ofBits .f32 0xFF800000#32) _ _)
  rw [neg_inf_eq]
  exact fold_max_real _ _ (fun k => v10_real x0 x1 x3 x4 h0 h1 h3 h4 _) ⟨⟨0, by decide⟩, Finset.mem_univ _⟩

include h0 h1 h3 h4 in
/-- Each shifted logit's exponential is a positive real number. -/
theorem v17_pos (i : S8192x2.Idx) : IsPos (val_main_v17 (F := Ideal) x0 x1 x3 x4 i) := by
  rw [val_main_v17_apply, val_main_v16_apply, val_main_v15_apply, val_main_v14_apply]
  obtain ⟨r, hr⟩ := real_sub (v10_real x0 x1 x3 x4 h0 h1 h3 h4 i) (v13_real x0 x1 x3 x4 h0 h1 h3 h4 (idx_main_v14 (idx_main_v15 i)))
  show IsPos (Ideal.exp (_ - _))
  rw [hr]
  exact ⟨Real.exp r, Real.exp_pos r, rfl⟩

include h0 h1 h3 h4 in
/-- The row's sum of exponentials is a positive real number. -/
theorem v18_pos (i : S8192.Idx) : IsPos (val_main_v18 (F := Ideal) x0 x1 x3 x4 i) := by
  rw [val_main_v18_apply, val_main_cst_1_apply]
  show IsPos (Ideal.ofBits .f32 0x00000000#32 + _)
  rw [Ideal.ofBits_zero_f32, zero_add, Fin.sum_univ_two]
  obtain ⟨a, ha, hea⟩ := v17_pos x0 x1 x3 x4 h0 h1 h3 h4 (idx_main_v18 i 0)
  obtain ⟨b, hb, heb⟩ := v17_pos x0 x1 x3 x4 h0 h1 h3 h4 (idx_main_v18 i 1)
  rw [hea, heb]
  exact ⟨a + b, add_pos ha hb, (EReal.coe_add a b).symm⟩

include h0 h1 h3 h4 in
/-- The softmax weights are real numbers. -/
theorem v21_real (i : S8192x2.Idx) : IsReal (val_main_v21 (F := Ideal) x0 x1 x3 x4 i) := by
  rw [val_main_v21_apply, val_main_v20_apply, val_main_v19_apply]
  obtain ⟨a, ha, hea⟩ := v17_pos x0 x1 x3 x4 h0 h1 h3 h4 i
  obtain ⟨b, hb, heb⟩ := v18_pos x0 x1 x3 x4 h0 h1 h3 h4 (idx_main_v19 (idx_main_v20 i))
  show IsReal (Ideal.div _ _)
  rw [hea, heb, Ideal.div_coe (ne_of_gt hb)]
  exact ⟨a * (1 / b), (EReal.coe_mul a (1 / b)).symm⟩

end Cert.ReferenceIdeal.NzReal

namespace Cert.KernelIdeal.Reg

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The reference's softmax weights of real inputs are real numbers. -/
theorem nz_real
    (hx0 : ∀ i, ∃ r : ℝ, entry (S := S8192x8192) (m ((c.tc : Thread nD τ).loc main_arg0)) i = (r : EReal))
    (hx1 : ∀ i, ∃ r : ℝ, entry (S := S8192x8192) (m ((c.tc : Thread nD τ).loc main_arg1)) i = (r : EReal))
    (hx3 : ∀ i, ∃ r : ℝ, entry (S := S1x8192) (m ((c.tc : Thread nD τ).loc main_arg3)) i = (r : EReal))
    (hx4 : ∀ i, ∃ r : ℝ, entry (S := S1) (m ((c.tc : Thread nD τ).loc main_arg4)) i = (r : EReal)) :
    ∀ (J : Fin 8192) (a : Fin 2), ∃ r : ℝ, RV21 m c (ix2 J a) = (r : EReal) :=
  fun J a => Cert.ReferenceIdeal.NzReal.v21_real _ _ _ _ hx0 hx1 hx3 hx4 (ix2 J a)

end Cert.KernelIdeal.Reg

end
-- ==== Proof.KernelIdealV1.lean ====
/-
  Region 1, what each control case leaves as a VALUE, at any float instance. The accumulator after a point is the second
  product's payload over the first product's payload over what the accumulator held (the zero block at a first column
  block); the combined adjacency tile is the sum of the two scaled adjacency blocks, whatever the case; at a last column
  block the layer's output block is the bias-and-rectifier payload of that accumulator. Each buffer's
  final contents are described by the list of whole-buffer stores made to it: the last store of the list is what the
  buffer holds, and a load after a whole-buffer store reads that store's payload.
-/
import proofs.«149819_j58428735095548_2_alg».proof.Proof.KernelIdealR1
import proofs.«149819_j58428735095548_2_alg».proof.Proof.LibReadBack

set_option maxRecDepth 16384

noncomputable section

namespace Cert.KernelIdeal.Reg

open Cert.KernelIdeal Cert.KernelIdeal.Gen
open Idealize.ShloMosaic Idealize.ShloMosaic.TcCoe Idealize.ShloMosaic.Tactic Idealize.SL.Sem

variable {F : FTy → Type} [FloatOps F]

theorem hz2_1 : (![0, 0] : Fin 2 → Nat) = fun _ => 0 := funext fun a => by fin_cases a <;> rfl

/-- One column block's step on the accumulator: both products added, the first operand pair first. -/
def step1 (x0 x1 : Vec F S1024x1024 .f32) (x2 x3 : Vec F S1024x128 .bf16) (acc : Vec F S1024x128 .f32) : Vec F S1024x128 .f32 :=
  k1_pay5 x1 (k1_pay4 x0 acc x2) x3

/-- The combined adjacency tile of a point: the two adjacency blocks, each scaled by its row of weights, added and narrowed. -/
def adj1 (x0 x1 : Vec F S1024x1024 .f32) (x4 x5 : Vec F S1x1024 .f32) : Vec F S1024x1024 .bf16 :=
  k1_pay1 (k1_pay6 x0 x4) (k1_pay7 x1 x5)

theorem sout1_A_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) :
    sout1_A c i arg2 harg2 arg3 harg3 arg4 harg4 arg5 harg5 arg6 harg6 arg7 harg7 arg8 harg8 arg9 harg9 arg10 harg10 arg11 harg11 hc0 hc1 x0 x1 x2 x3 x4 x5 x6 = step1 x0 x1 x2 x3 k1_pay3 := by
  unfold sout1_A
  rw [View.read_writes_eq_canon _ _ _ (scover1_A c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S1024x128) hz2_1, View.readCov_cons_unit_zero (S := S1024x128) _ hz2_1, View.readCov_unit_zero (S := S1024x128) _ hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

theorem sout1_B_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    sout1_B c i arg2 harg2 arg3 harg3 arg4 harg4 arg5 harg5 arg6 harg6 arg7 harg7 arg8 harg8 arg9 harg9 arg10 harg10 arg11 harg11 hc0 hc1 x0 x1 x2 x3 x4 x5 x6 xs0 = step1 x0 x1 x2 x3 xs0 := by
  unfold sout1_B
  rw [View.read_writes_eq_canon _ _ _ (scover1_B c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_B
  dsimp only
  sl_unfold_words
  rw [View.canon_cons_unit_zero (S := S1024x128) hz2_1, View.readCov_unit_zero (S := S1024x128) _ hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

theorem sout1_C_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    sout1_C c i arg2 harg2 arg3 harg3 arg4 harg4 arg5 harg5 arg6 harg6 arg7 harg7 arg8 harg8 arg9 harg9 arg10 harg10 arg11 harg11 hc0 hc1 x0 x1 x2 x3 x4 x5 x6 xs0 = step1 x0 x1 x2 x3 xs0 := by
  unfold sout1_C
  rw [View.read_writes_eq_canon _ _ _ (scover1_C c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_cons_unit_zero (S := S1024x128) hz2_1, View.readCov_unit_zero (S := S1024x128) _ hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

theorem out1_8_A_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) :
    out1_8_A c i arg2 harg2 arg3 harg3 arg4 harg4 arg5 harg5 arg6 harg6 arg7 harg7 arg8 harg8 arg9 harg9 arg10 harg10 arg11 harg11 hc0 hc1 x0 x1 x2 x3 x4 x5 x6 = adj1 x0 x1 x4 x5 := by
  unfold out1_8_A
  rw [View.read_writes_eq_canon _ _ _ (cover1_8_A c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_unit_zero (S := S1024x1024) hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

theorem out1_8_B_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : ¬cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    out1_8_B c i arg2 harg2 arg3 harg3 arg4 harg4 arg5 harg5 arg6 harg6 arg7 harg7 arg8 harg8 arg9 harg9 arg10 harg10 arg11 harg11 hc0 hc1 x0 x1 x2 x3 x4 x5 x6 xs0 = adj1 x0 x1 x4 x5 := by
  unfold out1_8_B
  rw [View.read_writes_eq_canon _ _ _ (cover1_8_B c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_B
  dsimp only
  sl_unfold_words
  rw [View.canon_unit_zero (S := S1024x1024) hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

theorem out1_8_C_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    out1_8_C c i arg2 harg2 arg3 harg3 arg4 harg4 arg5 harg5 arg6 harg6 arg7 harg7 arg8 harg8 arg9 harg9 arg10 harg10 arg11 harg11 hc0 hc1 x0 x1 x2 x3 x4 x5 x6 xs0 = adj1 x0 x1 x4 x5 := by
  unfold out1_8_C
  rw [View.read_writes_eq_canon _ _ _ (cover1_8_C c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero (S := S1024x1024) hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

theorem out1_7_C_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x1024 .bf16) (harg10 : arg10.IsWhole) (arg11 : Memref sig .tc .vmem S1024x128 .f32) (harg11 : arg11.IsWhole) (hc0 : ¬cond1_0 i) (hc1 : cond1_1 i) (x0 : Vec F S1024x1024 .f32) (x1 : Vec F S1024x1024 .f32) (x2 : Vec F S1024x128 .bf16) (x3 : Vec F S1024x128 .bf16) (x4 : Vec F S1x1024 .f32) (x5 : Vec F S1x1024 .f32) (x6 : Vec F S1x128 .f32) (xs0 : Vec F S1024x128 .f32) :
    out1_7_C c i arg2 harg2 arg3 harg3 arg4 harg4 arg5 harg5 arg6 harg6 arg7 harg7 arg8 harg8 arg9 harg9 arg10 harg10 arg11 harg11 hc0 hc1 x0 x1 x2 x3 x4 x5 x6 xs0 = k1_pay2 (step1 x0 x1 x2 x3 xs0) x6 := by
  unfold out1_7_C
  rw [View.read_writes_eq_canon _ _ _ (cover1_7_C c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero (S := S1024x128) hz2_1, View.readCov_cons_unit_zero (S := S1024x128) _ hz2_1, View.readCov_unit_zero (S := S1024x128) _ hz2_1]
  simp only [View.readAt_eq_ld, harg2.read_unread, harg3.read_unread, harg4.read_unread, harg5.read_unread, harg6.read_unread, harg7.read_unread, harg8.read_unread, harg11.read_unread,
    View.ld_unit_zero (S := S1024x128) hz2_1, View.ld_unit_zero (S := S1024x1024) hz2_1, View.ld_unit_zero (S := S1x1024) hz2_1, View.ld_unit_zero (S := S1x128) hz2_1]
  rfl

end Cert.KernelIdeal.Reg

end
-- ==== Proof.KernelIdealV1P.lean ====
/-
  Region 1 at the ideal instance, entry by entry: what each payload of the body computes at an index (a product block is
  a plain sum over the block's 1024 columns, on the extended reals; narrowing and widening change nothing there), and
  what each window's block reads of its array, written at natural coordinates so that "block × 1024 + offset" is plain
  arithmetic (the point's row block is t / 8, its column block t % 8).
-/
import proofs.«149819_j58428735095548_2_alg».proof.Proof.KernelIdealV1
import proofs.«149819_j58428735095548_2_alg».proof.Proof.LibMatmulRows
import proofs.«149819_j58428735095548_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.BlockSum
open scoped BigOperators

/-! ## The payloads, entry by entry -/

abbrev dA1 := dot_S1024x1024_S1024x128_S1024x128_1_0_0_1_n_n

theorem dA1_hl0 (i : S1024x128.Idx) (q : dA1.contr.Idx) : (dA1.lhsIdx i q 0).val = (i 0).val := by
  unfold DotDims.lhsIdx
  rw [dif_neg (show ¬(0 : Fin S1024x1024.rank) ∈ dA1.lhsBatch by decide), dif_pos (show (0 : Fin S1024x1024.rank) ∈ dA1.lhsNonContracting by decide)]
  rfl
theorem dA1_hr1 (i : S1024x128.Idx) (q : dA1.contr.Idx) : (dA1.rhsIdx i q 1).val = (i 1).val := by
  unfold DotDims.rhsIdx
  rw [dif_neg (show ¬(1 : Fin S1024x128.rank) ∈ dA1.rhsBatch by decide), dif_pos (show (1 : Fin S1024x128.rank) ∈ dA1.rhsNonContracting by decide)]
  rfl

/-- The reset stores zeros. -/
theorem pay3_1_apply (i : S1024x128.Idx) : k1_pay3 (F := Ideal) i = 0 := by
  unfold k1_pay3
  simp only [shapeCast_self]
  exact Ideal.ofBits_zero_f32

/-- The first product added into the accumulator (narrowing the adjacency block changes nothing on the extended reals). -/
theorem pay4_1_apply (x0 : Vec Ideal S1024x1024 .f32) (acc : Vec Ideal S1024x128 .f32) (x2 : Vec Ideal S1024x128 .bf16) (r : Fin 1024) (q : Fin 128) :
    k1_pay4 (F := Ideal) x0 acc x2 (ix2 r q) = acc (ix2 r q) + ∑ j : Fin 1024, x0 (ix2 r j) * x2 (ix2 j q) := by
  unfold k1_pay4
  simp only [shapeCast_self]
  exact congrArg (fun z => acc (ix2 r q) + z) (MatmulRows.matmul_zero_apply dA1 none rfl rfl rfl rfl dA1_hl0 dA1_hr1 (truncf .bf16 x0 bitsLt_bf16_f32) x2 (ix2 r q))

/-- The second product added into the accumulator. -/
theorem pay5_1_apply (x1 : Vec Ideal S1024x1024 .f32) (acc : Vec Ideal S1024x128 .f32) (x3 : Vec Ideal S1024x128 .bf16) (r : Fin 1024) (q : Fin 128) :
    k1_pay5 (F := Ideal) x1 acc x3 (ix2 r q) = acc (ix2 r q) + ∑ j : Fin 1024, x1 (ix2 r j) * x3 (ix2 j q) := by
  unfold k1_pay5
  simp only [shapeCast_self]
  exact congrArg (fun z => acc (ix2 r q) + z) (MatmulRows.matmul_zero_apply dA1 none rfl rfl rfl rfl dA1_hl0 dA1_hr1 (truncf .bf16 x1 bitsLt_bf16_f32) x3 (ix2 r q))

theorem step1_apply (x0 x1 : Vec Ideal S1024x1024 .f32) (x2 x3 : Vec Ideal S1024x128 .bf16) (acc : Vec Ideal S1024x128 .f32) (r : Fin 1024) (q : Fin 128) :
    step1 (F := Ideal) x0 x1 x2 x3 acc (ix2 r q)
      = (acc (ix2 r q) + ∑ j : Fin 1024, x0 (ix2 r j) * x2 (ix2 j q)) + ∑ j : Fin 1024, x1 (ix2 r j) * x3 (ix2 j q) := by
  unfold step1
  rw [pay5_1_apply, pay4_1_apply]

/-- A row of 1024 weights spread over the 1024 rows of a tile reads, at (r, j), the weight j. -/
theorem bcast_row_apply (x : Vec Ideal S1x1024 .f32) (r j : Fin 1024) :
    broadcastTo S1024x1024 x broadcasts_S1x1024_S1024x1024 (ix2 r j) = x (ix2 0 j) :=
  broadcastTo_apply x broadcasts_S1x1024_S1024x1024 (ix2 r j) (ix2 0 j) (fun a => by fin_cases a <;> rfl)

/-- The bias row spread over the 1024 rows of a block reads, at (r, q), the bias q. -/
theorem bcast_bias_apply (x : Vec Ideal S1x128 .f32) (r : Fin 1024) (q : Fin 128) :
    broadcastTo S1024x128 x broadcasts_S1x128_S1024x128 (ix2 r q) = x (ix2 0 q) :=
  broadcastTo_apply x broadcasts_S1x128_S1024x128 (ix2 r q) (ix2 0 q) (fun a => by fin_cases a <;> rfl)

/-- An adjacency block scaled by its row of weights. -/
theorem pay6_1_apply (x0 : Vec Ideal S1024x1024 .f32) (x4 : Vec Ideal S1x1024 .f32) (r j : Fin 1024) :
    k1_pay6 (F := Ideal) x0 x4 (ix2 r j) = x4 (ix2 0 j) * x0 (ix2 r j) := by
  unfold k1_pay6
  simp only [shapeCast_self]
  exact congrArg (fun z => z * x0 (ix2 r j)) (bcast_row_apply x4 r j)

theorem pay7_1_apply (x1 : Vec Ideal S1024x1024 .f32) (x5 : Vec Ideal S1x1024 .f32) (r j : Fin 1024) :
    k1_pay7 (F := Ideal) x1 x5 (ix2 r j) = x5 (ix2 0 j) * x1 (ix2 r j) := by
  unfold k1_pay7
  simp only [shapeCast_self]
  exact congrArg (fun z => z * x1 (ix2 r j)) (bcast_row_apply x5 r j)

/-- The combined adjacency tile, entry by entry (narrowing changes nothing on the extended reals). -/
theorem adj1_apply (x0 x1 : Vec Ideal S1024x1024 .f32) (x4 x5 : Vec Ideal S1x1024 .f32) (r j : Fin 1024) :
    (adj1 (F := Ideal) x0 x1 x4 x5 : S1024x1024.Idx → EReal) (ix2 r j) = x4 (ix2 0 j) * x0 (ix2 r j) + x5 (ix2 0 j) * x1 (ix2 r j) := by
  unfold adj1 k1_pay1
  show k1_pay6 (F := Ideal) x0 x4 (ix2 r j) + k1_pay7 (F := Ideal) x1 x5 (ix2 r j) = _
  rw [pay6_1_apply, pay7_1_apply]

/-- The layer's output block from the accumulator: the bias added, then the larger of that and 0. -/
theorem pay2_1_apply (acc : Vec Ideal S1024x128 .f32) (x6 : Vec Ideal S1x128 .f32) (r : Fin 1024) (q : Fin 128) :
    k1_pay2 (F := Ideal) acc x6 (ix2 r q) = max (acc (ix2 r q) + x6 (ix2 0 q)) 0 := by
  unfold k1_pay2
  simp only [shapeCast_self]
  show max (acc (ix2 r q) + broadcastTo S1024x128 x6 broadcasts_S1x128_S1024x128 (ix2 r q)) (Ideal.ofBits .f32 0x00000000#32) = _
  rw [bcast_bias_apply, Ideal.ofBits_zero_f32]

/-! ## The windows' blocks, read at natural coordinates of their arrays -/

variable (V : (c : Dev nD) → (b : Ref sig .tc) → Buf (Elt Ideal) ((c : Thread nD τ).loc b))

/-- Where the windows' blocks sit: the point's row block is t / 8, its column block t % 8. -/
theorem idx1 : ∀ t : Fin cfg1.N, win1_0.index t 0 = t.val / 8 ∧ win1_0.index t 1 = t.val % 8
    ∧ win1_1.index t 0 = t.val / 8 ∧ win1_1.index t 1 = t.val % 8
    ∧ win1_2.index t 0 = t.val % 8 ∧ win1_2.index t 1 = 0
    ∧ win1_3.index t 0 = t.val % 8 ∧ win1_3.index t 1 = 0
    ∧ win1_4.index t 0 = 0 ∧ win1_4.index t 1 = t.val % 8
    ∧ win1_5.index t 0 = 0 ∧ win1_5.index t 1 = t.val % 8
    ∧ win1_6.index t 0 = 0 ∧ win1_6.index t 1 = 0
    ∧ win1_7.index t 0 = t.val / 8 ∧ win1_7.index t 1 = 0
    ∧ win1_8.index t 0 = t.val / 8 ∧ win1_8.index t 1 = t.val % 8 :=
  (by decide +kernel : ∀ t : Fin grid1.N, _)

theorem iblk1_0_apply (c : Dev nD) (t : Fin cfg1.N) (r j : Fin 1024) :
    (iblk1 V c 0 t : S1024x1024.Idx → EReal) (ix2 r j)
      = at2 (V c main_arg0 : S8192x8192.Idx → EReal) (1024 * (t.val / 8) + r.val) (1024 * (t.val % 8) + j.val) := by
  unfold iblk1
  rw [View.read_apply]
  refine (at2_val (V c main_arg0 : S8192x8192.Idx → EReal) (((cfg1.win 0).blk t).view.emb (ix2 r j))).symm.trans ?_
  congr 1
  · show win1_0.index t 0 * 1024 + 1 * r.val = _
    rw [(idx1 t).1]; omega
  · show win1_0.index t 1 * 1024 + 1 * j.val = _
    rw [(idx1 t).2.1]; omega

theorem iblk1_1_apply (c : Dev nD) (t : Fin cfg1.N) (r j : Fin 1024) :
    (iblk1 V c 1 t : S1024x1024.Idx → EReal) (ix2 r j)
      = at2 (V c main_arg1 : S8192x8192.Idx → EReal) (1024 * (t.val / 8) + r.val) (1024 * (t.val % 8) + j.val) := by
  unfold iblk1
  rw [View.read_apply]
  refine (at2_val (V c main_arg1 : S8192x8192.Idx → EReal) (((cfg1.win 1).blk t).view.emb (ix2 r j))).symm.trans ?_
  congr 1
  · show win1_1.index t 0 * 1024 + 1 * r.val = _
    rw [(idx1 t).2.2.1]; omega
  · show win1_1.index t 1 * 1024 + 1 * j.val = _
    rw [(idx1 t).2.2.2.1]; omega

theorem iblk1_2_apply (c : Dev nD) (t : Fin cfg1.N) (j : Fin 1024) (q : Fin 128) :
    (iblk1 V c 2 t : S1024x128.Idx → EReal) (ix2 j q)
      = at2 (V c main_v37 : S8192x128.Idx → EReal) (1024 * (t.val % 8) + j.val) q.val := by
  unfold iblk1
  rw [View.read_apply]
  refine (at2_val (V c main_v37 : S8192x128.Idx → EReal) (((cfg1.win 2).blk t).view.emb (ix2 j q))).symm.trans ?_
  congr 1
  · show win1_2.index t 0 * 1024 + 1 * j.val = _
    rw [(idx1 t).2.2.2.2.1]; omega
  · show win1_2.index t 1 * 128 + 1 * q.val = _
    rw [(idx1 t).2.2.2.2.2.1]; omega

theorem iblk1_3_apply (c : Dev nD) (t : Fin cfg1.N) (j : Fin 1024) (q : Fin 128) :
    (iblk1 V c 3 t : S1024x128.Idx → EReal) (ix2 j q)
      = at2 (V c main_v40 : S8192x128.Idx → EReal) (1024 * (t.val % 8) + j.val) q.val := by
  unfold iblk1
  rw [View.read_apply]
  refine (at2_val (V c main_v40 : S8192x128.Idx → EReal) (((cfg1.win 3).blk t).view.emb (ix2 j q))).symm.trans ?_
  congr 1
  · show win1_3.index t 0 * 1024 + 1 * j.val = _
    rw [(idx1 t).2.2.2.2.2.2.1]; omega
  · show win1_3.index t 1 * 128 + 1 * q.val = _
    rw [(idx1 t).2.2.2.2.2.2.2.1]; omega

theorem iblk1_4_apply (c : Dev nD) (t : Fin cfg1.N) (j : Fin 1024) :
    (iblk1 V c 4 t : S1x1024.Idx → EReal) (ix2 0 j)
      = at2 (V c main_v32 : S1x8192.Idx → EReal) 0 (1024 * (t.val % 8) + j.val) := by
  unfold iblk1
  rw [View.read_apply]
  refine (at2_val (V c main_v32 : S1x8192.Idx → EReal) (((cfg1.win 4).blk t).view.emb (ix2 0 j))).symm.trans ?_
  congr 1
  show win1_4.index t 1 * 1024 + 1 * j.val = _
  rw [(idx1 t).2.2.2.2.2.2.2.2.2.1]; omega

theorem iblk1_5_apply (c : Dev nD) (t : Fin cfg1.N) (j : Fin 1024) :
    (iblk1 V c 5 t : S1x1024.Idx → EReal) (ix2 0 j)
      = at2 (V c main_v33 : S1x8192.Idx → EReal) 0 (1024 * (t.val % 8) + j.val) := by
  unfold iblk1
  rw [View.read_apply]
  refine (at2_val (V c main_v33 : S1x8192.Idx → EReal) (((cfg1.win 5).blk t).view.emb (ix2 0 j))).symm.trans ?_
  congr 1
  show win1_5.index t 1 * 1024 + 1 * j.val = _
  rw [(idx1 t).2.2.2.2.2.2.2.2.2.2.2.1]; omega

theorem iblk1_6_apply (c : Dev nD) (t : Fin cfg1.N) (q : Fin 128) :
    (iblk1 V c 6 t : S1x128.Idx → EReal) (ix2 0 q)
      = at2 (V c main_v41 : S1x128.Idx → EReal) 0 q.val := by
  unfold iblk1
  rw [View.read_apply]
  refine (at2_val (V c main_v41 : S1x128.Idx → EReal) (((cfg1.win 6).blk t).view.emb (ix2 0 q))).symm.trans ?_
  congr 1
  show win1_6.index t 1 * 128 + 1 * q.val = _
  rw [(idx1 t).2.2.2.2.2.2.2.2.2.2.2.2.2.1]; omega

end Cert.KernelIdeal.Reg

end
-- ==== Proof.KernelIdealV1I.lean ====
/-
  Region 1 at the ideal instance, as values. One column block's step on the accumulator adds, entry by entry, the two
  products of the block (each a plain sum over the block's 1024 columns, on the extended reals); so after the point of
  column block k the accumulator holds the sum over the blocks 0..k — written with the arrays read at natural
  coordinates, so that "block × 1024 + offset" is plain arithmetic. The layer's output array, whose row block i is
  written back once, after column block 7, ends holding at (R, q) the larger of 0 and
  (∑ J, adj0(R, J) · y0(J, q) + ∑ J, adj1(R, J) · y1(J, q)) + bias(q); the combined adjacency array, whose every block is
  written back at its own point, ends holding at (R, J) the entry w0(J) · adj0(R, J) + w1(J) · adj1(R, J). Only
  commutativity and associativity of the addition are used.
-/
import proofs.«149819_j58428735095548_2_alg».proof.Proof.KernelIdealV1P
import proofs.«149819_j58428735095548_2_alg».proof.Proof.LibEntry
import Idealize.ShloMosaic.Lib.ValueIdx
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.BlockSum
open scoped BigOperators

variable (V : (c : Dev nD) → (b : Ref sig .tc) → Buf (Elt Ideal) ((c : Thread nD τ).loc b))

/-! ## What the three buffers hold after a point, case by case -/

theorem acc1_A (c : Dev nD) (t : Fin cfg1.N) (h0 : t.val % 8 = 0) (h1 : ¬t.val % 8 = 7) :
    (outsAt1 V c t.val t.isLt).2.2 = step1 (F := Ideal) (iblk1 V c 0 t) (iblk1 V c 1 t) (iblk1 V c 2 t) (iblk1 V c 3 t) (k1_pay3 (F := Ideal)) := by
  rw [outsAt1_A V c t h0 h1]
  dsimp only
  rw [sout1_A_eq]

theorem acc1_B (c : Dev nD) (t : Fin cfg1.N) (h0 : ¬t.val % 8 = 0) (h1 : ¬t.val % 8 = 7) :
    (outsAt1 V c t.val t.isLt).2.2 = step1 (F := Ideal) (iblk1 V c 0 t) (iblk1 V c 1 t) (iblk1 V c 2 t) (iblk1 V c 3 t) (outsAt1 V c (t.val - 1) (Nat.lt_of_le_of_lt (Nat.sub_le _ _) t.isLt)).2.2 := by
  rw [outsAt1_B V c t h0 h1]
  dsimp only
  rw [sout1_B_eq]

theorem acc1_C (c : Dev nD) (t : Fin cfg1.N) (h0 : ¬t.val % 8 = 0) (h1 : t.val % 8 = 7) :
    (outsAt1 V c t.val t.isLt).2.2 = step1 (F := Ideal) (iblk1 V c 0 t) (iblk1 V c 1 t) (iblk1 V c 2 t) (iblk1 V c 3 t) (outsAt1 V c (t.val - 1) (Nat.lt_of_le_of_lt (Nat.sub_le _ _) t.isLt)).2.2 := by
  rw [outsAt1_C V c t h0 h1]
  dsimp only
  rw [sout1_C_eq]

/-- At a last column block the layer's output block is the bias-and-rectifier payload of the accumulator just stored. -/
theorem out7_acc (c : Dev nD) (t : Fin cfg1.N) (h0 : ¬t.val % 8 = 0) (h7 : t.val % 8 = 7) :
    (outsAt1 V c t.val t.isLt).1 = k1_pay2 (F := Ideal) ((outsAt1 V c t.val t.isLt).2.2) (iblk1 V c 6 t) := by
  rw [outsAt1_C V c t h0 h7]
  dsimp only
  rw [out1_7_C_eq, sout1_C_eq]

/-- Whatever the control case, the tile stored at a point is the combination of the point's blocks. -/
theorem out8_adj (c : Dev nD) (t : Fin cfg1.N) :
    (outsAt1 V c t.val t.isLt).2.1 = adj1 (F := Ideal) (iblk1 V c 0 t) (iblk1 V c 1 t) (iblk1 V c 4 t) (iblk1 V c 5 t) := by
  by_cases h0 : t.val % 8 = 0
  · have h1 : ¬t.val % 8 = 7 := by omega
    rw [outsAt1_A V c t h0 h1]
    dsimp only
    rw [out1_8_A_eq]
  · by_cases h1 : t.val % 8 = 7
    · rw [outsAt1_C V c t h0 h1]
      dsimp only
      rw [out1_8_C_eq]
    · rw [outsAt1_B V c t h0 h1]
      dsimp only
      rw [out1_8_B_eq]

/-! ## The accumulator after each point -/

/-- Column block s of a product's row: ∑ over the block's 1024 columns, at natural coordinates. -/
def blkSum1 (A : S8192x8192.Idx → EReal) (Y : S8192x128.Idx → EReal) (R q s : ℕ) : EReal :=
  ∑ j ∈ Finset.range 1024, at2 A R (1024 * s + j) * at2 Y (1024 * s + j) q

/-- One column block's step at point t, from the windows' blocks: the block's two products added to the accumulator. -/
theorem step1_blocks (c : Dev nD) (t : Fin cfg1.N) (acc : Vec Ideal S1024x128 .f32) (r : Fin 1024) (q : Fin 128) :
    step1 (F := Ideal) (iblk1 V c 0 t) (iblk1 V c 1 t) (iblk1 V c 2 t) (iblk1 V c 3 t) acc (ix2 r q)
      = (acc (ix2 r q) + blkSum1 (V c main_arg0) (V c main_v37) (1024 * (t.val / 8) + r.val) q.val (t.val % 8))
        + blkSum1 (V c main_arg1) (V c main_v40) (1024 * (t.val / 8) + r.val) q.val (t.val % 8) := by
  rw [step1_apply]
  congr 1
  · congr 1
    unfold blkSum1
    rw [← sum_fin_eq_range 1024 (fun j => at2 (V c main_arg0 : S8192x8192.Idx → EReal) (1024 * (t.val / 8) + r.val) (1024 * (t.val % 8) + j) * at2 (V c main_v37 : S8192x128.Idx → EReal) (1024 * (t.val % 8) + j) q.val)]
    exact Finset.sum_congr rfl fun j _ => by rw [iblk1_0_apply, iblk1_2_apply]
  · unfold blkSum1
    rw [← sum_fin_eq_range 1024 (fun j => at2 (V c main_arg1 : S8192x8192.Idx → EReal) (1024 * (t.val / 8) + r.val) (1024 * (t.val % 8) + j) * at2 (V c main_v40 : S8192x128.Idx → EReal) (1024 * (t.val % 8) + j) q.val)]
    exact Finset.sum_congr rfl fun j _ => by rw [iblk1_1_apply, iblk1_3_apply]

/-- After the point of column block k the accumulator holds the blocks 0..k of both products. -/
theorem acc1_eq (c : Dev nD) : ∀ (n : ℕ) (h : n < cfg1.N) (r : Fin 1024) (q : Fin 128),
    ((outsAt1 V c n h).2.2 : S1024x128.Idx → EReal) (ix2 r q)
      = ∑ s ∈ Finset.range (n % 8 + 1), (blkSum1 (V c main_arg0) (V c main_v37) (1024 * (n / 8) + r.val) q.val s
          + blkSum1 (V c main_arg1) (V c main_v40) (1024 * (n / 8) + r.val) q.val s)
  | n, h, r, q => by
    by_cases h0 : n % 8 = 0
    · have h1 : ¬n % 8 = 7 := by omega
      rw [show (outsAt1 V c n h).2.2 = _ from acc1_A V c ⟨n, h⟩ h0 h1, step1_blocks, pay3_1_apply]
      show (0 + _) + _ = _
      rw [h0]
      simp only [zero_add, Finset.sum_range_one]
    · have hn0 : n ≠ 0 := fun e => h0 (by rw [e])
      have hN : cfg1.N = 64 := N_1
      have ih := acc1_eq c (n - 1) (by omega) r q
      have hd : (n - 1) / 8 = n / 8 := by omega
      have hm : (n - 1) % 8 + 1 = n % 8 := by omega
      rw [hd, hm] at ih
      by_cases h1 : n % 8 = 7
      · rw [show (outsAt1 V c n h).2.2 = _ from acc1_C V c ⟨n, h⟩ h0 h1, step1_blocks]
        show (((outsAt1 V c (n - 1) _).2.2 : S1024x128.Idx → EReal) (ix2 r q) + _) + _ = _
        rw [ih, Finset.sum_range_succ, add_assoc]
      · rw [show (outsAt1 V c n h).2.2 = _ from acc1_B V c ⟨n, h⟩ h0 h1, step1_blocks]
        show (((outsAt1 V c (n - 1) _).2.2 : S1024x128.Idx → EReal) (ix2 r q) + _) + _ = _
        rw [ih, Finset.sum_range_succ, add_assoc]
  termination_by n => n

/-! ## The layer's output array -/

/-- The eight column blocks of a product's row are the whole row. -/
theorem blocks_full1 (A : S8192x8192.Idx → EReal) (Y : S8192x128.Idx → EReal) (R : Fin 8192) (q : Fin 128) :
    ∑ s ∈ Finset.range 8, blkSum1 A Y R.val q.val s = ∑ J : Fin 8192, A (ix2 R J) * Y (ix2 J q) := by
  unfold blkSum1
  refine (sum_range_blocks (fun j => at2 A R.val j * at2 Y j q.val) 8 1024).symm.trans ?_
  show ∑ j ∈ Finset.range 8192, at2 A R.val j * at2 Y j q.val = _
  rw [← sum_fin_eq_range 8192 (fun j => at2 A R.val j * at2 Y j q.val)]
  exact Finset.sum_congr rfl fun J _ => by rw [at2_ix2, at2_ix2]

/-- The layer's output at natural coordinates: both full products, the bias, then the larger of that and 0. -/
def H1 (c : Dev nD) (R q : ℕ) : EReal :=
  max (((∑ s ∈ Finset.range 8, blkSum1 (V c main_arg0) (V c main_v37) R q s)
    + ∑ s ∈ Finset.range 8, blkSum1 (V c main_arg1) (V c main_v40) R q s) + at2 (V c main_v41 : S1x128.Idx → EReal) 0 q) 0

/-- What the layer's output array ends holding. -/
def G1_7 (c : Dev nD) : S8192x128.Idx → EReal := fun i => H1 V c (i 0).val (i 1).val

theorem out7_eq (c : Dev nD) (t : Fin cfg1.N) (h7 : t.val % 8 = 7) (r : Fin 1024) (q : Fin 128) :
    ((outsAt1 V c t.val t.isLt).1 : S1024x128.Idx → EReal) (ix2 r q) = H1 V c (1024 * (t.val / 8) + r.val) q.val := by
  have h0 : ¬t.val % 8 = 0 := by omega
  rw [out7_acc V c t h0 h7, pay2_1_apply, acc1_eq V c t.val t.isLt r q, iblk1_6_apply, h7, Finset.sum_add_distrib]
  rfl

/-- The one write-back of row block i, at its last column block, writes block i of that array. -/
theorem flushed1_7_eq (c : Dev nD) (t : Fin cfg1.N) (hf : (cfg1.win 7).flush t = true) :
    (dat1 V c).flushed 7 t = ((cfg1.win 7).blk t).view.read (Elt Ideal) (G1_7 V c) := by
  have h7 : t.val % 8 = 7 := (flush1_7 t).mp hf
  show (cfg1.win 7).cut (grid1.coords t) ((dat1 V c).after 7 t) = _
  rw [after1_7]
  funext y
  rw [View.read_apply]
  obtain ⟨r, q, rfl⟩ : ∃ (r : Fin 1024) (q : Fin 128), y = ix2 r q := ⟨y 0, y 1, eq_ix2 y⟩
  show ((outsAt1 V c t.val t.isLt).1 : S1024x128.Idx → EReal) (ix2 r q)
    = H1 V c (win1_7.index t 0 * 1024 + 1 * r.val) (win1_7.index t 1 * 128 + 1 * q.val)
  rw [out7_eq V c t h7 r q, (idx1 t).2.2.2.2.2.2.2.2.2.2.2.2.2.2.1, (idx1 t).2.2.2.2.2.2.2.2.2.2.2.2.2.2.2.1]
  congr 1 <;> omega

/-- Every entry of the layer's output array lies in the block written back at the last column block of its row block. -/
theorem cover1_7 (i : S8192x128.Idx) : ∃ t : Fin cfg1.N, (cfg1.win 7).flush t = true ∧ i ∈ ((cfg1.win 7).blk t).view.set := by
  have hN : cfg1.N = 64 := N_1
  have hi0 : (i 0).val < 8192 := (i 0).isLt
  have hi1 : (i 1).val < 128 := (i 1).isLt
  obtain ⟨t, ht⟩ : ∃ t : Fin cfg1.N, t.val = 8 * ((i 0).val / 1024) + 7 := ⟨⟨8 * ((i 0).val / 1024) + 7, by omega⟩, rfl⟩
  refine ⟨t, (flush1_7 t).mpr (by omega), ?_⟩
  show i ∈ ((View.whole main_v42_0).slice (win1_7.rect t)).set
  rw [View.set_slice_whole, Rect.mem_set_unit]
  intro a
  match a with
  | ⟨0, _⟩ =>
    show win1_7.index t 0 * 1024 ≤ (i 0).val ∧ (i 0).val < win1_7.index t 0 * 1024 + 1024
    rw [(idx1 t).2.2.2.2.2.2.2.2.2.2.2.2.2.2.1]; omega
  | ⟨1, _⟩ =>
    show win1_7.index t 1 * 128 ≤ (i 1).val ∧ (i 1).val < win1_7.index t 1 * 128 + 128
    rw [(idx1 t).2.2.2.2.2.2.2.2.2.2.2.2.2.2.2.1]; omega

theorem final1_7 (c : Dev nD) : (dat1 V c).arrAt 7 cfg1.N = G1_7 V c :=
  (dat1 V c).arrAt_eq_of_cover 7 (G1_7 V c) (flushed1_7_eq V c) cover1_7

/-- The layer's output array after the region: at (R, q), both full products and the bias, then the larger of that and 0. -/
theorem final1_h (c : Dev nD) (R : Fin 8192) (q : Fin 128) :
    entry (S := S8192x128) ((dat1 (F := Ideal) V c).arrAt 7 cfg1.N) (ix2 R q)
      = max (((∑ J : Fin 8192, entry (S := S8192x8192) (V c main_arg0) (ix2 R J) * entry (S := S8192x128) (V c main_v37) (ix2 J q))
          + ∑ J : Fin 8192, entry (S := S8192x8192) (V c main_arg1) (ix2 R J) * entry (S := S8192x128) (V c main_v40) (ix2 J q))
          + entry (S := S1x128) (V c main_v41) (ix2 0 q)) 0 := by
  rw [final1_7]
  show H1 V c R.val q.val = _
  unfold H1
  rw [blocks_full1, blocks_full1, show at2 (V c main_v41 : S1x128.Idx → EReal) 0 q.val = _ from at2_ix2 (V c main_v41 : S1x128.Idx → EReal) (0 : Fin 1) q]

/-! ## The combined adjacency array -/

/-- The combined adjacency entry at natural coordinates. -/
def A1 (c : Dev nD) (R J : ℕ) : EReal :=
  at2 (V c main_v32 : S1x8192.Idx → EReal) 0 J * at2 (V c main_arg0 : S8192x8192.Idx → EReal) R J
    + at2 (V c main_v33 : S1x8192.Idx → EReal) 0 J * at2 (V c main_arg1 : S8192x8192.Idx → EReal) R J

/-- What the combined adjacency array ends holding. -/
def G1_8 (c : Dev nD) : S8192x8192.Idx → EReal := fun i => A1 V c (i 0).val (i 1).val

theorem out8_eq (c : Dev nD) (t : Fin cfg1.N) (r j : Fin 1024) :
    ((outsAt1 V c t.val t.isLt).2.1 : S1024x1024.Idx → EReal) (ix2 r j)
      = A1 V c (1024 * (t.val / 8) + r.val) (1024 * (t.val % 8) + j.val) := by
  rw [out8_adj V c t, adj1_apply, iblk1_4_apply, iblk1_0_apply, iblk1_5_apply, iblk1_1_apply]
  rfl

/-- Every point writes its block of that array back. -/
theorem flushed1_8_eq (c : Dev nD) (t : Fin cfg1.N) (hf : (cfg1.win 8).flush t = true) :
    (dat1 V c).flushed 8 t = ((cfg1.win 8).blk t).view.read (Elt Ideal) (G1_8 V c) := by
  show (cfg1.win 8).cut (grid1.coords t) ((dat1 V c).after 8 t) = _
  rw [after1_8]
  funext y
  rw [View.read_apply]
  obtain ⟨r, j, rfl⟩ : ∃ (r j : Fin 1024), y = ix2 r j := ⟨y 0, y 1, eq_ix2 y⟩
  show ((outsAt1 V c t.val t.isLt).2.1 : S1024x1024.Idx → EReal) (ix2 r j)
    = A1 V c (win1_8.index t 0 * 1024 + 1 * r.val) (win1_8.index t 1 * 1024 + 1 * j.val)
  rw [out8_eq V c t r j, (idx1 t).2.2.2.2.2.2.2.2.2.2.2.2.2.2.2.2.1, (idx1 t).2.2.2.2.2.2.2.2.2.2.2.2.2.2.2.2.2]
  congr 1 <;> omega

/-- Every entry of the combined adjacency array lies in the block of the point of its row block and column block. -/
theorem cover1_8 (i : S8192x8192.Idx) : ∃ t : Fin cfg1.N, (cfg1.win 8).flush t = true ∧ i ∈ ((cfg1.win 8).blk t).view.set := by
  have hN : cfg1.N = 64 := N_1
  have hi0 : (i 0).val < 8192 := (i 0).isLt
  have hi1 : (i 1).val < 8192 := (i 1).isLt
  obtain ⟨t, ht⟩ : ∃ t : Fin cfg1.N, t.val = 8 * ((i 0).val / 1024) + (i 1).val / 1024 :=
    ⟨⟨8 * ((i 0).val / 1024) + (i 1).val / 1024, by omega⟩, rfl⟩
  refine ⟨t, flush1_8 t, ?_⟩
  show i ∈ ((View.whole main_v42_1).slice (win1_8.rect t)).set
  rw [View.set_slice_whole, Rect.mem_set_unit]
  intro a
  match a with
  | ⟨0, _⟩ =>
    show win1_8.index t 0 * 1024 ≤ (i 0).val ∧ (i 0).val < win1_8.index t 0 * 1024 + 1024
    rw [(idx1 t).2.2.2.2.2.2.2.2.2.2.2.2.2.2.2.2.1]; omega
  | ⟨1, _⟩ =>
    show win1_8.index t 1 * 1024 ≤ (i 1).val ∧ (i 1).val < win1_8.index t 1 * 1024 + 1024
    rw [(idx1 t).2.2.2.2.2.2.2.2.2.2.2.2.2.2.2.2.2]; omega

theorem final1_8 (c : Dev nD) : (dat1 V c).arrAt 8 cfg1.N = G1_8 V c :=
  (dat1 V c).arrAt_eq_of_cover 8 (G1_8 V c) (flushed1_8_eq V c) cover1_8

/-- The combined adjacency array after the region: at (R, J), each adjacency entry scaled by its weight J, added. -/
theorem final1_adj (c : Dev nD) (R J : Fin 8192) :
    entry (S := S8192x8192) ((dat1 (F := Ideal) V c).arrAt 8 cfg1.N) (ix2 R J)
      = entry (S := S1x8192) (V c main_v32) (ix2 0 J) * entry (S := S8192x8192) (V c main_arg0) (ix2 R J)
        + entry (S := S1x8192) (V c main_v33) (ix2 0 J) * entry (S := S8192x8192) (V c main_arg1) (ix2 R J) := by
  rw [final1_8]
  show A1 V c R.val J.val = _
  unfold A1
  rw [at2_ix2, at2_ix2, show at2 (V c main_v32 : S1x8192.Idx → EReal) 0 J.val = _ from at2_ix2 (V c main_v32 : S1x8192.Idx → EReal) (0 : Fin 1) J,
    show at2 (V c main_v33 : S1x8192.Idx → EReal) 0 J.val = _ from at2_ix2 (V c main_v33 : S1x8192.Idx → EReal) (0 : Fin 1) J]

end Cert.KernelIdeal.Reg

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.KernelIdealStage1.lean ====
/-
  Layer 1 against the reference, at the ideal instance. What region 1 is entered with — the two softmax weight columns as
  rows, the two feature blocks x·W1 scaled row by row by a weight column, the bias as a row, and the two adjacency arrays
  as launched — is read off the stretch of host operations before it, entry by entry, in terms of the softmax weights it
  computed. The region's two output arrays are then, entry by entry, what the reference computes: the combined
  adjacency nz0(J) · adj0(R, J) + nz1(J) · adj1(R, J) is the reference's term by term; for the layer the kernel sums
  adj0 · (nz0 ⊙ y) and adj1 · (nz1 ⊙ y) where the reference sums (nz0 · adj0 + nz1 · adj1) · y, and these agree when every
  factor is a real number — the one step that is not commutativity and associativity alone, stated first as a lemma
  over abstract sequences.
-/
import proofs.«149819_j58428735095548_2_alg».proof.Proof.KernelIdealStageDefs
import proofs.«149819_j58428735095548_2_alg».proof.Proof.KernelIdealV1I
import proofs.«149819_j58428735095548_2_alg».proof.Proof.LibRealSum
import proofs.«149819_j58428735095548_2_alg».proof.Proof.LibHostBroadcast
import proofs.«149819_j58428735095548_2_alg».proof.Proof.LibMatmulRows
import Idealize.ShloMosaic.Lib.StableHlo.Run
import Idealize.ShloMosaic.Lib.Pipeline.Frame

set_option maxRecDepth 16384

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.StableHlo
open scoped BigOperators

variable (m : (ℓ : Loc nD τ sig) → Buf (Elt Ideal) ℓ) (c : Dev nD)

/-! ## The one law that needs real numbers -/

/-- Folding each node's two weights into the adjacency before the product: when every factor is a real number,
    ∑ a0·(n0·y) + ∑ a1·(n1·y) = ∑ (n0·a0 + n1·a1)·y. On the extended reals themselves a factor does not move across
    a sum. -/
theorem fold_weights {n : ℕ} (a0 a1 n0 n1 y : Fin n → EReal)
    (h0 : ∀ J, ∃ r : ℝ, a0 J = (r : EReal)) (h1 : ∀ J, ∃ r : ℝ, a1 J = (r : EReal))
    (hn0 : ∀ J, ∃ r : ℝ, n0 J = (r : EReal)) (hn1 : ∀ J, ∃ r : ℝ, n1 J = (r : EReal))
    (hy : ∀ J, ∃ r : ℝ, y J = (r : EReal)) :
    (∑ J, a0 J * (n0 J * y J)) + (∑ J, a1 J * (n1 J * y J)) = ∑ J, (n0 J * a0 J + n1 J * a1 J) * y J := by
  choose A0 hA0 using h0
  choose A1 hA1 using h1
  choose N0 hN0 using hn0
  choose N1 hN1 using hn1
  choose Y hY using hy
  rw [← Finset.sum_add_distrib]
  refine Finset.sum_congr rfl fun J _ => ?_
  rw [hA0 J, hA1 J, hN0 J, hN1 J, hY J]
  norm_cast
  ring

/-! ## The reference's stages at an index -/

open Cert.ReferenceIdeal.ReadP in
/-- The combined adjacency of the reference: each adjacency entry scaled by its column's weight, added. -/
theorem RV32_apply (R J : Fin 8192) :
    RV32 m c (ix2 R J)
      = RV21 m c (ix2 J 0) * entry (S := S8192x8192) (m ((c.tc : Thread nD τ).loc main_arg0)) (ix2 R J)
        + RV21 m c (ix2 J 1) * entry (S := S8192x8192) (m ((c.tc : Thread nD τ).loc main_arg1)) (ix2 R J) := by
  show val_main_v32 (F := Ideal) _ _ _ _ (ix2 R J) = _
  rw [val_main_v32_apply, val_main_v26_apply, val_main_v31_apply, val_main_v25_apply, val_main_v24_apply, val_main_v23_apply,
    val_main_v22_apply, val_main_v30_apply, val_main_v29_apply, val_main_v28_apply, val_main_v27_apply]
  have e0 : idx_main_v22 (idx_main_v23 (idx_main_v24 (idx_main_v25 (ix2 R J)))) = ix2 J 0 := funext fun a => Fin.ext (by
    match a with
    | ⟨0, _⟩ => show J.val / 1 = J.val; omega
    | ⟨1, _⟩ => rfl)
  have e1 : idx_main_v27 (idx_main_v28 (idx_main_v29 (idx_main_v30 (ix2 R J)))) = ix2 J 1 := funext fun a => Fin.ext (by
    match a with
    | ⟨0, _⟩ => show J.val / 1 = J.val; omega
    | ⟨1, _⟩ => rfl)
  rw [e0, e1]
  rfl

open Cert.ReferenceIdeal.ReadP in
/-- x · W1 at an entry is a real number when x and W1 are. -/
theorem RV33_real
    (hx2 : ∀ i, ∃ r : ℝ, entry (S := S8192x512) (m ((c.tc : Thread nD τ).loc main_arg2)) i = (r : EReal))
    (hx5 : ∀ i, ∃ r : ℝ, entry (S := S512x128) (m ((c.tc : Thread nD τ).loc main_arg5)) i = (r : EReal))
    (i : S8192x128.Idx) : ∃ r : ℝ, RV33 m c i = (r : EReal) := by
  choose X2 hX2 using hx2
  choose X5 hX5 using hx5
  refine ⟨∑ k : Fin 512, X2 (lidx_main_v33 i k) * X5 (ridx_main_v33 i k), ?_⟩
  show val_main_v33 (F := Ideal) _ _ i = _
  rw [val_main_v33_apply, ← Cert.Lib.RealSum.coe_sum]
  refine Finset.sum_congr rfl fun k _ => ?_
  rw [EReal.coe_mul]
  exact congrArg₂ (· * ·) (hX2 _) (hX5 _)

open Cert.ReferenceIdeal.ReadP in
/-- The reference's first layer: the combined adjacency times x · W1, the bias, then the larger of that and 0. -/
theorem RV38_apply (R : Fin 8192) (q : Fin 128) :
    RV38 m c (ix2 R q)
      = max ((∑ J : Fin 8192, RV32 m c (ix2 R J) * RV33 m c (ix2 J q))
          + entry (S := S128) (m ((c.tc : Thread nD τ).loc main_arg6)) (ix1 q)) 0 := by
  show val_main_v38 (F := Ideal) _ _ _ _ _ _ _ (ix2 R q) = _
  rw [val_main_v38_apply, val_main_v37_apply, val_main_v34_apply, val_main_v36_apply, val_main_v35_apply,
    val_main_call0_v0_apply, val_main_call0_cst_apply]
  have el : ∀ k : Fin 8192, lidx_main_v34 (ix2 R q) k = ix2 R k := fun k => funext fun a => Fin.ext (by
    match a with
    | ⟨0, _⟩ => rfl
    | ⟨1, _⟩ => rfl)
  have er : ∀ k : Fin 8192, ridx_main_v34 (ix2 R q) k = ix2 k q := fun k => funext fun a => Fin.ext (by
    match a with
    | ⟨0, _⟩ => rfl
    | ⟨1, _⟩ => rfl)
  have eb : idx_main_v35 (idx_main_v36 (ix2 R q)) = ix1 q := funext fun a => Fin.ext (by
    match a with
    | ⟨0, _⟩ => rfl)
  rw [eb]
  simp only [el, er]
  show max (_ + _) (Ideal.ofBits .f32 0x00000000#32) = _
  rw [Ideal.ofBits_zero_f32]

/-! ## The buffers region 1 is entered with -/

/-- The buffers after the first 23 host operations of the stretch before region 1 (through the softmax weights). -/
def XA : Valuation τ sig (Elt Ideal) := StableHlo.after ((hostOps1 (F := Ideal)).take 23) (W2 m c)

theorem W3_split : W3 m c = StableHlo.after ((hostOps1 (F := Ideal)).drop 23) (XA m c) := by
  unfold XA
  rw [← StableHlo.after_append, List.take_append_drop]

/-- The last twelve operations of the stretch do not write the softmax weights. -/
theorem XA_v29 : XA m c main_v29 = W3 m c main_v29 := by
  rw [W3_split]
  simp only [hostOps1, List.drop_succ_cons, List.drop_zero]
  after_results

/-- A buffer no stretch or region has written so far holds its launch contents. -/
theorem XA_arg (b : Ref sig .tc) (h0 : b ∉ hostOps0_W) (h1 : b ≠ main_v9) (h2 : b ∉ hostOps1_W) :
    XA m c (Proc.devRef .tc b) = m ((c.tc : Thread nD τ).loc b) :=
  (StableHlo.after_of_writes_sub _ _
    (List.forall_iff_forall_mem.mpr fun op h => (List.forall_iff_forall_mem.mp hostOps1_writes) op (List.mem_of_mem_take h)) h2).trans <|
  (W2_keep m c b h1).trans <|
  (StableHlo.after_of_writes_sub hostOps0 _ hostOps0_writes h0).trans rfl

theorem W3_arg (b : Ref sig .tc) (h0 : b ∉ hostOps0_W) (h1 : b ≠ main_v9) (h2 : b ∉ hostOps1_W) :
    W3 m c (Proc.devRef .tc b) = m ((c.tc : Thread nD τ).loc b) :=
  (StableHlo.after_of_writes_sub hostOps1 _ hostOps1_writes h2).trans <|
  (W2_keep m c b h1).trans <|
  (StableHlo.after_of_writes_sub hostOps0 _ hostOps0_writes h0).trans rfl

/-- The first weight column as a row: a slice, then the 8192 × 1 column read as a 1 × 8192 row. -/
theorem W3_v32_apply (J : Fin 8192) :
    entry (S := S1x8192) (W3 m c main_v32) (ix2 0 J) = entry (S := S8192x2) (W3 m c main_v29) (ix2 J 0) := by
  have e : W3 m c main_v32 = fun i => shapeCast S1x8192 (extractStridedSlice S8192x1 ![0, 0] (XA m c main_v29) slices_S8192x2_S8192x1_0_0) shapeCasts_S8192x1_S1x8192 i := by
    rw [W3_split]
    simp only [hostOps1, List.drop_succ_cons, List.drop_zero]
    after_results
    rfl
  rw [e, ← XA_v29]
  refine (shapeCast_apply _ shapeCasts_S8192x1_S1x8192 (ix2 0 J) (ix2 J 0) ?_).trans
    (extractStridedSlice_apply ![0, 0] _ slices_S8192x2_S8192x1_0_0 (ix2 J 0) (ix2 J 0) ?_)
  · rw [Shape.rowMajor_val_two, Shape.rowMajor_val_two]
    show J.val * 1 + 0 = 0 * 8192 + J.val
    omega
  · intro a
    match a with
    | ⟨0, _⟩ => show J.val = 0 + J.val; omega
    | ⟨1, _⟩ => rfl

/-- The second weight column as a row. -/
theorem W3_v33_apply (J : Fin 8192) :
    entry (S := S1x8192) (W3 m c main_v33) (ix2 0 J) = entry (S := S8192x2) (W3 m c main_v29) (ix2 J 1) := by
  have e : W3 m c main_v33 = fun i => shapeCast S1x8192 (extractStridedSlice S8192x1 ![0, 1] (XA m c main_v29) slices_S8192x2_S8192x1_0_1) shapeCasts_S8192x1_S1x8192 i := by
    rw [W3_split]
    simp only [hostOps1, List.drop_succ_cons, List.drop_zero]
    after_results
    rfl
  rw [e, ← XA_v29]
  refine (shapeCast_apply _ shapeCasts_S8192x1_S1x8192 (ix2 0 J) (ix2 J 0) ?_).trans
    (extractStridedSlice_apply ![0, 1] _ slices_S8192x2_S8192x1_0_1 (ix2 J 0) (ix2 J 1) ?_)
  · rw [Shape.rowMajor_val_two, Shape.rowMajor_val_two]
    show J.val * 1 + 0 = 0 * 8192 + J.val
    omega
  · intro a
    match a with
    | ⟨0, _⟩ => show J.val = 0 + J.val; omega
    | ⟨1, _⟩ => rfl

/-- x · W1 as the stretch computes it is the reference's. -/
theorem hostY_eq : Host.dotGeneral (F := Ideal) (φ₁ := .f32) (φ₂ := .f32) dot_S8192x512_S512x128_S8192x128_1_0_0_1_n_n none (XA m c main_arg2) (XA m c main_arg5) = RV33 m c := by
  rw [XA_arg m c main_arg2 (by decide) (by decide) (by decide), XA_arg m c main_arg5 (by decide) (by decide) (by decide)]
  rfl

/-- A narrowed entrywise product of two arrays, at an entry. -/
theorem scaled_apply (A B : S8192x128.Idx → EReal) (j : S8192x128.Idx) :
    entry (S := S8192x128) (truncf (F := Ideal) .bf16 (mulf (F := Ideal) A B) bitsLt_bf16_f32) j = A j * B j := rfl

/-- The first scaled feature block: the first weight column spread along the features, times x · W1. -/
theorem W3_v37_apply (J : Fin 8192) (q : Fin 128) :
    entry (S := S8192x128) (W3 m c main_v37) (ix2 J q) = entry (S := S8192x2) (W3 m c main_v29) (ix2 J 0) * RV33 m c (ix2 J q) := by
  have e : W3 m c main_v37 = truncf (F := Ideal) .bf16 (mulf (F := Ideal) (broadcastInDim S8192x128 ![0, 1] bcast_S8192x1_S8192x128_0_1
      (extractStridedSlice S8192x1 ![0, 0] (XA m c main_v29) slices_S8192x2_S8192x1_0_0))
      (Host.dotGeneral (F := Ideal) (φ₁ := .f32) (φ₂ := .f32) dot_S8192x512_S512x128_S8192x128_1_0_0_1_n_n none (XA m c main_arg2) (XA m c main_arg5))) bitsLt_bf16_f32 := by
    rw [W3_split]
    simp only [hostOps1, List.drop_succ_cons, List.drop_zero]
    after_results
  rw [e, hostY_eq, ← XA_v29, scaled_apply]
  rw [HostBroadcast.col_cols_apply bcast_S8192x1_S8192x128_0_1 _ (ix2 J q),
    extractStridedSlice_apply ![0, 0] _ slices_S8192x2_S8192x1_0_0 (ix2 J 0) (ix2 J 0) (fun a => by
      match a with
      | ⟨0, _⟩ => show J.val = 0 + J.val; omega
      | ⟨1, _⟩ => rfl)]

/-- The second scaled feature block. -/
theorem W3_v40_apply (J : Fin 8192) (q : Fin 128) :
    entry (S := S8192x128) (W3 m c main_v40) (ix2 J q) = entry (S := S8192x2) (W3 m c main_v29) (ix2 J 1) * RV33 m c (ix2 J q) := by
  have e : W3 m c main_v40 = truncf (F := Ideal) .bf16 (mulf (F := Ideal) (broadcastInDim S8192x128 ![0, 1] bcast_S8192x1_S8192x128_0_1
      (extractStridedSlice S8192x1 ![0, 1] (XA m c main_v29) slices_S8192x2_S8192x1_0_1))
      (Host.dotGeneral (F := Ideal) (φ₁ := .f32) (φ₂ := .f32) dot_S8192x512_S512x128_S8192x128_1_0_0_1_n_n none (XA m c main_arg2) (XA m c main_arg5))) bitsLt_bf16_f32 := by
    rw [W3_split]
    simp only [hostOps1, List.drop_succ_cons, List.drop_zero]
    after_results
  rw [e, hostY_eq, ← XA_v29, scaled_apply]
  rw [HostBroadcast.col_cols_apply bcast_S8192x1_S8192x128_0_1 _ (ix2 J q),
    extractStridedSlice_apply ![0, 1] _ slices_S8192x2_S8192x1_0_1 (ix2 J 0) (ix2 J 1) (fun a => by
      match a with
      | ⟨0, _⟩ => show J.val = 0 + J.val; omega
      | ⟨1, _⟩ => rfl)]

/-- The bias as a row. -/
theorem W3_v41_apply (q : Fin 128) :
    entry (S := S1x128) (W3 m c main_v41) (ix2 0 q) = entry (S := S128) (m ((c.tc : Thread nD τ).loc main_arg6)) (ix1 q) := by
  have e : W3 m c main_v41 = fun i => shapeCast S1x128 (XA m c main_arg6) shapeCasts_S128_S1x128 i := by
    rw [W3_split]
    simp only [hostOps1, List.drop_succ_cons, List.drop_zero]
    after_results
    rfl
  rw [e, XA_arg m c main_arg6 (by decide) (by decide) (by decide)]
  refine shapeCast_apply _ shapeCasts_S128_S1x128 (ix2 0 q) (ix1 q) ?_
  rw [Shape.rowMajor_val_one, Shape.rowMajor_val_two]
  show q.val = 0 * 128 + q.val
  omega

/-! ## Layer 1 against the reference -/

/-- What region 1 leaves in its two output arrays is the reference's combined adjacency and first layer, given that the
    softmax weights it was entered with are the reference's and that the inputs are real numbers (used only to move each
    node's weights from the feature block into the adjacency, across the sum over the nodes). -/
theorem stage_l1
    (hnz : ∀ (J : Fin 8192) (a : Fin 2), entry (S := S8192x2) (W3 m c main_v29) (ix2 J a) = RV21 m c (ix2 J a))
    (hnzr : ∀ (J : Fin 8192) (a : Fin 2), ∃ r : ℝ, RV21 m c (ix2 J a) = (r : EReal))
    (hx0 : ∀ i, ∃ r : ℝ, entry (S := S8192x8192) (m ((c.tc : Thread nD τ).loc main_arg0)) i = (r : EReal))
    (hx1 : ∀ i, ∃ r : ℝ, entry (S := S8192x8192) (m ((c.tc : Thread nD τ).loc main_arg1)) i = (r : EReal))
    (hx2 : ∀ i, ∃ r : ℝ, entry (S := S8192x512) (m ((c.tc : Thread nD τ).loc main_arg2)) i = (r : EReal))
    (hx5 : ∀ i, ∃ r : ℝ, entry (S := S512x128) (m ((c.tc : Thread nD τ).loc main_arg5)) i = (r : EReal)) :
    (∀ (R J : Fin 8192), entry (S := S8192x8192) (W4 m c main_v42_1) (ix2 R J) = RV32 m c (ix2 R J))
    ∧ (∀ (R : Fin 8192) (q : Fin 128), entry (S := S8192x128) (W4 m c main_v42_0) (ix2 R q) = RV38 m c (ix2 R q)) := by
  have e8 : W4 m c main_v42_1 = (dat1 (V3 m) c).arrAt 8 cfg1.N := W4_arr m c 8
  have e7 : W4 m c main_v42_0 = (dat1 (V3 m) c).arrAt 7 cfg1.N := W4_arr m c 7
  have a0 : W3 m c main_arg0 = m ((c.tc : Thread nD τ).loc main_arg0) := W3_arg m c main_arg0 (by decide) (by decide) (by decide)
  have a1 : W3 m c main_arg1 = m ((c.tc : Thread nD τ).loc main_arg1) := W3_arg m c main_arg1 (by decide) (by decide) (by decide)
  constructor
  · intro R J
    rw [e8, final1_adj (V3 m) c R J]
    show entry (S := S1x8192) (W3 m c main_v32) (ix2 0 J) * entry (S := S8192x8192) (W3 m c main_arg0) (ix2 R J)
      + entry (S := S1x8192) (W3 m c main_v33) (ix2 0 J) * entry (S := S8192x8192) (W3 m c main_arg1) (ix2 R J) = _
    rw [W3_v32_apply, W3_v33_apply, hnz, hnz, a0, a1, RV32_apply]
  · intro R q
    rw [e7, final1_h (V3 m) c R q, RV38_apply]
    have s0 : ∀ J : Fin 8192, entry (S := S8192x8192) (V3 m c main_arg0) (ix2 R J) * entry (S := S8192x128) (V3 m c main_v37) (ix2 J q)
        = entry (S := S8192x8192) (m ((c.tc : Thread nD τ).loc main_arg0)) (ix2 R J) * (RV21 m c (ix2 J 0) * RV33 m c (ix2 J q)) := fun J => by
      show entry (S := S8192x8192) (W3 m c main_arg0) (ix2 R J) * entry (S := S8192x128) (W3 m c main_v37) (ix2 J q) = _
      rw [W3_v37_apply, hnz, a0]
    have s1 : ∀ J : Fin 8192, entry (S := S8192x8192) (V3 m c main_arg1) (ix2 R J) * entry (S := S8192x128) (V3 m c main_v40) (ix2 J q)
        = entry (S := S8192x8192) (m ((c.tc : Thread nD τ).loc main_arg1)) (ix2 R J) * (RV21 m c (ix2 J 1) * RV33 m c (ix2 J q)) := fun J => by
      show entry (S := S8192x8192) (W3 m c main_arg1) (ix2 R J) * entry (S := S8192x128) (W3 m c main_v40) (ix2 J q) = _
      rw [W3_v40_apply, hnz, a1]
    have key := fold_weights
      (fun J : Fin 8192 => entry (S := S8192x8192) (m ((c.tc : Thread nD τ).loc main_arg0)) (ix2 R J))
      (fun J : Fin 8192 => entry (S := S8192x8192) (m ((c.tc : Thread nD τ).loc main_arg1)) (ix2 R J))
      (fun J : Fin 8192 => RV21 m c (ix2 J 0)) (fun J : Fin 8192 => RV21 m c (ix2 J 1)) (fun J : Fin 8192 => RV33 m c (ix2 J q))
      (fun J => hx0 _) (fun J => hx1 _) (fun J => hnzr J 0) (fun J => hnzr J 1) (fun J => RV33_real m c hx2 hx5 _)
    beta_reduce at key
    have hr : ∑ J : Fin 8192, RV32 m c (ix2 R J) * RV33 m c (ix2 J q)
        = ∑ J : Fin 8192, (RV21 m c (ix2 J 0) * entry (S := S8192x8192) (m ((c.tc : Thread nD τ).loc main_arg0)) (ix2 R J)
            + RV21 m c (ix2 J 1) * entry (S := S8192x8192) (m ((c.tc : Thread nD τ).loc main_arg1)) (ix2 R J)) * RV33 m c (ix2 J q) :=
      Finset.sum_congr rfl fun J _ => by rw [RV32_apply]
    rw [hr, Finset.sum_congr rfl fun J _ => s0 J, Finset.sum_congr rfl fun J _ => s1 J, key,
      show entry (S := S1x128) (V3 m c main_v41) (ix2 0 q) = _ from W3_v41_apply m c q]

end Cert.KernelIdeal.Reg

end
-- ==== Proof.KernelIdealV2.lean ====
/-
  Region 2, what each control case leaves as a VALUE, at any float instance: after a first column block the
  accumulator is the block's product added to the zero fill; after the second it is the block's product added to what the
  accumulator held, and the output block is that accumulator plus the bias row, rectified. Each buffer's final contents
  are described by the list of whole-buffer stores made to it: the last store of the list is what the buffer holds, and a
  load after a whole-buffer store reads that store's payload.
-/
import proofs.«149819_j58428735095548_2_alg».proof.Proof.KernelIdealR2
import proofs.«149819_j58428735095548_2_alg».proof.Proof.LibReadBack

set_option maxRecDepth 16384

noncomputable section

namespace Cert.KernelIdeal.Reg

open Cert.KernelIdeal Cert.KernelIdeal.Gen
open Idealize.ShloMosaic Idealize.ShloMosaic.TcCoe Idealize.ShloMosaic.Tactic Idealize.SL.Sem

variable {F : FTy → Type} [FloatOps F]

theorem hz22 : (![0, 0] : Fin 2 → Nat) = fun _ => 0 := funext fun a => by fin_cases a <;> rfl

theorem sout2_A_eq (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i) (x0 : Vec F S1024x4096 .bf16) (x1 : Vec F S4096x128 .bf16) (x2 : Vec F S1x128 .f32) :
    sout2_A c i arg2 harg2 arg3 harg3 arg4 harg4 arg5 harg5 arg6 harg6 hc0 hc1 x0 x1 x2 = k2_pay2 k2_pay1 x0 x1 := by
  unfold sout2_A
  rw [View.read_writes_eq_canon _ _ _ (scover2_A c i arg2 harg2 arg3 harg3 arg4 harg4 arg5 harg5 arg6 harg6 hc0 hc1 x0 x1 x2)]
  unfold kernelRun2_A
  dsimp only
  sl_unfold_words
  rw [View.canon_cons_unit_zero (S := S1024x128) hz22, View.readCov_unit_zero (S := S1024x128) _ hz22]
  simp only [View.readAt_eq_ld, harg2.read_unread, harg3.read_unread, harg4.read_unread, harg5.read_unread,
    View.ld_unit_zero (S := S1024x128) hz22, View.ld_unit_zero (S := S1024x4096) hz22, View.ld_unit_zero (S := S4096x128) hz22, View.ld_unit_zero (S := S1x128) hz22]

theorem sout2_C_eq (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) :
    sout2_C c i arg2 harg2 arg3 harg3 arg4 harg4 arg5 harg5 arg6 harg6 hc0 hc1 x0 x1 x2 xs0 = k2_pay2 xs0 x0 x1 := by
  unfold sout2_C
  rw [View.read_writes_eq_canon _ _ _ (scover2_C c i arg2 harg2 arg3 harg3 arg4 harg4 arg5 harg5 arg6 harg6 hc0 hc1 x0 x1 x2 xs0)]
  unfold kernelRun2_C
  dsimp only
  sl_unfold_words
  rw [View.canon_unit_zero (S := S1024x128) hz22]
  simp only [View.readAt_eq_ld, harg2.read_unread, harg3.read_unread, harg4.read_unread, harg6.read_unread,
    View.ld_unit_zero (S := S1024x128) hz22, View.ld_unit_zero (S := S1024x4096) hz22, View.ld_unit_zero (S := S4096x128) hz22, View.ld_unit_zero (S := S1x128) hz22]

theorem out2_C_eq (c : Dev nD) (i : grid2.Coords) (arg2 : Memref sig .tc .vmem S1024x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i) (x0 : Vec F S1024x4096 .bf16) (x1 : Vec F S4096x128 .bf16) (x2 : Vec F S1x128 .f32) (xs0 : Vec F S1024x128 .f32) :
    out2_C c i arg2 harg2 arg3 harg3 arg4 harg4 arg5 harg5 arg6 harg6 hc0 hc1 x0 x1 x2 xs0 = k2_pay3 (k2_pay2 xs0 x0 x1) x2 := by
  unfold out2_C
  rw [View.read_writes_eq_canon _ _ _ (cover2_C c i arg2 harg2 arg3 harg3 arg4 harg4 arg5 harg5 arg6 harg6 hc0 hc1 x0 x1 x2 xs0)]
  unfold kernelRun2_C
  dsimp only
  sl_unfold_words
  rw [View.canon_unit_zero (S := S1024x128) hz22, View.readCov_unit_zero (S := S1024x128) _ hz22]
  simp only [View.readAt_eq_ld, harg2.read_unread, harg3.read_unread, harg4.read_unread, harg6.read_unread,
    View.ld_unit_zero (S := S1024x128) hz22, View.ld_unit_zero (S := S1024x4096) hz22, View.ld_unit_zero (S := S4096x128) hz22, View.ld_unit_zero (S := S1x128) hz22]

end Cert.KernelIdeal.Reg

end
-- ==== Proof.KernelIdealV2I.lean ====
/-
  Region 2 at the ideal instance, entry by entry: the three payloads read at an index (the reset is the zero block,
  a column block's step adds the block's product as a plain sum of products, the last step adds the bias row and
  rectifies), the windows' blocks read at an entry of their arrays, the two points of a row block put together, and the
  result array: entry (R, q) is the sum over all 8192 columns J of adjacency (R, J) times factor (J, q), split as the
  first 4096 columns then the second 4096 (only commutativity and associativity of the extended reals' addition are
  used), plus the bias at q, the maximum of that and zero. The written-back blocks cover the array, so it holds this at every entry.
-/
import proofs.«149819_j58428735095548_2_alg».proof.Proof.KernelIdealV2
import proofs.«149819_j58428735095548_2_alg».proof.Proof.LibMatmulRows
import proofs.«149819_j58428735095548_2_alg».proof.Proof.LibBlockSum
import proofs.«149819_j58428735095548_2_alg».proof.Proof.LibEntry
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Idealize.ShloMosaic.MatmulRows Idealize.ShloMosaic.BlockSum

/-! ## The three payloads read at an index, at the ideal instance -/

theorem d2_hl0 (i : S1024x128.Idx) (q : dot_S1024x4096_S4096x128_S1024x128_1_0_0_1_n_n.contr.Idx) : (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem d2_hr1 (i : S1024x128.Idx) (q : dot_S1024x4096_S4096x128_S1024x128_1_0_0_1_n_n.contr.Idx) : (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- The reset stores the zero block. -/
theorem pay1_2_apply (j : S1024x128.Idx) : (k2_pay1 (F := Ideal) : S1024x128.Idx → EReal) j = 0 := by
  unfold k2_pay1
  rw [shapeCast_self]
  exact Ideal.ofBits_zero_f32

/-- A column block's step: the accumulator plus the block's product, entry by entry. -/
theorem pay2_2_apply (acc : Vec Ideal S1024x128 .f32) (a : Vec Ideal S1024x4096 .bf16) (b : Vec Ideal S4096x128 .bf16) (r : Fin 1024) (q : Fin 128) :
    (k2_pay2 (F := Ideal) acc a b : S1024x128.Idx → EReal) (ix2 r q)
      = (acc : S1024x128.Idx → EReal) (ix2 r q) + ∑ k : Fin 4096, (a : S1024x4096.Idx → EReal) (ix2 r k) * (b : S4096x128.Idx → EReal) (ix2 k q) := by
  unfold k2_pay2
  rw [shapeCast_self, shapeCast_self, shapeCast_self]
  refine (addf_apply _ _ _).trans ?_
  exact congrArg (fun z => (acc : S1024x128.Idx → EReal) (ix2 r q) + z)
    (matmul_zero_apply dot_S1024x4096_S4096x128_S1024x128_1_0_0_1_n_n none rfl rfl rfl rfl d2_hl0 d2_hr1 a b (ix2 r q))

/-- The last column block's store: the accumulator plus the bias row, rectified. -/
theorem pay3_2_apply (acc : Vec Ideal S1024x128 .f32) (bias : Vec Ideal S1x128 .f32) (r : Fin 1024) (q : Fin 128) :
    (k2_pay3 (F := Ideal) acc bias : S1024x128.Idx → EReal) (ix2 r q)
      = max ((acc : S1024x128.Idx → EReal) (ix2 r q) + (bias : S1x128.Idx → EReal) (ix2 0 q)) 0 := by
  unfold k2_pay3
  rw [shapeCast_self]
  refine (maximumf_apply _ _ _).trans ?_
  refine congrArg₂ (fun x y : EReal => max x y) ?_ Ideal.ofBits_zero_f32
  refine (addf_apply _ _ _).trans ?_
  exact congrArg (fun z => (acc : S1024x128.Idx → EReal) (ix2 r q) + z)
    (broadcastTo_apply bias broadcasts_S1x128_S1024x128 (ix2 r q) (ix2 0 q) (fun a => match a with
      | ⟨0, _⟩ => by show 0 = if (1 : Nat) = 1 then 0 else _; rw [if_pos rfl]
      | ⟨1, _⟩ => by show q.val = if (128 : Nat) = 1 then 0 else q.val; rw [if_neg (by decide)]))

/-- One row block's two points on an entry: the two column blocks' products, the first first, then the bias row, rectified. -/
theorem point2 (x0a x0b : Vec Ideal S1024x4096 .bf16) (x1a x1b : Vec Ideal S4096x128 .bf16) (x2 : Vec Ideal S1x128 .f32) (r : Fin 1024) (q : Fin 128) :
    (k2_pay3 (F := Ideal) (k2_pay2 (k2_pay2 k2_pay1 x0a x1a) x0b x1b) x2 : S1024x128.Idx → EReal) (ix2 r q)
      = max (((∑ k : Fin 4096, (x0a : S1024x4096.Idx → EReal) (ix2 r k) * (x1a : S4096x128.Idx → EReal) (ix2 k q))
          + ∑ k : Fin 4096, (x0b : S1024x4096.Idx → EReal) (ix2 r k) * (x1b : S4096x128.Idx → EReal) (ix2 k q))
        + (x2 : S1x128.Idx → EReal) (ix2 0 q)) 0 := by
  rw [pay3_2_apply, pay2_2_apply, pay2_2_apply, pay1_2_apply, zero_add]

/-! ## The windows' blocks read at an entry: block index times block size plus the entry's place in the block -/

variable (V : (c : Dev nD) → (b : Ref sig .tc) → Buf (Elt Ideal) ((c : Thread nD τ).loc b))

theorem idx2_0 : ∀ t : Fin grid2.N, win2_0.index t 0 = t.val / 2 ∧ win2_0.index t 1 = t.val % 2 := by decide +kernel
theorem idx2_1 : ∀ t : Fin grid2.N, win2_1.index t 0 = t.val % 2 ∧ win2_1.index t 1 = 0 := by decide +kernel
theorem idx2_2 : ∀ t : Fin grid2.N, win2_2.index t 0 = 0 ∧ win2_2.index t 1 = 0 := by decide +kernel
theorem idx2_3 : ∀ t : Fin grid2.N, win2_3.index t 0 = t.val / 2 ∧ win2_3.index t 1 = 0 := by decide +kernel

/-- The adjacency's block at point t: rows from 1024 (t / 2), columns from 4096 (t % 2). -/
theorem iblk2_0_apply (c : Dev nD) (t : Fin cfg2.N) (r : Fin 1024) (k : Fin 4096) (R C : ℕ)
    (hR : R = 1024 * (t.val / 2) + r.val) (hC : C = 4096 * (t.val % 2) + k.val) :
    (iblk2 V c 0 t : S1024x4096.Idx → EReal) (ix2 r k) = at2 (V c main_v42_1 : S8192x8192.Idx → EReal) R C := by
  subst hR hC
  unfold iblk2
  rw [View.read_apply]
  show (V c main_v42_1 : S8192x8192.Idx → EReal) _ = _
  refine (at2_val (V c main_v42_1 : S8192x8192.Idx → EReal) _).symm.trans ?_
  have h := idx2_0 t
  refine congrArg₂ (at2 (V c main_v42_1 : S8192x8192.Idx → EReal)) ?_ ?_
  · show win2_0.index t 0 * 1024 + 1 * r.val = _
    rw [h.1]; omega
  · show win2_0.index t 1 * 4096 + 1 * k.val = _
    rw [h.2]; omega

/-- The right factor's block at point t: rows from 4096 (t % 2), all columns. -/
theorem iblk2_1_apply (c : Dev nD) (t : Fin cfg2.N) (k : Fin 4096) (q : Fin 128) (R C : ℕ)
    (hR : R = 4096 * (t.val % 2) + k.val) (hC : C = q.val) :
    (iblk2 V c 1 t : S4096x128.Idx → EReal) (ix2 k q) = at2 (V c main_v44 : S8192x128.Idx → EReal) R C := by
  subst hR hC
  unfold iblk2
  rw [View.read_apply]
  show (V c main_v44 : S8192x128.Idx → EReal) _ = _
  refine (at2_val (V c main_v44 : S8192x128.Idx → EReal) _).symm.trans ?_
  have h := idx2_1 t
  refine congrArg₂ (at2 (V c main_v44 : S8192x128.Idx → EReal)) ?_ ?_
  · show win2_1.index t 0 * 4096 + 1 * k.val = _
    rw [h.1]; omega
  · show win2_1.index t 1 * 128 + 1 * q.val = _
    rw [h.2]; omega

/-- The bias row's block is the bias row. -/
theorem iblk2_2_apply (c : Dev nD) (t : Fin cfg2.N) (q : Fin 128) :
    (iblk2 V c 2 t : S1x128.Idx → EReal) (ix2 0 q) = (V c main_v45 : S1x128.Idx → EReal) (ix2 0 q) := by
  unfold iblk2
  rw [View.read_apply]
  show (V c main_v45 : S1x128.Idx → EReal) _ = _
  have h := idx2_2 t
  refine congrArg (V c main_v45 : S1x128.Idx → EReal) (funext fun a => Fin.ext ?_)
  match a with
  | ⟨0, _⟩ => show win2_2.index t 0 * 1 + 1 * 0 = 0; rw [h.1]
  | ⟨1, _⟩ => show win2_2.index t 1 * 128 + 1 * q.val = q.val; rw [h.2]; omega

/-! ## What the accumulator and the output block hold after a point -/

/-- After a first column block the accumulator is that block's product added to the zero fill. -/
theorem acc2_even (c : Dev nD) (t : Fin cfg2.N) (h0 : t.val % 2 = 0) :
    (outsAt2 V c t.val t.isLt).2 = k2_pay2 (F := Ideal) (k2_pay1 (F := Ideal)) (iblk2 V c 0 t) (iblk2 V c 1 t) := by
  refine (congrArg Prod.snd (outsAt2_A V c t h0 (by omega))).trans ?_
  dsimp only
  exact sout2_A_eq (F := Ideal) ..

/-- After a second column block the output block is the two products, the bias row added. -/
theorem out2_odd (c : Dev nD) (t : Fin cfg2.N) (h1 : t.val % 2 = 1) :
    (outsAt2 V c t.val t.isLt).1
      = k2_pay3 (F := Ideal) (k2_pay2 (F := Ideal) (k2_pay2 (F := Ideal) (k2_pay1 (F := Ideal))
            (iblk2 V c 0 ⟨t.val - 1, Nat.lt_of_le_of_lt (Nat.sub_le _ _) t.isLt⟩) (iblk2 V c 1 ⟨t.val - 1, Nat.lt_of_le_of_lt (Nat.sub_le _ _) t.isLt⟩))
          (iblk2 V c 0 t) (iblk2 V c 1 t)) (iblk2 V c 2 t) := by
  refine (congrArg Prod.fst (outsAt2_C V c t (by omega) h1)).trans ?_
  dsimp only
  refine (out2_C_eq (F := Ideal) ..).trans ?_
  exact congrArg (fun z => k2_pay3 (F := Ideal) (k2_pay2 (F := Ideal) z (iblk2 V c 0 t) (iblk2 V c 1 t)) (iblk2 V c 2 t))
    (acc2_even V c ⟨t.val - 1, Nat.lt_of_le_of_lt (Nat.sub_le _ _) t.isLt⟩ (by dsimp only; omega))

/-! ## The whole result: every entry is the full row-by-column sum, the bias added, rectified -/

/-- A sum over 8192 places is the sum over the first 4096 plus the sum over the second 4096. -/
theorem sum_two_blocks2 (f : ℕ → EReal) :
    ∑ J : Fin 8192, f J.val = (∑ k : Fin 4096, f (4096 * 0 + k.val)) + ∑ k : Fin 4096, f (4096 * 1 + k.val) := by
  refine (sum_fin_eq_range 8192 f).trans ((sum_range_blocks f 2 4096).trans ?_)
  rw [Finset.sum_range_succ, Finset.sum_range_one]
  exact congrArg₂ (fun x y : EReal => x + y) (sum_fin_eq_range 4096 fun k => f (4096 * 0 + k)).symm (sum_fin_eq_range 4096 fun k => f (4096 * 1 + k)).symm

/-- The result array the region leaves, entry by entry. -/
def G2core (c : Dev nD) : S8192x128.Idx → EReal := fun i =>
  max ((∑ J : Fin 8192, entry (S := S8192x8192) (V c main_v42_1) (ix2 (i 0) J) * entry (S := S8192x128) (V c main_v44) (ix2 J (i 1))) + entry (S := S1x128) (V c main_v45) (ix2 0 (i 1))) 0

/-- The same as contents of the result array. -/
def G2 (c : Dev nD) : Buf (Elt Ideal) ((c : Thread nD τ).loc main_v46) := G2core V c

/-- An entry of it, the sum split at column 4096 and its terms read at natural coordinates. -/
theorem G2core_split (c : Dev nD) (e : S8192x128.Idx) (R : ℕ) (q : Fin 128) (h0 : (e 0).val = R) (h1 : (e 1).val = q.val) :
    G2core V c e
      = max (((∑ k : Fin 4096, at2 (V c main_v42_1 : S8192x8192.Idx → EReal) R (4096 * 0 + k.val) * at2 (V c main_v44 : S8192x128.Idx → EReal) (4096 * 0 + k.val) q.val)
          + ∑ k : Fin 4096, at2 (V c main_v42_1 : S8192x8192.Idx → EReal) R (4096 * 1 + k.val) * at2 (V c main_v44 : S8192x128.Idx → EReal) (4096 * 1 + k.val) q.val)
        + entry (S := S1x128) (V c main_v45) (ix2 0 q)) 0 := by
  obtain rfl : q = e 1 := (Fin.ext h1).symm
  subst h0
  unfold G2core
  refine congrArg₂ (fun x y : EReal => max x y) (congrArg₂ (fun x y : EReal => x + y) ?_ rfl) rfl
  exact (Finset.sum_congr rfl fun J _ => congrArg₂ (fun x y : EReal => x * y) (at2_ix2 (V c main_v42_1 : S8192x8192.Idx → EReal) (e 0) J).symm (at2_ix2 (V c main_v44 : S8192x128.Idx → EReal) J (e 1)).symm).trans
    (sum_two_blocks2 fun j => at2 (V c main_v42_1 : S8192x8192.Idx → EReal) (e 0).val j * at2 (V c main_v44 : S8192x128.Idx → EReal) j (e 1).val)

/-- What a write-back writes is its block of that array. -/
theorem flushed2_eq (c : Dev nD) (t : Fin cfg2.N) (hf : (cfg2.win 3).flush t = true) :
    (dat2 V c).flushed 3 t = ((cfg2.win 3).blk t).view.read (Elt Ideal) (G2 V c) := by
  have h1 : t.val % 2 = 1 := (flush2_3 t).mp hf
  show (cfg2.win 3).cut (grid2.coords t) ((dat2 V c).after 3 t) = _
  rw [after2_3, out2_odd V c t h1]
  funext y
  obtain ⟨r, q, rfl⟩ : ∃ (r : Fin 1024) (q : Fin 128), (y : S1024x128.Idx) = ix2 r q := ⟨y 0, y 1, eq_ix2 y⟩
  rw [View.read_apply]
  refine (point2 _ _ _ _ _ r q).trans ?_
  show _ = G2core V c (((cfg2.win 3).blk t).view.emb (ix2 r q))
  have h3 := idx2_3 t
  have he0 : ((((cfg2.win 3).blk t).view.emb (ix2 r q) : S8192x128.Idx) 0).val = 1024 * (t.val / 2) + r.val := by
    show win2_3.index t 0 * 1024 + 1 * r.val = _
    rw [h3.1]; omega
  have he1 : ((((cfg2.win 3).blk t).view.emb (ix2 r q) : S8192x128.Idx) 1).val = q.val := by
    show win2_3.index t 1 * 128 + 1 * q.val = _
    rw [h3.2]; omega
  refine Eq.trans ?_ (G2core_split V c _ _ q he0 he1).symm
  refine congrArg₂ (fun x y : EReal => max x y) (congrArg₂ (fun x y : EReal => x + y) (congrArg₂ (fun x y : EReal => x + y) (Finset.sum_congr rfl fun k _ => congrArg₂ (fun x y : EReal => x * y) ?_ ?_) (Finset.sum_congr rfl fun k _ => congrArg₂ (fun x y : EReal => x * y) ?_ ?_)) (iblk2_2_apply V c t q)) rfl
  · exact iblk2_0_apply V c _ r k _ _ (by dsimp only; omega) (by dsimp only; omega)
  · exact iblk2_1_apply V c _ k q _ _ (by dsimp only; omega) rfl
  · exact iblk2_0_apply V c _ r k _ _ (by omega) (by omega)
  · exact iblk2_1_apply V c _ k q _ _ (by omega) rfl

/-- The written-back blocks cover the array: row R lies in the block written at point 2 (R / 1024) + 1. -/
theorem cover2 (i : S8192x128.Idx) : ∃ t : Fin cfg2.N, (cfg2.win 3).flush t = true ∧ i ∈ ((cfg2.win 3).blk t).view.set := by
  have hN : cfg2.N = 16 := N_2
  have h0 : (i 0 : Nat) < 8192 := (i 0).isLt
  have h1 : (i 1 : Nat) < 128 := (i 1).isLt
  have ht : 2 * ((i 0).val / 1024) + 1 < cfg2.N := by omega
  refine ⟨⟨2 * ((i 0).val / 1024) + 1, ht⟩, (flush2_3 _).mpr (by dsimp only; omega), ?_⟩
  show i ∈ ((View.whole main_v46).slice (win2_3.rect ⟨2 * ((i 0).val / 1024) + 1, ht⟩)).set
  rw [View.set_slice_whole, Rect.mem_set_unit]
  have h3 := idx2_3 ⟨2 * ((i 0).val / 1024) + 1, ht⟩
  intro a
  match a with
  | ⟨0, _⟩ =>
    show win2_3.index ⟨2 * ((i 0).val / 1024) + 1, ht⟩ 0 * 1024 ≤ (i 0 : Nat) ∧ (i 0 : Nat) < win2_3.index ⟨2 * ((i 0).val / 1024) + 1, ht⟩ 0 * 1024 + 1024
    rw [h3.1]; dsimp only; omega
  | ⟨1, _⟩ =>
    show win2_3.index ⟨2 * ((i 0).val / 1024) + 1, ht⟩ 1 * 128 ≤ (i 1 : Nat) ∧ (i 1 : Nat) < win2_3.index ⟨2 * ((i 0).val / 1024) + 1, ht⟩ 1 * 128 + 128
    rw [h3.2]; omega

/-- The region's result array, entry by entry. -/
theorem final2 (c : Dev nD) (R : Fin 8192) (q : Fin 128) :
    entry (S := S8192x128) ((dat2 (F := Ideal) V c).arrAt 3 cfg2.N) (ix2 R q)
      = max ((∑ J : Fin 8192, entry (S := S8192x8192) (V c main_v42_1) (ix2 R J) * entry (S := S8192x128) (V c main_v44) (ix2 J q)) + entry (S := S1x128) (V c main_v45) (ix2 0 q)) 0 :=
  congrFun ((dat2 (F := Ideal) V c).arrAt_eq_of_cover 3 (G2 V c) (flushed2_eq V c) cover2) (ix2 R q)

end Cert.KernelIdeal.Reg

end
-- ==== Proof.KernelIdealV3.lean ====
/-
  Region 3, what each control case leaves as a VALUE, at any float instance: after a first column block the
  accumulator is the block's product added to the zero fill; after the second it is the block's product added to what the
  accumulator held, and the output block is that accumulator plus the bias row. Each buffer's final contents
  are described by the list of whole-buffer stores made to it: the last store of the list is what the buffer holds, and a
  load after a whole-buffer store reads that store's payload.
-/
import proofs.«149819_j58428735095548_2_alg».proof.Proof.KernelIdealR3
import proofs.«149819_j58428735095548_2_alg».proof.Proof.LibReadBack

set_option maxRecDepth 16384

noncomputable section

namespace Cert.KernelIdeal.Reg

open Cert.KernelIdeal Cert.KernelIdeal.Gen
open Idealize.ShloMosaic Idealize.ShloMosaic.TcCoe Idealize.ShloMosaic.Tactic Idealize.SL.Sem

variable {F : FTy → Type} [FloatOps F]

theorem hz23 : (![0, 0] : Fin 2 → Nat) = fun _ => 0 := funext fun a => by fin_cases a <;> rfl

theorem sout3_A_eq (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : cond3_0 i) (hc1 : ¬cond3_1 i) (x0 : Vec F S1024x4096 .bf16) (x1 : Vec F S4096x16 .bf16) (x2 : Vec F S1x16 .f32) :
    sout3_A c i arg2 harg2 arg3 harg3 arg4 harg4 arg5 harg5 arg6 harg6 hc0 hc1 x0 x1 x2 = k3_pay2 k3_pay1 x0 x1 := by
  unfold sout3_A
  rw [View.read_writes_eq_canon _ _ _ (scover3_A c i arg2 harg2 arg3 harg3 arg4 harg4 arg5 harg5 arg6 harg6 hc0 hc1 x0 x1 x2)]
  unfold kernelRun3_A
  dsimp only
  sl_unfold_words
  rw [View.canon_cons_unit_zero (S := S1024x16) hz23, View.readCov_unit_zero (S := S1024x16) _ hz23]
  simp only [View.readAt_eq_ld, harg2.read_unread, harg3.read_unread, harg4.read_unread, harg5.read_unread,
    View.ld_unit_zero (S := S1024x16) hz23, View.ld_unit_zero (S := S1024x4096) hz23, View.ld_unit_zero (S := S4096x16) hz23, View.ld_unit_zero (S := S1x16) hz23]

theorem sout3_C_eq (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) :
    sout3_C c i arg2 harg2 arg3 harg3 arg4 harg4 arg5 harg5 arg6 harg6 hc0 hc1 x0 x1 x2 xs0 = k3_pay2 xs0 x0 x1 := by
  unfold sout3_C
  rw [View.read_writes_eq_canon _ _ _ (scover3_C c i arg2 harg2 arg3 harg3 arg4 harg4 arg5 harg5 arg6 harg6 hc0 hc1 x0 x1 x2 xs0)]
  unfold kernelRun3_C
  dsimp only
  sl_unfold_words
  rw [View.canon_unit_zero (S := S1024x16) hz23]
  simp only [View.readAt_eq_ld, harg2.read_unread, harg3.read_unread, harg4.read_unread, harg6.read_unread,
    View.ld_unit_zero (S := S1024x16) hz23, View.ld_unit_zero (S := S1024x4096) hz23, View.ld_unit_zero (S := S4096x16) hz23, View.ld_unit_zero (S := S1x16) hz23]

theorem out3_C_eq (c : Dev nD) (i : grid3.Coords) (arg2 : Memref sig .tc .vmem S1024x4096 .bf16) (harg2 : arg2.IsWhole) (arg3 : Memref sig .tc .vmem S4096x16 .bf16) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬cond3_0 i) (hc1 : cond3_1 i) (x0 : Vec F S1024x4096 .bf16) (x1 : Vec F S4096x16 .bf16) (x2 : Vec F S1x16 .f32) (xs0 : Vec F S1024x16 .f32) :
    out3_C c i arg2 harg2 arg3 harg3 arg4 harg4 arg5 harg5 arg6 harg6 hc0 hc1 x0 x1 x2 xs0 = k3_pay3 (k3_pay2 xs0 x0 x1) x2 := by
  unfold out3_C
  rw [View.read_writes_eq_canon _ _ _ (cover3_C c i arg2 harg2 arg3 harg3 arg4 harg4 arg5 harg5 arg6 harg6 hc0 hc1 x0 x1 x2 xs0)]
  unfold kernelRun3_C
  dsimp only
  sl_unfold_words
  rw [View.canon_unit_zero (S := S1024x16) hz23, View.readCov_unit_zero (S := S1024x16) _ hz23]
  simp only [View.readAt_eq_ld, harg2.read_unread, harg3.read_unread, harg4.read_unread, harg6.read_unread,
    View.ld_unit_zero (S := S1024x16) hz23, View.ld_unit_zero (S := S1024x4096) hz23, View.ld_unit_zero (S := S4096x16) hz23, View.ld_unit_zero (S := S1x16) hz23]

end Cert.KernelIdeal.Reg

end
-- ==== Proof.KernelIdealV3I.lean ====
/-
  Region 3 at the ideal instance, entry by entry: the three payloads read at an index (the reset is the zero block,
  a column block's step adds the block's product as a plain sum of products, the last step adds the bias row), the windows' blocks read at an entry of their arrays, the two points of a row block put together, and the
  result array: entry (R, q) is the sum over all 8192 columns J of adjacency (R, J) times factor (J, q), split as the
  first 4096 columns then the second 4096 (only commutativity and associativity of the extended reals' addition are
  used), plus the bias at q. The written-back blocks cover the array, so it holds this at every entry.
-/
import proofs.«149819_j58428735095548_2_alg».proof.Proof.KernelIdealV3
import proofs.«149819_j58428735095548_2_alg».proof.Proof.LibMatmulRows
import proofs.«149819_j58428735095548_2_alg».proof.Proof.LibBlockSum
import proofs.«149819_j58428735095548_2_alg».proof.Proof.LibEntry
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Idealize.ShloMosaic.MatmulRows Idealize.ShloMosaic.BlockSum

/-! ## The three payloads read at an index, at the ideal instance -/

theorem d3_hl0 (i : S1024x16.Idx) (q : dot_S1024x4096_S4096x16_S1024x16_1_0_0_1_n_n.contr.Idx) : (dot_S1024x4096_S4096x16_S1024x16_1_0_0_1_n_n.lhsIdx i q 0).val = (i 0).val := by
  unfold DotDims.lhsIdx
  rw [dif_neg (show ¬(0 : Fin S1024x4096.rank) ∈ dot_S1024x4096_S4096x16_S1024x16_1_0_0_1_n_n.lhsBatch by decide), dif_pos (show (0 : Fin S1024x4096.rank) ∈ dot_S1024x4096_S4096x16_S1024x16_1_0_0_1_n_n.lhsNonContracting by decide)]
  rfl
theorem d3_hr1 (i : S1024x16.Idx) (q : dot_S1024x4096_S4096x16_S1024x16_1_0_0_1_n_n.contr.Idx) : (dot_S1024x4096_S4096x16_S1024x16_1_0_0_1_n_n.rhsIdx i q 1).val = (i 1).val := by
  unfold DotDims.rhsIdx
  rw [dif_neg (show ¬(1 : Fin S4096x16.rank) ∈ dot_S1024x4096_S4096x16_S1024x16_1_0_0_1_n_n.rhsBatch by decide), dif_pos (show (1 : Fin S4096x16.rank) ∈ dot_S1024x4096_S4096x16_S1024x16_1_0_0_1_n_n.rhsNonContracting by decide)]
  rfl

/-- The reset stores the zero block. -/
theorem pay1_3_apply (j : S1024x16.Idx) : (k3_pay1 (F := Ideal) : S1024x16.Idx → EReal) j = 0 := by
  unfold k3_pay1
  rw [shapeCast_self]
  exact Ideal.ofBits_zero_f32

/-- A column block's step: the accumulator plus the block's product, entry by entry. -/
theorem pay2_3_apply (acc : Vec Ideal S1024x16 .f32) (a : Vec Ideal S1024x4096 .bf16) (b : Vec Ideal S4096x16 .bf16) (r : Fin 1024) (q : Fin 16) :
    (k3_pay2 (F := Ideal) acc a b : S1024x16.Idx → EReal) (ix2 r q)
      = (acc : S1024x16.Idx → EReal) (ix2 r q) + ∑ k : Fin 4096, (a : S1024x4096.Idx → EReal) (ix2 r k) * (b : S4096x16.Idx → EReal) (ix2 k q) := by
  unfold k3_pay2
  rw [shapeCast_self, shapeCast_self, shapeCast_self]
  refine (addf_apply _ _ _).trans ?_
  exact congrArg (fun z => (acc : S1024x16.Idx → EReal) (ix2 r q) + z)
    (matmul_zero_apply dot_S1024x4096_S4096x16_S1024x16_1_0_0_1_n_n none rfl rfl rfl rfl d3_hl0 d3_hr1 a b (ix2 r q))

/-- The last column block's store: the accumulator plus the bias row. -/
theorem pay3_3_apply (acc : Vec Ideal S1024x16 .f32) (bias : Vec Ideal S1x16 .f32) (r : Fin 1024) (q : Fin 16) :
    (k3_pay3 (F := Ideal) acc bias : S1024x16.Idx → EReal) (ix2 r q)
      = (acc : S1024x16.Idx → EReal) (ix2 r q) + (bias : S1x16.Idx → EReal) (ix2 0 q) := by
  unfold k3_pay3
  rw [shapeCast_self]
  refine (addf_apply _ _ _).trans ?_
  exact congrArg (fun z => (acc : S1024x16.Idx → EReal) (ix2 r q) + z)
    (broadcastTo_apply bias broadcasts_S1x16_S1024x16 (ix2 r q) (ix2 0 q) (fun a => match a with
      | ⟨0, _⟩ => by show 0 = if (1 : Nat) = 1 then 0 else _; rw [if_pos rfl]
      | ⟨1, _⟩ => by show q.val = if (16 : Nat) = 1 then 0 else q.val; rw [if_neg (by decide)]))

/-- One row block's two points on an entry: the two column blocks' products, the first first, then the bias row. -/
theorem point3 (x0a x0b : Vec Ideal S1024x4096 .bf16) (x1a x1b : Vec Ideal S4096x16 .bf16) (x2 : Vec Ideal S1x16 .f32) (r : Fin 1024) (q : Fin 16) :
    (k3_pay3 (F := Ideal) (k3_pay2 (k3_pay2 k3_pay1 x0a x1a) x0b x1b) x2 : S1024x16.Idx → EReal) (ix2 r q)
      = ((∑ k : Fin 4096, (x0a : S1024x4096.Idx → EReal) (ix2 r k) * (x1a : S4096x16.Idx → EReal) (ix2 k q))
          + ∑ k : Fin 4096, (x0b : S1024x4096.Idx → EReal) (ix2 r k) * (x1b : S4096x16.Idx → EReal) (ix2 k q))
        + (x2 : S1x16.Idx → EReal) (ix2 0 q) := by
  rw [pay3_3_apply, pay2_3_apply, pay2_3_apply, pay1_3_apply, zero_add]

/-! ## The windows' blocks read at an entry: block index times block size plus the entry's place in the block -/

variable (V : (c : Dev nD) → (b : Ref sig .tc) → Buf (Elt Ideal) ((c : Thread nD τ).loc b))

theorem idx3_0 : ∀ t : Fin grid3.N, win3_0.index t 0 = t.val / 2 ∧ win3_0.index t 1 = t.val % 2 := by decide +kernel
theorem idx3_1 : ∀ t : Fin grid3.N, win3_1.index t 0 = t.val % 2 ∧ win3_1.index t 1 = 0 := by decide +kernel
theorem idx3_2 : ∀ t : Fin grid3.N, win3_2.index t 0 = 0 ∧ win3_2.index t 1 = 0 := by decide +kernel
theorem idx3_3 : ∀ t : Fin grid3.N, win3_3.index t 0 = t.val / 2 ∧ win3_3.index t 1 = 0 := by decide +kernel

/-- The adjacency's block at point t: rows from 1024 (t / 2), columns from 4096 (t % 2). -/
theorem iblk3_0_apply (c : Dev nD) (t : Fin cfg3.N) (r : Fin 1024) (k : Fin 4096) (R C : ℕ)
    (hR : R = 1024 * (t.val / 2) + r.val) (hC : C = 4096 * (t.val % 2) + k.val) :
    (iblk3 V c 0 t : S1024x4096.Idx → EReal) (ix2 r k) = at2 (V c main_v42_1 : S8192x8192.Idx → EReal) R C := by
  subst hR hC
  unfold iblk3
  rw [View.read_apply]
  show (V c main_v42_1 : S8192x8192.Idx → EReal) _ = _
  refine (at2_val (V c main_v42_1 : S8192x8192.Idx → EReal) _).symm.trans ?_
  have h := idx3_0 t
  refine congrArg₂ (at2 (V c main_v42_1 : S8192x8192.Idx → EReal)) ?_ ?_
  · show win3_0.index t 0 * 1024 + 1 * r.val = _
    rw [h.1]; omega
  · show win3_0.index t 1 * 4096 + 1 * k.val = _
    rw [h.2]; omega

/-- The right factor's block at point t: rows from 4096 (t % 2), all columns. -/
theorem iblk3_1_apply (c : Dev nD) (t : Fin cfg3.N) (k : Fin 4096) (q : Fin 16) (R C : ℕ)
    (hR : R = 4096 * (t.val % 2) + k.val) (hC : C = q.val) :
    (iblk3 V c 1 t : S4096x16.Idx → EReal) (ix2 k q) = at2 (V c main_v48 : S8192x16.Idx → EReal) R C := by
  subst hR hC
  unfold iblk3
  rw [View.read_apply]
  show (V c main_v48 : S8192x16.Idx → EReal) _ = _
  refine (at2_val (V c main_v48 : S8192x16.Idx → EReal) _).symm.trans ?_
  have h := idx3_1 t
  refine congrArg₂ (at2 (V c main_v48 : S8192x16.Idx → EReal)) ?_ ?_
  · show win3_1.index t 0 * 4096 + 1 * k.val = _
    rw [h.1]; omega
  · show win3_1.index t 1 * 16 + 1 * q.val = _
    rw [h.2]; omega

/-- The bias row's block is the bias row. -/
theorem iblk3_2_apply (c : Dev nD) (t : Fin cfg3.N) (q : Fin 16) :
    (iblk3 V c 2 t : S1x16.Idx → EReal) (ix2 0 q) = (V c main_v49 : S1x16.Idx → EReal) (ix2 0 q) := by
  unfold iblk3
  rw [View.read_apply]
  show (V c main_v49 : S1x16.Idx → EReal) _ = _
  have h := idx3_2 t
  refine congrArg (V c main_v49 : S1x16.Idx → EReal) (funext fun a => Fin.ext ?_)
  match a with
  | ⟨0, _⟩ => show win3_2.index t 0 * 1 + 1 * 0 = 0; rw [h.1]
  | ⟨1, _⟩ => show win3_2.index t 1 * 16 + 1 * q.val = q.val; rw [h.2]; omega

/-! ## What the accumulator and the output block hold after a point -/

/-- After a first column block the accumulator is that block's product added to the zero fill. -/
theorem acc3_even (c : Dev nD) (t : Fin cfg3.N) (h0 : t.val % 2 = 0) :
    (outsAt3 V c t.val t.isLt).2 = k3_pay2 (F := Ideal) (k3_pay1 (F := Ideal)) (iblk3 V c 0 t) (iblk3 V c 1 t) := by
  refine (congrArg Prod.snd (outsAt3_A V c t h0 (by omega))).trans ?_
  dsimp only
  exact sout3_A_eq (F := Ideal) ..

/-- After a second column block the output block is the two products, the bias row added. -/
theorem out3_odd (c : Dev nD) (t : Fin cfg3.N) (h1 : t.val % 2 = 1) :
    (outsAt3 V c t.val t.isLt).1
      = k3_pay3 (F := Ideal) (k3_pay2 (F := Ideal) (k3_pay2 (F := Ideal) (k3_pay1 (F := Ideal))
            (iblk3 V c 0 ⟨t.val - 1, Nat.lt_of_le_of_lt (Nat.sub_le _ _) t.isLt⟩) (iblk3 V c 1 ⟨t.val - 1, Nat.lt_of_le_of_lt (Nat.sub_le _ _) t.isLt⟩))
          (iblk3 V c 0 t) (iblk3 V c 1 t)) (iblk3 V c 2 t) := by
  refine (congrArg Prod.fst (outsAt3_C V c t (by omega) h1)).trans ?_
  dsimp only
  refine (out3_C_eq (F := Ideal) ..).trans ?_
  exact congrArg (fun z => k3_pay3 (F := Ideal) (k3_pay2 (F := Ideal) z (iblk3 V c 0 t) (iblk3 V c 1 t)) (iblk3 V c 2 t))
    (acc3_even V c ⟨t.val - 1, Nat.lt_of_le_of_lt (Nat.sub_le _ _) t.isLt⟩ (by dsimp only; omega))

/-! ## The whole result: every entry is the full row-by-column sum, the bias added -/

/-- A sum over 8192 places is the sum over the first 4096 plus the sum over the second 4096. -/
theorem sum_two_blocks3 (f : ℕ → EReal) :
    ∑ J : Fin 8192, f J.val = (∑ k : Fin 4096, f (4096 * 0 + k.val)) + ∑ k : Fin 4096, f (4096 * 1 + k.val) := by
  refine (sum_fin_eq_range 8192 f).trans ((sum_range_blocks f 2 4096).trans ?_)
  rw [Finset.sum_range_succ, Finset.sum_range_one]
  exact congrArg₂ (fun x y : EReal => x + y) (sum_fin_eq_range 4096 fun k => f (4096 * 0 + k)).symm (sum_fin_eq_range 4096 fun k => f (4096 * 1 + k)).symm

/-- The result array the region leaves, entry by entry. -/
def G3core (c : Dev nD) : S8192x16.Idx → EReal := fun i =>
  (∑ J : Fin 8192, entry (S := S8192x8192) (V c main_v42_1) (ix2 (i 0) J) * entry (S := S8192x16) (V c main_v48) (ix2 J (i 1))) + entry (S := S1x16) (V c main_v49) (ix2 0 (i 1))

/-- The same as contents of the result array. -/
def G3 (c : Dev nD) : Buf (Elt Ideal) ((c : Thread nD τ).loc main_v50) := G3core V c

/-- An entry of it, the sum split at column 4096 and its terms read at natural coordinates. -/
theorem G3core_split (c : Dev nD) (e : S8192x16.Idx) (R : ℕ) (q : Fin 16) (h0 : (e 0).val = R) (h1 : (e 1).val = q.val) :
    G3core V c e
      = ((∑ k : Fin 4096, at2 (V c main_v42_1 : S8192x8192.Idx → EReal) R (4096 * 0 + k.val) * at2 (V c main_v48 : S8192x16.Idx → EReal) (4096 * 0 + k.val) q.val)
          + ∑ k : Fin 4096, at2 (V c main_v42_1 : S8192x8192.Idx → EReal) R (4096 * 1 + k.val) * at2 (V c main_v48 : S8192x16.Idx → EReal) (4096 * 1 + k.val) q.val)
        + entry (S := S1x16) (V c main_v49) (ix2 0 q) := by
  obtain rfl : q = e 1 := (Fin.ext h1).symm
  subst h0
  unfold G3core
  refine congrArg₂ (fun x y : EReal => x + y) ?_ rfl
  exact (Finset.sum_congr rfl fun J _ => congrArg₂ (fun x y : EReal => x * y) (at2_ix2 (V c main_v42_1 : S8192x8192.Idx → EReal) (e 0) J).symm (at2_ix2 (V c main_v48 : S8192x16.Idx → EReal) J (e 1)).symm).trans
    (sum_two_blocks3 fun j => at2 (V c main_v42_1 : S8192x8192.Idx → EReal) (e 0).val j * at2 (V c main_v48 : S8192x16.Idx → EReal) j (e 1).val)

/-- What a write-back writes is its block of that array. -/
theorem flushed3_eq (c : Dev nD) (t : Fin cfg3.N) (hf : (cfg3.win 3).flush t = true) :
    (dat3 V c).flushed 3 t = ((cfg3.win 3).blk t).view.read (Elt Ideal) (G3 V c) := by
  have h1 : t.val % 2 = 1 := (flush3_3 t).mp hf
  show (cfg3.win 3).cut (grid3.coords t) ((dat3 V c).after 3 t) = _
  rw [after3_3, out3_odd V c t h1]
  funext y
  obtain ⟨r, q, rfl⟩ : ∃ (r : Fin 1024) (q : Fin 16), (y : S1024x16.Idx) = ix2 r q := ⟨y 0, y 1, eq_ix2 y⟩
  rw [View.read_apply]
  refine (point3 _ _ _ _ _ r q).trans ?_
  show _ = G3core V c (((cfg3.win 3).blk t).view.emb (ix2 r q))
  have h3 := idx3_3 t
  have he0 : ((((cfg3.win 3).blk t).view.emb (ix2 r q) : S8192x16.Idx) 0).val = 1024 * (t.val / 2) + r.val := by
    show win3_3.index t 0 * 1024 + 1 * r.val = _
    rw [h3.1]; omega
  have he1 : ((((cfg3.win 3).blk t).view.emb (ix2 r q) : S8192x16.Idx) 1).val = q.val := by
    show win3_3.index t 1 * 16 + 1 * q.val = _
    rw [h3.2]; omega
  refine Eq.trans ?_ (G3core_split V c _ _ q he0 he1).symm
  refine congrArg₂ (fun x y : EReal => x + y) (congrArg₂ (fun x y : EReal => x + y) (Finset.sum_congr rfl fun k _ => congrArg₂ (fun x y : EReal => x * y) ?_ ?_) (Finset.sum_congr rfl fun k _ => congrArg₂ (fun x y : EReal => x * y) ?_ ?_)) (iblk3_2_apply V c t q)
  · exact iblk3_0_apply V c _ r k _ _ (by dsimp only; omega) (by dsimp only; omega)
  · exact iblk3_1_apply V c _ k q _ _ (by dsimp only; omega) rfl
  · exact iblk3_0_apply V c _ r k _ _ (by omega) (by omega)
  · exact iblk3_1_apply V c _ k q _ _ (by omega) rfl

/-- The written-back blocks cover the array: row R lies in the block written at point 2 (R / 1024) + 1. -/
theorem cover3 (i : S8192x16.Idx) : ∃ t : Fin cfg3.N, (cfg3.win 3).flush t = true ∧ i ∈ ((cfg3.win 3).blk t).view.set := by
  have hN : cfg3.N = 16 := N_3
  have h0 : (i 0 : Nat) < 8192 := (i 0).isLt
  have h1 : (i 1 : Nat) < 16 := (i 1).isLt
  have ht : 2 * ((i 0).val / 1024) + 1 < cfg3.N := by omega
  refine ⟨⟨2 * ((i 0).val / 1024) + 1, ht⟩, (flush3_3 _).mpr (by dsimp only; omega), ?_⟩
  show i ∈ ((View.whole main_v50).slice (win3_3.rect ⟨2 * ((i 0).val / 1024) + 1, ht⟩)).set
  rw [View.set_slice_whole, Rect.mem_set_unit]
  have h3 := idx3_3 ⟨2 * ((i 0).val / 1024) + 1, ht⟩
  intro a
  match a with
  | ⟨0, _⟩ =>
    show win3_3.index ⟨2 * ((i 0).val / 1024) + 1, ht⟩ 0 * 1024 ≤ (i 0 : Nat) ∧ (i 0 : Nat) < win3_3.index ⟨2 * ((i 0).val / 1024) + 1, ht⟩ 0 * 1024 + 1024
    rw [h3.1]; dsimp only; omega
  | ⟨1, _⟩ =>
    show win3_3.index ⟨2 * ((i 0).val / 1024) + 1, ht⟩ 1 * 16 ≤ (i 1 : Nat) ∧ (i 1 : Nat) < win3_3.index ⟨2 * ((i 0).val / 1024) + 1, ht⟩ 1 * 16 + 16
    rw [h3.2]; omega

/-- The region's result array, entry by entry. -/
theorem final3 (c : Dev nD) (R : Fin 8192) (q : Fin 16) :
    entry (S := S8192x16) ((dat3 (F := Ideal) V c).arrAt 3 cfg3.N) (ix2 R q)
      = (∑ J : Fin 8192, entry (S := S8192x8192) (V c main_v42_1) (ix2 R J) * entry (S := S8192x16) (V c main_v48) (ix2 J q)) + entry (S := S1x16) (V c main_v49) (ix2 0 q) :=
  congrFun ((dat3 (F := Ideal) V c).arrAt_eq_of_cover 3 (G3 V c) (flushed3_eq V c) cover3) (ix2 R q)

end Cert.KernelIdeal.Reg

end
-- ==== Proof.KernelIdealStage23.lean ====
/-
  Layers 2 and 3 and the result, against the reference's stages. A region's result array is its final statement at the
  contents the region is entered with; those are what the host operations before it leave: the combined adjacency
  untouched, the right factor the previous layer times the layer's weight matrix (a sum over the 128 hidden places,
  then a format change, the identity on the extended reals), the bias row the bias reshaped. The reference's layer is
  the same expression over its own stages, so the two agree once the combined adjacency and the previous layer do:
  rewriting under the sums, no algebra. The result is the same chain of host operations on both sides, applied to
  arrays that agree.
-/
import proofs.«149819_j58428735095548_2_alg».proof.Proof.KernelIdealV2I
import proofs.«149819_j58428735095548_2_alg».proof.Proof.KernelIdealV3I
import proofs.«149819_j58428735095548_2_alg».proof.Proof.KernelIdealStageDefs
import Idealize.ShloMosaic.Lib.StableHlo.Run

set_option maxRecDepth 16384

noncomputable section

open scoped BigOperators

namespace Cert.KernelIdeal.Reg

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Idealize.ShloMosaic.MatmulRows Idealize.ShloMosaic.BlockSum
open Idealize.ShloMosaic.StableHlo

variable (m : (ℓ : Loc nD τ sig) → Buf (Elt Ideal) ℓ) (c : Dev nD)

/-! ## Layer 2 -/

theorem dl2_hl0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem dl2_hr1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The host stretch before region 2 leaves the combined adjacency alone. -/
theorem V5_adj : V5 m c main_v42_1 = W4 m c main_v42_1 :=
  StableHlo.after_of_writes_sub hostOps2 _ hostOps2_writes (by decide)

/-- The layer's weight matrix and bias are still the arguments. -/
theorem W4_Wm : W4 m c main_arg7 = m ((c.tc : Thread nD τ).loc main_arg7) :=
  (W4_keep m c main_arg7 (by decide)).trans <|
  (StableHlo.after_of_writes_sub hostOps1 _ hostOps1_writes (by decide)).trans <|
  (W2_keep m c main_arg7 (by decide)).trans <|
  (StableHlo.after_of_writes_sub hostOps0 _ hostOps0_writes (by decide)).trans rfl
theorem W4_bm : W4 m c main_arg8 = m ((c.tc : Thread nD τ).loc main_arg8) :=
  (W4_keep m c main_arg8 (by decide)).trans <|
  (StableHlo.after_of_writes_sub hostOps1 _ hostOps1_writes (by decide)).trans <|
  (W2_keep m c main_arg8 (by decide)).trans <|
  (StableHlo.after_of_writes_sub hostOps0 _ hostOps0_writes (by decide)).trans rfl

/-- The right factor the region is entered with: the previous layer times the weight matrix, its format changed. -/
theorem V5_fac : V5 m c main_v44
    = truncf (F := Ideal) .bf16 (Host.dotGeneral (F := Ideal) (φ₁ := .f32) (φ₂ := .f32) dot_S8192x128_S128x128_S8192x128_1_0_0_1_n_n none (W4 m c main_v42_0) (W4 m c main_arg7)) bitsLt_bf16_f32 := by
  dsimp only [V5, W5, hostOps2]
  after_results

/-- The bias row the region is entered with: the bias, reshaped to one row. -/
theorem V5_bias : V5 m c main_v45 = shapeCast S1x128 (W4 m c main_arg8) shapeCasts_S128_S1x128 := by
  dsimp only [V5, W5, hostOps2]
  after_results
  rfl

/-- An entry of that right factor: a row of the previous layer against a column of the weight matrix. -/
theorem V5_fac_apply (J : Fin 8192) (q : Fin 128) :
    entry (S := S8192x128) (V5 m c main_v44) (ix2 J q)
      = ∑ k : Fin 128, entry (S := S8192x128) (W4 m c main_v42_0) (ix2 J k) * entry (S := S128x128) (m ((c.tc : Thread nD τ).loc main_arg7)) (ix2 k q) := by
  refine (congrFun (V5_fac m c) (ix2 J q)).trans ?_
  refine (truncf_apply (φ := .f32) (ψ := .bf16) (Host.dotGeneral (F := Ideal) (φ₁ := .f32) (φ₂ := .f32) dot_S8192x128_S128x128_S8192x128_1_0_0_1_n_n none (W4 m c main_v42_0) (W4 m c main_arg7)) bitsLt_bf16_f32 (ix2 J q)).trans ?_
  refine (dotGeneral_apply dot_S8192x128_S128x128_S8192x128_1_0_0_1_n_n none .single rfl rfl rfl rfl dl2_hl0 dl2_hr1 _ _ (ix2 J q)).trans ?_
  exact Finset.sum_congr rfl fun k _ => congrArg (fun z : EReal => entry (S := S8192x128) (W4 m c main_v42_0) (ix2 J k) * z) (congrFun (W4_Wm m c) (ix2 k q))

/-- An entry of that bias row. -/
theorem V5_bias_apply (q : Fin 128) :
    entry (S := S1x128) (V5 m c main_v45) (ix2 0 q) = entry (S := S128) (m ((c.tc : Thread nD τ).loc main_arg8)) (ix1 q) := by
  refine (congrFun (V5_bias m c) (ix2 0 q)).trans ?_
  refine (shapeCast_apply (W4 m c main_arg8) shapeCasts_S128_S1x128 (ix2 0 q) (ix1 q) ?_).trans (congrFun (W4_bm m c) (ix1 q))
  show ((⟨1, ![128]⟩ : Shape).rowMajor (ix1 q)).val = ((⟨2, ![1, 128]⟩ : Shape).rowMajor (ix2 0 q)).val
  rw [Shape.rowMajor_val_one, Shape.rowMajor_val_two]
  show q.val = 0 * 128 + q.val
  omega

/-- The reference's layer 2 at an entry, over the combined adjacency and the previous layer. -/
theorem RV44_apply (R : Fin 8192) (q : Fin 128) :
    RV44 m c (ix2 R q)
      = max ((∑ J : Fin 8192, RV32 m c (ix2 R J) * ∑ k : Fin 128, RV38 m c (ix2 J k) * entry (S := S128x128) (m ((c.tc : Thread nD τ).loc main_arg7)) (ix2 k q))
          + entry (S := S128) (m ((c.tc : Thread nD τ).loc main_arg8)) (ix1 q)) 0 := by
  dsimp only [RV44, RV32, RV38]
  rw [Cert.ReferenceIdeal.ReadP.val_main_v44_apply, Cert.ReferenceIdeal.ReadP.val_main_v43_apply, Cert.ReferenceIdeal.ReadP.val_main_v40_apply, Cert.ReferenceIdeal.ReadP.val_main_v42_apply, Cert.ReferenceIdeal.ReadP.val_main_v41_apply, Cert.ReferenceIdeal.ReadP.val_main_call1_v0_apply, Cert.ReferenceIdeal.ReadP.val_main_call1_cst_apply]
  refine congrArg₂ (fun x y : EReal => max x y) (congrArg₂ (fun x y : EReal => x + y) (Finset.sum_congr rfl fun J _ => congrArg₂ (fun x y : EReal => x * y) ?_ ?_) ?_) Ideal.ofBits_zero_f32
  · exact congrArg _ (funext fun a => Fin.ext (by match a with | ⟨0, _⟩ => rfl | ⟨1, _⟩ => rfl))
  · refine (Cert.ReferenceIdeal.ReadP.val_main_v39_apply _ _ _ _ _ _ _ _ _).trans (Finset.sum_congr rfl fun k _ => congrArg₂ (fun x y : EReal => x * y) ?_ ?_)
    · exact congrArg _ (funext fun a => Fin.ext (by match a with | ⟨0, _⟩ => rfl | ⟨1, _⟩ => rfl))
    · exact congrArg _ (funext fun a => Fin.ext (by match a with | ⟨0, _⟩ => rfl | ⟨1, _⟩ => rfl))
  · exact congrArg _ (funext fun a => Fin.ext (by match a with | ⟨0, _⟩ => rfl))

/-- Layer 2: the region's result array is the reference's layer 2, given the combined adjacency and the previous layer. -/
theorem stage_l2 (hadj : ∀ (R J : Fin 8192), entry (S := S8192x8192) (W4 m c main_v42_1) (ix2 R J) = RV32 m c (ix2 R J))
    (hh : ∀ (R : Fin 8192) (q : Fin 128), entry (S := S8192x128) (W4 m c main_v42_0) (ix2 R q) = RV38 m c (ix2 R q)) :
    ∀ (R : Fin 8192) (q : Fin 128), entry (S := S8192x128) (W6 m c main_v46) (ix2 R q) = RV44 m c (ix2 R q) := by
  intro R q
  have key : entry (S := S8192x128) (W6 m c main_v46) (ix2 R q)
      = entry (S := S8192x128) ((dat2 (F := Ideal) (V5 m) c).arrAt 3 cfg2.N) (ix2 R q) := congrFun (W6_arr m c 3) (ix2 R q)
  refine key.trans ((final2 (V5 m) c R q).trans ((RV44_apply m c R q).symm ▸ ?_))
  refine congrArg₂ (fun x y : EReal => max x y) (congrArg₂ (fun x y : EReal => x + y) (Finset.sum_congr rfl fun J _ => congrArg₂ (fun x y : EReal => x * y) ?_ ?_) (V5_bias_apply m c q)) rfl
  · exact (congrFun (V5_adj m c) (ix2 R J)).trans (hadj R J)
  · exact (V5_fac_apply m c J q).trans (Finset.sum_congr rfl fun k _ => congrArg (fun z : EReal => z * entry (S := S128x128) (m ((c.tc : Thread nD τ).loc main_arg7)) (ix2 k q)) (hh J k))

/-! ## Layer 3 -/

theorem dl3_hl0 (i : S8192x16.Idx) (q : dot_S8192x128_S128x16_S8192x16_1_0_0_1_n_n.contr.Idx) : (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl
theorem dl3_hr1 (i : S8192x16.Idx) (q : dot_S8192x128_S128x16_S8192x16_1_0_0_1_n_n.contr.Idx) : (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-- The host stretch before region 3 leaves the combined adjacency alone. -/
theorem V7_adj : V7 m c main_v42_1 = W4 m c main_v42_1 :=
  (StableHlo.after_of_writes_sub hostOps3 _ hostOps3_writes (by decide)).trans <|
  (W6_keep m c main_v42_1 (by decide)).trans <|
  StableHlo.after_of_writes_sub hostOps2 _ hostOps2_writes (by decide)

/-- The layer's weight matrix and bias are still the arguments. -/
theorem W6_Wm : W6 m c main_arg9 = m ((c.tc : Thread nD τ).loc main_arg9) :=
  (W6_keep m c main_arg9 (by decide)).trans <|
  (StableHlo.after_of_writes_sub hostOps2 _ hostOps2_writes (by decide)).trans <|
  (W4_keep m c main_arg9 (by decide)).trans <|
  (StableHlo.after_of_writes_sub hostOps1 _ hostOps1_writes (by decide)).trans <|
  (W2_keep m c main_arg9 (by decide)).trans <|
  (StableHlo.after_of_writes_sub hostOps0 _ hostOps0_writes (by decide)).trans rfl
theorem W6_bm : W6 m c main_arg10 = m ((c.tc : Thread nD τ).loc main_arg10) :=
  (W6_keep m c main_arg10 (by decide)).trans <|
  (StableHlo.after_of_writes_sub hostOps2 _ hostOps2_writes (by decide)).trans <|
  (W4_keep m c main_arg10 (by decide)).trans <|
  (StableHlo.after_of_writes_sub hostOps1 _ hostOps1_writes (by decide)).trans <|
  (W2_keep m c main_arg10 (by decide)).trans <|
  (StableHlo.after_of_writes_sub hostOps0 _ hostOps0_writes (by decide)).trans rfl

/-- The right factor the region is entered with: the previous layer times the weight matrix, its format changed. -/
theorem V7_fac : V7 m c main_v48
    = truncf (F := Ideal) .bf16 (Host.dotGeneral (F := Ideal) (φ₁ := .f32) (φ₂ := .f32) dot_S8192x128_S128x16_S8192x16_1_0_0_1_n_n none (W6 m c main_v46) (W6 m c main_arg9)) bitsLt_bf16_f32 := by
  dsimp only [V7, W7, hostOps3]
  after_results

/-- The bias row the region is entered with: the bias, reshaped to one row. -/
theorem V7_bias : V7 m c main_v49 = shapeCast S1x16 (W6 m c main_arg10) shapeCasts_S16_S1x16 := by
  dsimp only [V7, W7, hostOps3]
  after_results
  rfl

/-- An entry of that right factor: a row of the previous layer against a column of the weight matrix. -/
theorem V7_fac_apply (J : Fin 8192) (q : Fin 16) :
    entry (S := S8192x16) (V7 m c main_v48) (ix2 J q)
      = ∑ k : Fin 128, entry (S := S8192x128) (W6 m c main_v46) (ix2 J k) * entry (S := S128x16) (m ((c.tc : Thread nD τ).loc main_arg9)) (ix2 k q) := by
  refine (congrFun (V7_fac m c) (ix2 J q)).trans ?_
  refine (truncf_apply (φ := .f32) (ψ := .bf16) (Host.dotGeneral (F := Ideal) (φ₁ := .f32) (φ₂ := .f32) dot_S8192x128_S128x16_S8192x16_1_0_0_1_n_n none (W6 m c main_v46) (W6 m c main_arg9)) bitsLt_bf16_f32 (ix2 J q)).trans ?_
  refine (dotGeneral_apply dot_S8192x128_S128x16_S8192x16_1_0_0_1_n_n none .single rfl rfl rfl rfl dl3_hl0 dl3_hr1 _ _ (ix2 J q)).trans ?_
  exact Finset.sum_congr rfl fun k _ => congrArg (fun z : EReal => entry (S := S8192x128) (W6 m c main_v46) (ix2 J k) * z) (congrFun (W6_Wm m c) (ix2 k q))

/-- An entry of that bias row. -/
theorem V7_bias_apply (q : Fin 16) :
    entry (S := S1x16) (V7 m c main_v49) (ix2 0 q) = entry (S := S16) (m ((c.tc : Thread nD τ).loc main_arg10)) (ix1 q) := by
  refine (congrFun (V7_bias m c) (ix2 0 q)).trans ?_
  refine (shapeCast_apply (W6 m c main_arg10) shapeCasts_S16_S1x16 (ix2 0 q) (ix1 q) ?_).trans (congrFun (W6_bm m c) (ix1 q))
  show ((⟨1, ![16]⟩ : Shape).rowMajor (ix1 q)).val = ((⟨2, ![1, 16]⟩ : Shape).rowMajor (ix2 0 q)).val
  rw [Shape.rowMajor_val_one, Shape.rowMajor_val_two]
  show q.val = 0 * 16 + q.val
  omega

/-- The reference's layer 3 at an entry, over the combined adjacency and the previous layer. -/
theorem RV49_apply (R : Fin 8192) (q : Fin 16) :
    RV49 m c (ix2 R q)
      = (∑ J : Fin 8192, RV32 m c (ix2 R J) * ∑ k : Fin 128, RV44 m c (ix2 J k) * entry (S := S128x16) (m ((c.tc : Thread nD τ).loc main_arg9)) (ix2 k q))
          + entry (S := S16) (m ((c.tc : Thread nD τ).loc main_arg10)) (ix1 q) := by
  dsimp only [RV49, RV32, RV44]
  rw [Cert.ReferenceIdeal.ReadP.val_main_v49_apply, Cert.ReferenceIdeal.ReadP.val_main_v46_apply, Cert.ReferenceIdeal.ReadP.val_main_v48_apply, Cert.ReferenceIdeal.ReadP.val_main_v47_apply]
  refine congrArg₂ (fun x y : EReal => x + y) (Finset.sum_congr rfl fun J _ => congrArg₂ (fun x y : EReal => x * y) ?_ ?_) ?_
  · exact congrArg _ (funext fun a => Fin.ext (by match a with | ⟨0, _⟩ => rfl | ⟨1, _⟩ => rfl))
  · refine (Cert.ReferenceIdeal.ReadP.val_main_v45_apply _ _ _ _ _ _ _ _ _ _ _).trans (Finset.sum_congr rfl fun k _ => congrArg₂ (fun x y : EReal => x * y) ?_ ?_)
    · exact congrArg _ (funext fun a => Fin.ext (by match a with | ⟨0, _⟩ => rfl | ⟨1, _⟩ => rfl))
    · exact congrArg _ (funext fun a => Fin.ext (by match a with | ⟨0, _⟩ => rfl | ⟨1, _⟩ => rfl))
  · exact congrArg _ (funext fun a => Fin.ext (by match a with | ⟨0, _⟩ => rfl))

/-- Layer 3: the region's result array is the reference's layer 3, given the combined adjacency and the previous layer. -/
theorem stage_l3 (hadj : ∀ (R J : Fin 8192), entry (S := S8192x8192) (W4 m c main_v42_1) (ix2 R J) = RV32 m c (ix2 R J))
    (hh : ∀ (R : Fin 8192) (q : Fin 128), entry (S := S8192x128) (W6 m c main_v46) (ix2 R q) = RV44 m c (ix2 R q)) :
    ∀ (R : Fin 8192) (q : Fin 16), entry (S := S8192x16) (W8 m c main_v50) (ix2 R q) = RV49 m c (ix2 R q) := by
  intro R q
  have key : entry (S := S8192x16) (W8 m c main_v50) (ix2 R q)
      = entry (S := S8192x16) ((dat3 (F := Ideal) (V7 m) c).arrAt 3 cfg3.N) (ix2 R q) := congrFun (W8_arr m c 3) (ix2 R q)
  refine key.trans ((final3 (V7 m) c R q).trans ((RV49_apply m c R q).symm ▸ ?_))
  refine congrArg₂ (fun x y : EReal => x + y) (Finset.sum_congr rfl fun J _ => congrArg₂ (fun x y : EReal => x * y) ?_ ?_) (V7_bias_apply m c q)
  · exact (congrFun (V7_adj m c) (ix2 R J)).trans (hadj R J)
  · exact (V7_fac_apply m c J q).trans (Finset.sum_congr rfl fun k _ => congrArg (fun z : EReal => z * entry (S := S128x16) (m ((c.tc : Thread nD τ).loc main_arg9)) (ix2 k q)) (hh J k))

/-! ## The result -/

/-- The result is the reference's: the same chain of host operations (row maximum, subtraction, exponential, row sum,
    division) applied to the third layer, once the third layers agree. -/
theorem stage_out (hz : ∀ (R : Fin 8192) (q : Fin 16), entry (S := S8192x16) (W8 m c main_v50) (ix2 R q) = RV49 m c (ix2 R q)) :
    (W9 m c main_v61 : S8192x16.Idx → EReal) = RV60 m c := by
  have e50 : (W8 m c main_v50 : S8192x16.Idx → EReal) = RV49 m c :=
    funext fun i => (congrArg (W8 m c main_v50 : S8192x16.Idx → EReal) (eq_ix2 i)).trans ((hz (i 0) (i 1)).trans (congrArg (RV49 m c) (eq_ix2 i).symm))
  dsimp only [W9, hostOps4]
  after_results
  rw [e50]
  rfl

end Cert.KernelIdeal.Reg

end
-- ==== Proof.Algebraic.lean ====
/-
  The two idealized programs end with equal results. The kernel's result buffer, read off its run, is the reference's
  result as a function of the same argument arrays: the logits agree (a padded zero column contributes nothing), hence
  the softmax weights; with them the combined adjacency and — the entries being real numbers for finite inputs — the
  first layer; then the second and third layers and the final row softmax, stage by stage.
-/
import proofs.«149819_j58428735095548_2_alg».proof.Defs
import proofs.«149819_j58428735095548_2_alg».proof.Proof.KernelIdealS1b
import proofs.«149819_j58428735095548_2_alg».proof.Proof.KernelIdealStageNz
import proofs.«149819_j58428735095548_2_alg».proof.Proof.KernelIdealFinite
import proofs.«149819_j58428735095548_2_alg».proof.Proof.KernelIdealNzReal
import proofs.«149819_j58428735095548_2_alg».proof.Proof.KernelIdealStage1
import proofs.«149819_j58428735095548_2_alg».proof.Proof.KernelIdealStage23
import proofs.«149819_j58428735095548_2_alg».proof.Proof.Gen.Pre_finite_inputs
import proofs.«149819_j58428735095548_2_alg».proof.Proof.Gen.ReferenceIdeal

set_option maxRecDepth 65536

noncomputable section

namespace Cert.Proof

open Idealize.ShloMosaic Idealize.ShloMosaic.TcCoe Idealize.SL.Sem Idealize.ShloMosaic.ValueIdx
open Cert.KernelIdeal Cert.KernelIdeal.Gen Cert.KernelIdeal.Reg

/-- The kernel's result buffer after its run is the reference's result of the same arguments. -/
theorem kernel_result (m : (ℓ : Loc nD τ sig) → Buf (Elt Ideal) ℓ)
    (hpre : Cert.Pre_KernelIdeal (hPre_finite_inputs := Cert.Pre_finite_inputs.Gen.facts) m) (c : Dev nD) :
    (W9 m c (Proc.devRef .tc main_v61) : S8192x16.Idx → EReal) = RV60 m c := by
  obtain ⟨hx0, hx1, hx2, hx3, hx4, hx5⟩ := pre_real (hP := Cert.Pre_finite_inputs.Gen.facts) m hpre c
  obtain ⟨h13, h17⟩ := logits_eq m c
  have hnz := stage_nz m c h13 h17
  have hnzr := nz_real m c hx0 hx1 hx3 hx4
  obtain ⟨hadj, hh1⟩ := stage_l1 m c hnz hnzr hx0 hx1 hx2 hx5
  exact stage_out m c (stage_l3 m c hadj (stage_l2 m c hadj hh1))

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W9 m c (Proc.devRef .tc main_v61), ?_, ?_⟩
  · exact (θ_run Cert.KernelIdeal.defs _ _).mono (fun r h c =>
      ⟨h c _ (mem_uc main_v61 (by decide)),
       (h c _ (mem_uc main_arg0 (by decide))).trans (W9_arg m c main_arg0 (by decide)),
       (h c _ (mem_uc main_arg1 (by decide))).trans (W9_arg m c main_arg1 (by decide)),
       (h c _ (mem_uc main_arg2 (by decide))).trans (W9_arg m c main_arg2 (by decide)),
       (h c _ (mem_uc main_arg3 (by decide))).trans (W9_arg m c main_arg3 (by decide)),
       (h c _ (mem_uc main_arg4 (by decide))).trans (W9_arg m c main_arg4 (by decide)),
       (h c _ (mem_uc main_arg5 (by decide))).trans (W9_arg m c main_arg5 (by decide)),
       (h c _ (mem_uc main_arg6 (by decide))).trans (W9_arg m c main_arg6 (by decide)),
       (h c _ (mem_uc main_arg7 (by decide))).trans (W9_arg m c main_arg7 (by decide)),
       (h c _ (mem_uc main_arg8 (by decide))).trans (W9_arg m c main_arg8 (by decide)),
       (h c _ (mem_uc main_arg9 (by decide))).trans (W9_arg m c main_arg9 (by decide)),
       (h c _ (mem_uc main_arg10 (by decide))).trans (W9_arg m c main_arg10 (by decide))⟩)
      (run_all m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v60_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (kernel_result m hpre c).symm

end Cert.Proof

end
-- ==== Proof.lean ====
/-
  The certificate: the four-pass graph-convolution kernel against its dense reference.

  The kernel runs four pipelined products with the (column-weighted) adjacency: the attention logits (both adjacencies
  against the attention vector, accumulated over eight column blocks), the first layer (two products against the
  separately weighted features, which also stores the combined adjacency nz0·adj0 + nz1·adj1 tile by tile), and two
  more layers against that combined adjacency, each accumulated block by block in a scratch accumulator and written
  back after the last block; the reference forms the combined adjacency first and takes three whole products.
  On the extended reals the two agree for finite inputs: a product accumulated block by block is the whole product
  (commutativity and associativity of the sum), a padded column of zeros contributes nothing, and in the first layer
  adj0·(nz0·y) + adj1·(nz1·y) = (nz0·adj0 + nz1·adj1)·y, the one step that needs the entries to be real numbers
  (the softmax weights of real logits, and products of finite inputs, are).
  Each program's frame — it terminates, faultless, its arguments unchanged — is read off the run of the whole program
  (for the reference, off its run as a list of host operations). The idealization rewrote nothing.
-/
import proofs.«149819_j58428735095548_2_alg».proof.Defs
import proofs.«149819_j58428735095548_2_alg».proof.Proof.Gen.Kernel
import proofs.«149819_j58428735095548_2_alg».proof.Proof.Gen.KernelIdeal
import proofs.«149819_j58428735095548_2_alg».proof.Proof.Gen.ReferenceIdeal
import proofs.«149819_j58428735095548_2_alg».proof.Proof.Gen.Pre_finite_inputs
import proofs.«149819_j58428735095548_2_alg».proof.Proof.KernelFrame
import proofs.«149819_j58428735095548_2_alg».proof.Proof.KernelIdealFrame
import proofs.«149819_j58428735095548_2_alg».proof.Proof.RefRunP
import proofs.«149819_j58428735095548_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Reg.frame m ρ
theorem frame_ki : Cert.frame_KernelIdeal := fun m ρ _ => Cert.KernelIdeal.Reg.frame m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
